-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v74_0)) (v1 : (c : Dev Cert.KernelIdeal.nD) → Buf (Elt Ideal) ((c.tc : Thread Cert.KernelIdeal.nD Cert.KernelIdeal.τ).loc Cert.KernelIdeal.main_v74_1)) (v2 : (c : Dev Cert.KernelIdeal.nD) → Buf (Elt Ideal) ((c.tc : Thread Cert.KernelIdeal.nD Cert.KernelIdeal.τ).loc Cert.KernelIdeal.main_v74_2)) (v3 : (c : Dev Cert.KernelIdeal.nD) → Buf (Elt Ideal) ((c.tc : Thread Cert.KernelIdeal.nD Cert.KernelIdeal.τ).loc Cert.KernelIdeal.main_v74_3)) (v4 : (c : Dev Cert.KernelIdeal.nD) → Buf (Elt Ideal) ((c.tc : Thread Cert.KernelIdeal.nD Cert.KernelIdeal.τ).loc Cert.KernelIdeal.main_v74_4)) (v5 : (c : Dev Cert.KernelIdeal.nD) → Buf (Elt Ideal) ((c.tc : Thread Cert.KernelIdeal.nD Cert.KernelIdeal.τ).loc Cert.KernelIdeal.main_v74_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74_0) = v0 c
          ∧ r.2.mem ((c.tc : Thread Cert.KernelIdeal.nD Cert.KernelIdeal.τ).loc Cert.KernelIdeal.main_v74_1) = v1 c
          ∧ r.2.mem ((c.tc : Thread Cert.KernelIdeal.nD Cert.KernelIdeal.τ).loc Cert.KernelIdeal.main_v74_2) = v2 c
          ∧ r.2.mem ((c.tc : Thread Cert.KernelIdeal.nD Cert.KernelIdeal.τ).loc Cert.KernelIdeal.main_v74_3) = v3 c
          ∧ r.2.mem ((c.tc : Thread Cert.KernelIdeal.nD Cert.KernelIdeal.τ).loc Cert.KernelIdeal.main_v74_4) = v4 c
          ∧ r.2.mem ((c.tc : Thread Cert.KernelIdeal.nD Cert.KernelIdeal.τ).loc Cert.KernelIdeal.main_v74_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v60) = v4 c
          ∧ r.2.mem ((c.tc : Thread Cert.ReferenceIdeal.nD Cert.ReferenceIdeal.τ).loc Cert.ReferenceIdeal.main_v68) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x6 : Shape := ⟨2, ![32768, 6]⟩
abbrev S32768x1024 : Shape := ⟨2, ![32768, 1024]⟩
abbrev S32768x200 : Shape := ⟨2, ![32768, 200]⟩
abbrev S32768x32 : Shape := ⟨2, ![32768, 32]⟩
abbrev S600x200 : Shape := ⟨2, ![600, 200]⟩
abbrev S600 : Shape := ⟨1, ![600]⟩
abbrev S200x6 : Shape := ⟨2, ![200, 6]⟩
abbrev S200 : Shape := ⟨1, ![200]⟩
abbrev S200x1024 : Shape := ⟨2, ![200, 1024]⟩
abbrev S200x200 : Shape := ⟨2, ![200, 200]⟩
abbrev S32x200 : Shape := ⟨2, ![32, 200]⟩
abbrev S32 : Shape := ⟨1, ![32]⟩
abbrev S200x1224 : Shape := ⟨2, ![200, 1224]⟩
abbrev S_ : Shape := ⟨0, ![]⟩

class Facts : Prop where
  bcast_S_S32768x6 : S_.BroadcastsInDim S32768x6 (![] : Fin 0 → Fin S32768x6.rank)
  reducesTo_S32768x6_S_d0_1 : S32768x6.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S32768x200 : S_.BroadcastsInDim S32768x200 (![] : Fin 0 → Fin S32768x200.rank)
  reducesTo_S32768x200_S_d0_1 : S32768x200.ReducesTo [0, 1] S_
  bcast_S_S32768x32 : S_.BroadcastsInDim S32768x32 (![] : Fin 0 → Fin S32768x32.rank)
  reducesTo_S32768x32_S_d0_1 : S32768x32.ReducesTo [0, 1] S_
  bcast_S_S600x200 : S_.BroadcastsInDim S600x200 (![] : Fin 0 → Fin S600x200.rank)
  reducesTo_S600x200_S_d0_1 : S600x200.ReducesTo [0, 1] S_
  bcast_S_S600 : S_.BroadcastsInDim S600 (![] : Fin 0 → Fin S600.rank)
  reducesTo_S600_S_d0 : S600.ReducesTo [0] S_
  bcast_S_S200x6 : S_.BroadcastsInDim S200x6 (![] : Fin 0 → Fin S200x6.rank)
  reducesTo_S200x6_S_d0_1 : S200x6.ReducesTo [0, 1] S_
  bcast_S_S200 : S_.BroadcastsInDim S200 (![] : Fin 0 → Fin S200.rank)
  reducesTo_S200_S_d0 : S200.ReducesTo [0] S_
  bcast_S_S200x1024 : S_.BroadcastsInDim S200x1024 (![] : Fin 0 → Fin S200x1024.rank)
  reducesTo_S200x1024_S_d0_1 : S200x1024.ReducesTo [0, 1] S_
  bcast_S_S200x200 : S_.BroadcastsInDim S200x200 (![] : Fin 0 → Fin S200x200.rank)
  reducesTo_S200x200_S_d0_1 : S200x200.ReducesTo [0, 1] S_
  bcast_S_S32x200 : S_.BroadcastsInDim S32x200 (![] : Fin 0 → Fin S32x200.rank)
  reducesTo_S32x200_S_d0_1 : S32x200.ReducesTo [0, 1] S_
  bcast_S_S32 : S_.BroadcastsInDim S32 (![] : Fin 0 → Fin S32.rank)
  reducesTo_S32_S_d0 : S32.ReducesTo [0] S_
  bcast_S_S200x1224 : S_.BroadcastsInDim S200x1224 (![] : Fin 0 → Fin S200x1224.rank)
  reducesTo_S200x1224_S_d0_1 : S200x1224.ReducesTo [0, 1] S_

variable [Facts]

def fn_part6 {F : FTy → Type} [FloatOps F] (main_arg21 : FVec F S32 .f32) (main_arg22 : FVec F S32x200 .f32) (main_arg23 : FVec F S32 .f32) (main_v98 : IVec S_ 1) (main_v101 : IVec S32x200 1) (main_c_39 : IVec S_ 1) : IVec S_ 1 :=
  let main_v102 : IVec S_ 1 := (fun x v => Host.reduce IntOp.andi x v reducesTo_S32x200_S_d0_1 h_S_) main_v101 main_c_39
  let main_v103 : IVec S_ 1 := andi main_v98 main_v102
  let main_v104 : FVec F S32 .f32 := Host.absf main_arg21
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32x200 .f32 := Host.absf main_arg22
  let main_cst_42 : FVec F S_ .f32 := constant S_ .f32 0x7F800000#32
  let main_v110 : FVec F S32x200 .f32 := broadcastInDim S32x200 ![] bcast_S_S32x200 main_cst_42
  let main_v111 : IVec S32x200 1 := cmpf .olt main_v109 main_v110
  let main_c_43 : IVec S_ 1 := constantI S_ 1 1#1
  let main_v112 : IVec S_ 1 := (fun x v => Host.reduce IntOp.andi x v reducesTo_S32x200_S_d0_1 h_S_) main_v111 main_c_43
  let main_v113 : IVec S_ 1 := andi main_v108 main_v112
  let main_v114 : FVec F S32 .f32 := Host.absf main_arg23
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  main_v118

def fn_part5 {F : FTy → Type} [FloatOps F] (main_arg18 : FVec F S200x1224 .f32) (main_arg19 : FVec F S200 .f32) (main_arg20 : FVec F S32x200 .f32) (main_arg21 : FVec F S32 .f32) (main_arg22 : FVec F S32x200 .f32) (main_arg23 : FVec F S32 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S200x1224 .f32 := Host.absf main_arg18
  let main_cst_34 : FVec F S_ .f32 := constant S_ .f32 0x7F800000#32
  let main_v90 : FVec F S200x1224 .f32 := broadcastInDim S200x1224 ![] bcast_S_S200x1224 main_cst_34
  let main_v91 : IVec S200x1224 1 := cmpf .olt main_v89 main_v90
  let main_c_35 : IVec S_ 1 := constantI S_ 1 1#1
  let main_v92 : IVec S_ 1 := (fun x v => Host.reduce IntOp.andi x v reducesTo_S200x1224_S_d0_1 h_S_) main_v91 main_c_35
  let main_v93 : IVec S_ 1 := andi main_v88 main_v92
  let main_v94 : FVec F S200 .f32 := Host.absf main_arg19
  let main_cst_36 : FVec F S_ .f32 := constant S_ .f32 0x7F800000#32
  let main_v95 : FVec F S200 .f32 := broadcastInDim S200 ![] bcast_S_S200 main_cst_36
  let main_v96 : IVec S200 1 := cmpf .olt main_v94 main_v95
  let main_c_37 : IVec S_ 1 := constantI S_ 1 1#1
  let main_v97 : IVec S_ 1 := (fun x v => Host.reduce IntOp.andi x v reducesTo_S200_S_d0 h_S_) main_v96 main_c_37
  let main_v98 : IVec S_ 1 := andi main_v93 main_v97
  let main_v99 : FVec F S32x200 .f32 := Host.absf main_arg20
  let main_cst_38 : FVec F S_ .f32 := constant S_ .f32 0x7F800000#32
  let main_v100 : FVec F S32x200 .f32 := broadcastInDim S32x200 ![] bcast_S_S32x200 main_cst_38
  let main_v101 : IVec S32x200 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S32x200 .f32) (main_arg15 : FVec F S32 .f32) (main_arg16 : FVec F S32x200 .f32) (main_arg17 : FVec F S32 .f32) (main_arg18 : FVec F S200x1224 .f32) (main_arg19 : FVec F S200 .f32) (main_arg20 : FVec F S32x200 .f32) (main_arg21 : FVec F S32 .f32) (main_arg22 : FVec F S32x200 .f32) (main_arg23 : FVec F S32 .f32) (main_v63 : IVec S_ 1) (main_v67 : IVec S_ 1) : IVec S_ 1 :=
  let main_v68 : IVec S_ 1 := andi main_v63 main_v67
  let main_v69 : FVec F S32x200 .f32 := Host.absf main_arg14
  let main_cst_26 : FVec F S_ .f32 := constant S_ .f32 0x7F800000#32
  let main_v70 : FVec F S32x200 .f32 := broadcastInDim S32x200 ![] bcast_S_S32x200 main_cst_26
  let main_v71 : IVec S32x200 1 := cmpf .olt main_v69 main_v70
  let main_c_27 : IVec S_ 1 := constantI S_ 1 1#1
  let main_v72 : IVec S_ 1 := (fun x v => Host.reduce IntOp.andi x v reducesTo_S32x200_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x200 .f32 := Host.absf main_arg16
  let main_cst_30 : FVec F S_ .f32 := constant S_ .f32 0x7F800000#32
  let main_v80 : FVec F S32x200 .f32 := broadcastInDim S32x200 ![] bcast_S_S32x200 main_cst_30
  let main_v81 : IVec S32x200 1 := cmpf .olt main_v79 main_v80
  let main_c_31 : IVec S_ 1 := constantI S_ 1 1#1
  let main_v82 : IVec S_ 1 := (fun x v => Host.reduce IntOp.andi x v reducesTo_S32x200_S_d0_1 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S200 .f32) (main_arg12 : FVec F S200x200 .f32) (main_arg13 : FVec F S200 .f32) (main_arg14 : FVec F S32x200 .f32) (main_arg15 : FVec F S32 .f32) (main_arg16 : FVec F S32x200 .f32) (main_arg17 : FVec F S32 .f32) (main_arg18 : FVec F S200x1224 .f32) (main_arg19 : FVec F S200 .f32) (main_arg20 : FVec F S32x200 .f32) (main_arg21 : FVec F S32 .f32) (main_arg22 : FVec F S32x200 .f32) (main_arg23 : FVec F S32 .f32) (main_v48 : IVec S_ 1) (main_v49 : FVec F S200x1024 .f32) (main_v50 : FVec F S200x1024 .f32) : IVec S_ 1 :=
  let main_v51 : IVec S200x1024 1 := cmpf .olt main_v49 main_v50
  let main_c_19 : IVec S_ 1 := constantI S_ 1 1#1
  let main_v52 : IVec S_ 1 := (fun x v => Host.reduce IntOp.andi x v reducesTo_S200x1024_S_d0_1 h_S_) main_v51 main_c_19
  let main_v53 : IVec S_ 1 := andi main_v48 main_v52
  let main_v54 : FVec F S200 .f32 := Host.absf main_arg11
  let main_cst_20 : FVec F S_ .f32 := constant S_ .f32 0x7F800000#32
  let main_v55 : FVec F S200 .f32 := broadcastInDim S200 ![] bcast_S_S200 main_cst_20
  let main_v56 : IVec S200 1 := cmpf .olt main_v54 main_v55
  let main_c_21 : IVec S_ 1 := constantI S_ 1 1#1
  let main_v57 : IVec S_ 1 := (fun x v => Host.reduce IntOp.andi x v reducesTo_S200_S_d0 h_S_) main_v56 main_c_21
  let main_v58 : IVec S_ 1 := andi main_v53 main_v57
  let main_v59 : FVec F S200x200 .f32 := Host.absf main_arg12
  let main_cst_22 : FVec F S_ .f32 := constant S_ .f32 0x7F800000#32
  let main_v60 : FVec F S200x200 .f32 := broadcastInDim S200x200 ![] bcast_S_S200x200 main_cst_22
  let main_v61 : IVec S200x200 1 := cmpf .olt main_v59 main_v60
  let main_c_23 : IVec S_ 1 := constantI S_ 1 1#1
  let main_v62 : IVec S_ 1 := (fun x v => Host.reduce IntOp.andi x v reducesTo_S200x200_S_d0_1 h_S_) main_v61 main_c_23
  let main_v63 : IVec S_ 1 := andi main_v58 main_v62
  let main_v64 : FVec F S200 .f32 := Host.absf main_arg13
  let main_cst_24 : FVec F S_ .f32 := constant S_ .f32 0x7F800000#32
  let main_v65 : FVec F S200 .f32 := broadcastInDim S200 ![] bcast_S_S200 main_cst_24
  let main_v66 : IVec S200 1 := cmpf .olt main_v64 main_v65
  let main_c_25 : IVec S_ 1 := constantI S_ 1 1#1
  let main_v67 : IVec S_ 1 := (fun x v => Host.reduce IntOp.andi x v reducesTo_S200_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S600 .f32) (main_arg8 : FVec F S200x6 .f32) (main_arg9 : FVec F S200 .f32) (main_arg10 : FVec F S200x1024 .f32) (main_arg11 : FVec F S200 .f32) (main_arg12 : FVec F S200x200 .f32) (main_arg13 : FVec F S200 .f32) (main_arg14 : FVec F S32x200 .f32) (main_arg15 : FVec F S32 .f32) (main_arg16 : FVec F S32x200 .f32) (main_arg17 : FVec F S32 .f32) (main_arg18 : FVec F S200x1224 .f32) (main_arg19 : FVec F S200 .f32) (main_arg20 : FVec F S32x200 .f32) (main_arg21 : FVec F S32 .f32) (main_arg22 : FVec F S32x200 .f32) (main_arg23 : FVec F S32 .f32) (main_v33 : IVec S_ 1) : IVec S_ 1 :=
  let main_v34 : FVec F S600 .f32 := Host.absf main_arg7
  let main_cst_12 : FVec F S_ .f32 := constant S_ .f32 0x7F800000#32
  let main_v35 : FVec F S600 .f32 := broadcastInDim S600 ![] bcast_S_S600 main_cst_12
  let main_v36 : IVec S600 1 := cmpf .olt main_v34 main_v35
  let main_c_13 : IVec S_ 1 := constantI S_ 1 1#1
  let main_v37 : IVec S_ 1 := (fun x v => Host.reduce IntOp.andi x v reducesTo_S600_S_d0 h_S_) main_v36 main_c_13
  let main_v38 : IVec S_ 1 := andi main_v33 main_v37
  let main_v39 : FVec F S200x6 .f32 := Host.absf main_arg8
  let main_cst_14 : FVec F S_ .f32 := constant S_ .f32 0x7F800000#32
  let main_v40 : FVec F S200x6 .f32 := broadcastInDim S200x6 ![] bcast_S_S200x6 main_cst_14
  let main_v41 : IVec S200x6 1 := cmpf .olt main_v39 main_v40
  let main_c_15 : IVec S_ 1 := constantI S_ 1 1#1
  let main_v42 : IVec S_ 1 := (fun x v => Host.reduce IntOp.andi x v reducesTo_S200x6_S_d0_1 h_S_) main_v41 main_c_15
  let main_v43 : IVec S_ 1 := andi main_v38 main_v42
  let main_v44 : FVec F S200 .f32 := Host.absf main_arg9
  let main_cst_16 : FVec F S_ .f32 := constant S_ .f32 0x7F800000#32
  let main_v45 : FVec F S200 .f32 := broadcastInDim S200 ![] bcast_S_S200 main_cst_16
  let main_v46 : IVec S200 1 := cmpf .olt main_v44 main_v45
  let main_c_17 : IVec S_ 1 := constantI S_ 1 1#1
  let main_v47 : IVec S_ 1 := (fun x v => Host.reduce IntOp.andi x v reducesTo_S200_S_d0 h_S_) main_v46 main_c_17
  let main_v48 : IVec S_ 1 := andi main_v43 main_v47
  let main_v49 : FVec F S200x1024 .f32 := Host.absf main_arg10
  let main_cst_18 : FVec F S_ .f32 := constant S_ .f32 0x7F800000#32
  let main_v50 : FVec F S200x1024 .f32 := broadcastInDim S200x1024 ![] bcast_S_S200x1024 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S600x200 .f32) (main_arg5 : FVec F S600 .f32) (main_arg6 : FVec F S600x200 .f32) (main_arg7 : FVec F S600 .f32) (main_arg8 : FVec F S200x6 .f32) (main_arg9 : FVec F S200 .f32) (main_arg10 : FVec F S200x1024 .f32) (main_arg11 : FVec F S200 .f32) (main_arg12 : FVec F S200x200 .f32) (main_arg13 : FVec F S200 .f32) (main_arg14 : FVec F S32x200 .f32) (main_arg15 : FVec F S32 .f32) (main_arg16 : FVec F S32x200 .f32) (main_arg17 : FVec F S32 .f32) (main_arg18 : FVec F S200x1224 .f32) (main_arg19 : FVec F S200 .f32) (main_arg20 : FVec F S32x200 .f32) (main_arg21 : FVec F S32 .f32) (main_arg22 : FVec F S32x200 .f32) (main_arg23 : FVec F S32 .f32) (main_v13 : IVec S_ 1) (main_v16 : IVec S32768x32 1) : IVec S_ 1 :=
  let main_c_5 : IVec S_ 1 := constantI S_ 1 1#1
  let main_v17 : IVec S_ 1 := (fun x v => Host.reduce IntOp.andi x v reducesTo_S32768x32_S_d0_1 h_S_) main_v16 main_c_5
  let main_v18 : IVec S_ 1 := andi main_v13 main_v17
  let main_v19 : FVec F S600x200 .f32 := Host.absf main_arg4
  let main_cst_6 : FVec F S_ .f32 := constant S_ .f32 0x7F800000#32
  let main_v20 : FVec F S600x200 .f32 := broadcastInDim S600x200 ![] bcast_S_S600x200 main_cst_6
  let main_v21 : IVec S600x200 1 := cmpf .olt main_v19 main_v20
  let main_c_7 : IVec S_ 1 := constantI S_ 1 1#1
  let main_v22 : IVec S_ 1 := (fun x v => Host.reduce IntOp.andi x v reducesTo_S600x200_S_d0_1 h_S_) main_v21 main_c_7
  let main_v23 : IVec S_ 1 := andi main_v18 main_v22
  let main_v24 : FVec F S600 .f32 := Host.absf main_arg5
  let main_cst_8 : FVec F S_ .f32 := constant S_ .f32 0x7F800000#32
  let main_v25 : FVec F S600 .f32 := broadcastInDim S600 ![] bcast_S_S600 main_cst_8
  let main_v26 : IVec S600 1 := cmpf .olt main_v24 main_v25
  let main_c_9 : IVec S_ 1 := constantI S_ 1 1#1
  let main_v27 : IVec S_ 1 := (fun x v => Host.reduce IntOp.andi x v reducesTo_S600_S_d0 h_S_) main_v26 main_c_9
  let main_v28 : IVec S_ 1 := andi main_v23 main_v27
  let main_v29 : FVec F S600x200 .f32 := Host.absf main_arg6
  let main_cst_10 : FVec F S_ .f32 := constant S_ .f32 0x7F800000#32
  let main_v30 : FVec F S600x200 .f32 := broadcastInDim S600x200 ![] bcast_S_S600x200 main_cst_10
  let main_v31 : IVec S600x200 1 := cmpf .olt main_v29 main_v30
  let main_c_11 : IVec S_ 1 := constantI S_ 1 1#1
  let main_v32 : IVec S_ 1 := (fun x v => Host.reduce IntOp.andi x v reducesTo_S600x200_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S32768x6 .f32) (main_arg1 : FVec F S32768x1024 .f32) (main_arg2 : FVec F S32768x200 .f32) (main_arg3 : FVec F S32768x32 .f32) (main_arg4 : FVec F S600x200 .f32) (main_arg5 : FVec F S600 .f32) (main_arg6 : FVec F S600x200 .f32) (main_arg7 : FVec F S600 .f32) (main_arg8 : FVec F S200x6 .f32) (main_arg9 : FVec F S200 .f32) (main_arg10 : FVec F S200x1024 .f32) (main_arg11 : FVec F S200 .f32) (main_arg12 : FVec F S200x200 .f32) (main_arg13 : FVec F S200 .f32) (main_arg14 : FVec F S32x200 .f32) (main_arg15 : FVec F S32 .f32) (main_arg16 : FVec F S32x200 .f32) (main_arg17 : FVec F S32 .f32) (main_arg18 : FVec F S200x1224 .f32) (main_arg19 : FVec F S200 .f32) (main_arg20 : FVec F S32x200 .f32) (main_arg21 : FVec F S32 .f32) (main_arg22 : FVec F S32x200 .f32) (main_arg23 : FVec F S32 .f32) : IVec S_ 1 :=
  let main_v0 : FVec F S32768x6 .f32 := Host.absf main_arg0
  let main_cst : FVec F S_ .f32 := constant S_ .f32 0x7F800000#32
  let main_v1 : FVec F S32768x6 .f32 := broadcastInDim S32768x6 ![] bcast_S_S32768x6 main_cst
  let main_v2 : IVec S32768x6 1 := cmpf .olt main_v0 main_v1
  let main_c : IVec S_ 1 := constantI S_ 1 1#1
  let main_v3 : IVec S_ 1 := (fun x v => Host.reduce IntOp.andi x v reducesTo_S32768x6_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768x200 .f32 := Host.absf main_arg2
  let main_cst_2 : FVec F S_ .f32 := constant S_ .f32 0x7F800000#32
  let main_v10 : FVec F S32768x200 .f32 := broadcastInDim S32768x200 ![] bcast_S_S32768x200 main_cst_2
  let main_v11 : IVec S32768x200 1 := cmpf .olt main_v9 main_v10
  let main_c_3 : IVec S_ 1 := constantI S_ 1 1#1
  let main_v12 : IVec S_ 1 := (fun x v => Host.reduce IntOp.andi x v reducesTo_S32768x200_S_d0_1 h_S_) main_v11 main_c_3
  let main_v13 : IVec S_ 1 := andi main_v8 main_v12
  let main_v14 : FVec F S32768x32 .f32 := Host.absf main_arg3
  let main_cst_4 : FVec F S_ .f32 := constant S_ .f32 0x7F800000#32
  let main_v15 : FVec F S32768x32 .f32 := broadcastInDim S32768x32 ![] bcast_S_S32768x32 main_cst_4
  let main_v16 : IVec S32768x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S32768x6 : Shape := ⟨2, ![32768, 6]⟩
abbrev S32768x1024 : Shape := ⟨2, ![32768, 1024]⟩
abbrev S32768x200 : Shape := ⟨2, ![32768, 200]⟩
abbrev S32768x32 : Shape := ⟨2, ![32768, 32]⟩
abbrev S600x200 : Shape := ⟨2, ![600, 200]⟩
abbrev S600 : Shape := ⟨1, ![600]⟩
abbrev S200x6 : Shape := ⟨2, ![200, 6]⟩
abbrev S200 : Shape := ⟨1, ![200]⟩
abbrev S200x1024 : Shape := ⟨2, ![200, 1024]⟩
abbrev S200x200 : Shape := ⟨2, ![200, 200]⟩
abbrev S32x200 : Shape := ⟨2, ![32, 200]⟩
abbrev S32 : Shape := ⟨1, ![32]⟩
abbrev S200x1224 : Shape := ⟨2, ![200, 1224]⟩
abbrev S200x600 : Shape := ⟨2, ![200, 600]⟩
abbrev S_ : Shape := ⟨0, ![]⟩
abbrev S200x768 : Shape := ⟨2, ![200, 768]⟩
abbrev S1 : Shape := ⟨1, ![1]⟩
abbrev S768 : Shape := ⟨1, ![768]⟩
abbrev S1x768 : Shape := ⟨2, ![1, 768]⟩
abbrev S6x200 : Shape := ⟨2, ![6, 200]⟩
abbrev S1024x200 : Shape := ⟨2, ![1024, 200]⟩
abbrev S200x32 : Shape := ⟨2, ![200, 32]⟩
abbrev S200x64 : Shape := ⟨2, ![200, 64]⟩
abbrev S64 : Shape := ⟨1, ![64]⟩
abbrev S1x64 : Shape := ⟨2, ![1, 64]⟩
abbrev S1x200 : Shape := ⟨2, ![1, 200]⟩
abbrev S1024x6 : Shape := ⟨2, ![1024, 6]⟩
abbrev S1024x1024 : Shape := ⟨2, ![1024, 1024]⟩
abbrev S1024x32 : Shape := ⟨2, ![1024, 32]⟩
abbrev S1024x768 : Shape := ⟨2, ![1024, 768]⟩
abbrev S1024x64 : Shape := ⟨2, ![1024, 64]⟩

abbrev nBuf : Space → Nat
  | .hbm => 120
  | .vmem => 37
  | .smem => 0
  | _ => 0

abbrev bufTy : (tb : Table) → Fin (tcTables nBuf tb) → BufTy
  | .hbm, ⟨0, _⟩ => ⟨S32768x6, .f32⟩
  | .hbm, ⟨1, _⟩ => ⟨S32768x1024, .f32⟩
  | .hbm, ⟨2, _⟩ => ⟨S32768x200, .f32⟩
  | .hbm, ⟨3, _⟩ => ⟨S32768x32, .f32⟩
  | .hbm, ⟨4, _⟩ => ⟨S600x200, .f32⟩
  | .hbm, ⟨5, _⟩ => ⟨S600, .f32⟩
  | .hbm, ⟨6, _⟩ => ⟨S600x200, .f32⟩
  | .hbm, ⟨7, _⟩ => ⟨S600, .f32⟩
  | .hbm, ⟨8, _⟩ => ⟨S200x6, .f32⟩
  | .hbm, ⟨9, _⟩ => ⟨S200, .f32⟩
  | .hbm, ⟨10, _⟩ => ⟨S200x1024, .f32⟩
  | .hbm, ⟨11, _⟩ => ⟨S200, .f32⟩
  | .hbm, ⟨12, _⟩ => ⟨S200x200, .f32⟩
  | .hbm, ⟨13, _⟩ => ⟨S200, .f32⟩
  | .hbm, ⟨14, _⟩ => ⟨S32x200, .f32⟩
  | .hbm, ⟨15, _⟩ => ⟨S32, .f32⟩
  | .hbm, ⟨16, _⟩ => ⟨S32x200, .f32⟩
  | .hbm, ⟨17, _⟩ => ⟨S32, .f32⟩
  | .hbm, ⟨18, _⟩ => ⟨S200x1224, .f32⟩
  | .hbm, ⟨19, _⟩ => ⟨S200, .f32⟩
  | .hbm, ⟨20, _⟩ => ⟨S32x200, .f32⟩
  | .hbm, ⟨21, _⟩ => ⟨S32, .f32⟩
  | .hbm, ⟨22, _⟩ => ⟨S32x200, .f32⟩
  | .hbm, ⟨23, _⟩ => ⟨S32, .f32⟩
  | .hbm, ⟨24, _⟩ => ⟨S200x600, .f32⟩
  | .hbm, ⟨25, _⟩ => ⟨S_, .f32⟩
  | .hbm, ⟨26, _⟩ => ⟨S200x768, .f32⟩
  | .hbm, ⟨27, _⟩ => ⟨S200x200, .f32⟩
  | .hbm, ⟨28, _⟩ => ⟨S_, .i32⟩
  | .hbm, ⟨29, _⟩ => ⟨S1, .i32⟩
  | .hbm, ⟨30, _⟩ => ⟨S200x768, .f32⟩
  | .hbm, ⟨31, _⟩ => ⟨S200x200, .f32⟩
  | .hbm, ⟨32, _⟩ => ⟨S_, .i32⟩
  | .hbm, ⟨33, _⟩ => ⟨S1, .i32⟩
  | .hbm, ⟨34, _⟩ => ⟨S200x768, .f32⟩
  | .hbm, ⟨35, _⟩ => ⟨S200x200, .f32⟩
  | .hbm, ⟨36, _⟩ => ⟨S_, .i32⟩
  | .hbm, ⟨37, _⟩ => ⟨S1, .i32⟩
  | .hbm, ⟨38, _⟩ => ⟨S200x768, .f32⟩
  | .hbm, ⟨39, _⟩ => ⟨S200x768, .bf16⟩
  | .hbm, ⟨40, _⟩ => ⟨S200x600, .f32⟩
  | .hbm, ⟨41, _⟩ => ⟨S_, .f32⟩
  | .hbm, ⟨42, _⟩ => ⟨S200x768, .f32⟩
  | .hbm, ⟨43, _⟩ => ⟨S200x200, .f32⟩
  | .hbm, ⟨44, _⟩ => ⟨S_, .i32⟩
  | .hbm, ⟨45, _⟩ => ⟨S1, .i32⟩
  | .hbm, ⟨46, _⟩ => ⟨S200x768, .f32⟩
  | .hbm, ⟨47, _⟩ => ⟨S200x200, .f32⟩
  | .hbm, ⟨48, _⟩ => ⟨S_, .i32⟩
  | .hbm, ⟨49, _⟩ => ⟨S1, .i32⟩
  | .hbm, ⟨50, _⟩ => ⟨S200x768, .f32⟩
  | .hbm, ⟨51, _⟩ => ⟨S200x200, .f32⟩
  | .hbm, ⟨52, _⟩ => ⟨S_, .i32⟩
  | .hbm, ⟨53, _⟩ => ⟨S1, .i32⟩
  | .hbm, ⟨54, _⟩ => ⟨S200x768, .f32⟩
  | .hbm, ⟨55, _⟩ => ⟨S200x768, .bf16⟩
  | .hbm, ⟨56, _⟩ => ⟨S_, .f32⟩
  | .hbm, ⟨57, _⟩ => ⟨S768, .f32⟩
  | .hbm, ⟨58, _⟩ => ⟨S200, .f32⟩
  | .hbm, ⟨59, _⟩ => ⟨S_, .i32⟩
  | .hbm, ⟨60, _⟩ => ⟨S1, .i32⟩
  | .hbm, ⟨61, _⟩ => ⟨S768, .f32⟩
  | .hbm, ⟨62, _⟩ => ⟨S200, .f32⟩
  | .hbm, ⟨63, _⟩ => ⟨S_, .i32⟩
  | .hbm, ⟨64, _⟩ => ⟨S1, .i32⟩
  | .hbm, ⟨65, _⟩ => ⟨S768, .f32⟩
  | .hbm, ⟨66, _⟩ => ⟨S200, .f32⟩
  | .hbm, ⟨67, _⟩ => ⟨S_, .i32⟩
  | .hbm, ⟨68, _⟩ => ⟨S1, .i32⟩
  | .hbm, ⟨69, _⟩ => ⟨S768, .f32⟩
  | .hbm, ⟨70, _⟩ => ⟨S1x768, .f32⟩
  | .hbm, ⟨71, _⟩ => ⟨S_, .f32⟩
  | .hbm, ⟨72, _⟩ => ⟨S768, .f32⟩
  | .hbm, ⟨73, _⟩ => ⟨S200, .f32⟩
  | .hbm, ⟨74, _⟩ => ⟨S_, .i32⟩
  | .hbm, ⟨75, _⟩ => ⟨S1, .i32⟩
  | .hbm, ⟨76, _⟩ => ⟨S768, .f32⟩
  | .hbm, ⟨77, _⟩ => ⟨S200, .f32⟩
  | .hbm, ⟨78, _⟩ => ⟨S_, .i32⟩
  | .hbm, ⟨79, _⟩ => ⟨S1, .i32⟩
  | .hbm, ⟨80, _⟩ => ⟨S768, .f32⟩
  | .hbm, ⟨81, _⟩ => ⟨S200, .f32⟩
  | .hbm, ⟨82, _⟩ => ⟨S_, .i32⟩
  | .hbm, ⟨83, _⟩ => ⟨S1, .i32⟩
  | .hbm, ⟨84, _⟩ => ⟨S768, .f32⟩
  | .hbm, ⟨85, _⟩ => ⟨S1x768, .f32⟩
  | .hbm, ⟨86, _⟩ => ⟨S6x200, .f32⟩
  | .hbm, ⟨87, _⟩ => ⟨S6x200, .bf16⟩
  | .hbm, ⟨88, _⟩ => ⟨S1024x200, .f32⟩
  | .hbm, ⟨89, _⟩ => ⟨S1024x200, .bf16⟩
  | .hbm, ⟨90, _⟩ => ⟨S200x200, .f32⟩
  | .hbm, ⟨91, _⟩ => ⟨S200x200, .bf16⟩
  | .hbm, ⟨92, _⟩ => ⟨S200x32, .f32⟩
  | .hbm, ⟨93, _⟩ => ⟨S200x32, .f32⟩
  | .hbm, ⟨94, _⟩ => ⟨S200x64, .f32⟩
  | .hbm, ⟨95, _⟩ => ⟨S200x64, .bf16⟩
  | .hbm, ⟨96, _⟩ => ⟨S64, .f32⟩
  | .hbm, ⟨97, _⟩ => ⟨S1x64, .f32⟩
  | .hbm, ⟨98, _⟩ => ⟨S200x200, .f32⟩
  | .hbm, ⟨99, _⟩ => ⟨S200x200, .f32⟩
  | .hbm, ⟨100, _⟩ => ⟨S200x200, .bf16⟩
  | .hbm, ⟨101, _⟩ => ⟨S200x1024, .f32⟩
  | .hbm, ⟨102, _⟩ => ⟨S1024x200, .f32⟩
  | .hbm, ⟨103, _⟩ => ⟨S1024x200, .bf16⟩
  | .hbm, ⟨104, _⟩ => ⟨S200x32, .f32⟩
  | .hbm, ⟨105, _⟩ => ⟨S200x32, .f32⟩
  | .hbm, ⟨106, _⟩ => ⟨S200x64, .f32⟩
  | .hbm, ⟨107, _⟩ => ⟨S200x64, .bf16⟩
  | .hbm, ⟨108, _⟩ => ⟨S64, .f32⟩
  | .hbm, ⟨109, _⟩ => ⟨S1x64, .f32⟩
  | .hbm, ⟨110, _⟩ => ⟨S1x200, .f32⟩
  | .hbm, ⟨111, _⟩ => ⟨S1x200, .f32⟩
  | .hbm, ⟨112, _⟩ => ⟨S1x200, .f32⟩
  | .hbm, ⟨113, _⟩ => ⟨S1x200, .f32⟩
  | .hbm, ⟨114, _⟩ => ⟨S32768x200, .f32⟩
  | .hbm, ⟨115, _⟩ => ⟨S32768x32, .f32⟩
  | .hbm, ⟨116, _⟩ => ⟨S32768x32, .f32⟩
  | .hbm, ⟨117, _⟩ => ⟨S32768x32, .f32⟩
  | .hbm, ⟨118, _⟩ => ⟨S32768x32, .f32⟩
  | .hbm, ⟨119, _⟩ => ⟨S32768x32, .f32⟩
  | .local _ .vmem, ⟨0, _⟩ => ⟨S1024x6, .f32⟩
  | .local _ .vmem, ⟨1, _⟩ => ⟨S1024x6, .f32⟩
  | .local _ .vmem, ⟨2, _⟩ => ⟨S1024x1024, .f32⟩
  | .local _ .vmem, ⟨3, _⟩ => ⟨S1024x1024, .f32⟩
  | .local _ .vmem, ⟨4, _⟩ => ⟨S1024x200, .f32⟩
  | .local _ .vmem, ⟨5, _⟩ => ⟨S1024x200, .f32⟩
  | .local _ .vmem, ⟨6, _⟩ => ⟨S1024x32, .f32⟩
  | .local _ .vmem, ⟨7, _⟩ => ⟨S1024x32, .f32⟩
  | .local _ .vmem, ⟨8, _⟩ => ⟨S200x768, .bf16⟩
  | .local _ .vmem, ⟨9, _⟩ => ⟨S1x768, .f32⟩
  | .local _ .vmem, ⟨10, _⟩ => ⟨S200x768, .bf16⟩
  | .local _ .vmem, ⟨11, _⟩ => ⟨S1x768, .f32⟩
  | .local _ .vmem, ⟨12, _⟩ => ⟨S6x200, .bf16⟩
  | .local _ .vmem, ⟨13, _⟩ => ⟨S1x200, .f32⟩
  | .local _ .vmem, ⟨14, _⟩ => ⟨S1024x200, .bf16⟩
  | .local _ .vmem, ⟨15, _⟩ => ⟨S1x200, .f32⟩
  | .local _ .vmem, ⟨16, _⟩ => ⟨S200x200, .bf16⟩
  | .local _ .vmem, ⟨17, _⟩ => ⟨S1x200, .f32⟩
  | .local _ .vmem, ⟨18, _⟩ => ⟨S200x64, .bf16⟩
  | .local _ .vmem, ⟨19, _⟩ => ⟨S1x64, .f32⟩
  | .local _ .vmem, ⟨20, _⟩ => ⟨S200x200, .bf16⟩
  | .local _ .vmem, ⟨21, _⟩ => ⟨S1024x200, .bf16⟩
  | .local _ .vmem, ⟨22, _⟩ => ⟨S1x200, .f32⟩
  | .local _ .vmem, ⟨23, _⟩ => ⟨S200x64, .bf16⟩
  | .local _ .vmem, ⟨24, _⟩ => ⟨S1x64, .f32⟩
  | .local _ .vmem, ⟨25, _⟩ => ⟨S1024x200, .f32⟩
  | .local _ .vmem, ⟨26, _⟩ => ⟨S1024x200, .f32⟩
  | .local _ .vmem, ⟨27, _⟩ => ⟨S1024x32, .f32⟩
  | .local _ .vmem, ⟨28, _⟩ => ⟨S1024x32, .f32⟩
  | .local _ .vmem, ⟨29, _⟩ => ⟨S1024x32, .f32⟩
  | .local _ .vmem, ⟨30, _⟩ => ⟨S1024x32, .f32⟩
  | .local _ .vmem, ⟨31, _⟩ => ⟨S1024x32, .f32⟩
  | .local _ .vmem, ⟨32, _⟩ => ⟨S1024x32, .f32⟩
  | .local _ .vmem, ⟨33, _⟩ => ⟨S1024x32, .f32⟩
  | .local _ .vmem, ⟨34, _⟩ => ⟨S1024x32, .f32⟩
  | .local _ .vmem, ⟨35, _⟩ => ⟨S1024x32, .f32⟩
  | .local _ .vmem, ⟨36, _⟩ => ⟨S1024x32, .f32⟩
  | _, _ => ⟨S32768x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_c : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_1 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_c_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_5 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_6 : Ref sig .tc := ⟨.hbm, 56, rfl⟩
abbrev main_v24 : Ref sig .tc := ⟨.hbm, 57, rfl⟩
abbrev main_v25 : Ref sig .tc := ⟨.hbm, 58, rfl⟩
abbrev main_c_7 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_8 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_9 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_10 : Ref sig .tc := ⟨.hbm, 71, rfl⟩
abbrev main_v35 : Ref sig .tc := ⟨.hbm, 72, rfl⟩
abbrev main_v36 : Ref sig .tc := ⟨.hbm, 73, rfl⟩
abbrev main_c_11 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_12 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_13 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74_0 : Ref sig .tc := ⟨.hbm, 114, rfl⟩
abbrev main_v74_1 : Ref sig .tc := ⟨.hbm, 115, rfl⟩
abbrev main_v74_2 : Ref sig .tc := ⟨.hbm, 116, rfl⟩
abbrev main_v74_3 : Ref sig .tc := ⟨.hbm, 117, rfl⟩
abbrev main_v74_4 : Ref sig .tc := ⟨.hbm, 118, rfl⟩
abbrev main_v74_5 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg26_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S200x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x200 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x200 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x200 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S200x200 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S200x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S200x200 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x200 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x200 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S200x64 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1024x200 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x32 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1024x32 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1024x32 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1024x32 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1024x32 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  transposes_S600x200_S200x600_1_0 : S600x200.Transposes [1, 0] S200x600
  bcast_S_S200x768 : S_.BroadcastsInDim S200x768 (![] : Fin 0 → Fin S200x768.rank)
  slices_S200x600_S200x200_0_0 : S200x600.Slices ![0, 0] S200x200
  bcast_S_S1 : S_.BroadcastsInDim S1 (![] : Fin 0 → Fin S1.rank)
  slices_S200x600_S200x200_0_200 : S200x600.Slices ![0, 200] S200x200
  slices_S200x600_S200x200_0_400 : S200x600.Slices ![0, 400] S200x200
  bitsLt_bf16_f32 : FTy.bits .bf16 < FTy.bits .f32
  bcast_S_S768 : S_.BroadcastsInDim S768 (![] : Fin 0 → Fin S768.rank)
  slices_S600_S200_0 : S600.Slices ![0] S200
  slices_S600_S200_200 : S600.Slices ![200] S200
  slices_S600_S200_400 : S600.Slices ![400] S200
  shapeCasts_S768_S1x768 : S768.ShapeCasts S1x768
  transposes_S200x6_S6x200_1_0 : S200x6.Transposes [1, 0] S6x200
  transposes_S200x1024_S1024x200_1_0 : S200x1024.Transposes [1, 0] S1024x200
  transposes_S200x200_S200x200_1_0 : S200x200.Transposes [1, 0] S200x200
  transposes_S32x200_S200x32_1_0 : S32x200.Transposes [1, 0] S200x32
  concatenates_S200x32_S200x32_S200x64_d1 : Shape.Concatenates [S200x32, S200x32] S200x64 1
  concatenates_S32_S32_S64_d0 : Shape.Concatenates [S32, S32] S64 0
  shapeCasts_S64_S1x64 : S64.ShapeCasts S1x64
  slices_S200x1224_S200x200_0_0 : S200x1224.Slices ![0, 0] S200x200
  slices_S200x1224_S200x1024_0_200 : S200x1224.Slices ![0, 200] S200x1024
  shapeCasts_S200_S1x200 : S200.ShapeCasts S1x200
  inb_S1024x6_S1024x6_0_0 : ∀ a, (![0, 0] : Fin 2 → Nat) a + S1024x6.size a ≤ S1024x6.size a
  h_S1024x6 : 0 < S1024x6.numel
  inb_S1024x1024_S1024x1024_0_0 : ∀ a, (![0, 0] : Fin 2 → Nat) a + S1024x1024.size a ≤ S1024x1024.size a
  h_S1024x1024 : 0 < S1024x1024.numel
  inb_S1024x200_S1024x200_0_0 : ∀ a, (![0, 0] : Fin 2 → Nat) a + S1024x200.size a ≤ S1024x200.size a
  h_S1024x200 : 0 < S1024x200.numel
  inb_S1024x32_S1024x32_0_0 : ∀ a, (![0, 0] : Fin 2 → Nat) a + S1024x32.size a ≤ S1024x32.size a
  h_S1024x32 : 0 < S1024x32.numel
  inb_S6x200_S6x200_0_0 : ∀ a, (![0, 0] : Fin 2 → Nat) a + S6x200.size a ≤ S6x200.size a
  h_S6x200 : 0 < S6x200.numel
  shapeCasts_S6x200_S6x200 : S6x200.ShapeCasts S6x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S1024x200 : S1x200.Broadcasts S1024x200
  shapeCasts_S1024x200_S1024x200 : S1024x200.ShapeCasts S1024x200
  inb_S200x768_S200x768_0_0 : ∀ a, (![0, 0] : Fin 2 → Nat) a + S200x768.size a ≤ S200x768.size a
  h_S200x768 : 0 < S200x768.numel
  shapeCasts_S200x768_S200x768 : S200x768.ShapeCasts S200x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x200 : S1024x768.Slices ![0, 0] S1024x200
  slices_S1024x768_o0_256_S1024x200 : S1024x768.Slices ![0, 256] S1024x200
  slices_S1024x768_o0_512_S1024x200 : S1024x768.Slices ![0, 512] S1024x200
  inb_S200x200_S200x200_0_0 : ∀ a, (![0, 0] : Fin 2 → Nat) a + S200x200.size a ≤ S200x200.size a
  h_S200x200 : 0 < S200x200.numel
  shapeCasts_S200x200_S200x200 : S200x200.ShapeCasts S200x200
  inb_S200x64_S200x64_0_0 : ∀ a, (![0, 0] : Fin 2 → Nat) a + S200x64.size a ≤ S200x64.size a
  h_S200x64 : 0 < S200x64.numel
  shapeCasts_S200x64_S200x64 : S200x64.ShapeCasts S200x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  slices_S1024x64_o0_0_S1024x32 : S1024x64.Slices ![0, 0] S1024x32
  slices_S1024x64_o0_32_S1024x32 : S1024x64.Slices ![0, 32] S1024x32
  scatter_S200x768_S1_S200x200_01_n_1_0_wf : ScatterDims.WF S200x768 S1 S200x200 [0, 1] [] [1] 0
  scatter_S768_S1_S200_0_n_0_0_wf : ScatterDims.WF S768 S1 S200 [0] [] [0] 0
  dot_S1024x6_S6x200_S1024x200_1_0_0_1_n_n_wf : DotDims.WF S1024x6 S6x200 S1024x200 [1] [0] [0] [1] [] []
  dot_S1024x1024_S1024x200_S1024x200_1_0_0_1_n_n_wf : DotDims.WF S1024x1024 S1024x200 S1024x200 [1] [0] [0] [1] [] []
  dot_S1024x200_S200x768_S1024x768_1_0_0_1_n_n_wf : DotDims.WF S1024x200 S200x768 S1024x768 [1] [0] [0] [1] [] []
  dot_S1024x200_S200x200_S1024x200_1_0_0_1_n_n_wf : DotDims.WF S1024x200 S200x200 S1024x200 [1] [0] [0] [1] [] []
  dot_S1024x200_S200x64_S1024x64_1_0_0_1_n_n_wf : DotDims.WF S1024x200 S200x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x6.size a ≤ S32768x6.size a
  hwx0_0 : ∀ i : grid0.Coords, EltTy.bits .f32 = 32 ∨ (Rect.block (s := S32768x6) S1024x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x200.size a ≤ S32768x200.size a
  hwx0_2 : ∀ i : grid0.Coords, EltTy.bits .f32 = 32 ∨ (Rect.block (s := S32768x200) S1024x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S32768x32.size a
  hwx0_3 : ∀ i : grid0.Coords, EltTy.bits .f32 = 32 ∨ (Rect.block (s := S32768x32) S1024x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x768.size a ≤ S200x768.size a
  hwx0_4 : ∀ i : grid0.Coords, EltTy.bits .bf16 = 32 ∨ (Rect.block (s := S200x768) S200x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x768.size a ≤ S200x768.size a
  hwx0_6 : ∀ i : grid0.Coords, EltTy.bits .bf16 = 32 ∨ (Rect.block (s := S200x768) S200x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x200.size a ≤ S6x200.size a
  hwx0_8 : ∀ i : grid0.Coords, EltTy.bits .bf16 = 32 ∨ (Rect.block (s := S6x200) S6x200.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x200.size a ≤ S1x200.size a
  hwx0_9 : ∀ i : grid0.Coords, EltTy.bits .f32 = 32 ∨ (Rect.block (s := S1x200) S1x200.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x200.size a ≤ S1024x200.size a
  hwx0_10 : ∀ i : grid0.Coords, EltTy.bits .bf16 = 32 ∨ (Rect.block (s := S1024x200) S1024x200.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x200.size a ≤ S1x200.size a
  hwx0_11 : ∀ i : grid0.Coords, EltTy.bits .f32 = 32 ∨ (Rect.block (s := S1x200) S1x200.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S200x200.size a ≤ S200x200.size a
  hwx0_12 : ∀ i : grid0.Coords, EltTy.bits .bf16 = 32 ∨ (Rect.block (s := S200x200) S200x200.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x200.size a ≤ S1x200.size a
  hwx0_13 : ∀ i : grid0.Coords, EltTy.bits .f32 = 32 ∨ (Rect.block (s := S1x200) S1x200.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S200x64.size a ≤ S200x64.size a
  hwx0_14 : ∀ i : grid0.Coords, EltTy.bits .bf16 = 32 ∨ (Rect.block (s := S200x64) S200x64.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S200x200.size a ≤ S200x200.size a
  hwx0_16 : ∀ i : grid0.Coords, EltTy.bits .bf16 = 32 ∨ (Rect.block (s := S200x200) S200x200.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1024x200.size a ≤ S1024x200.size a
  hwx0_17 : ∀ i : grid0.Coords, EltTy.bits .bf16 = 32 ∨ (Rect.block (s := S1024x200) S1024x200.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x200.size a ≤ S1x200.size a
  hwx0_18 : ∀ i : grid0.Coords, EltTy.bits .f32 = 32 ∨ (Rect.block (s := S1x200) S1x200.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S200x64.size a ≤ S200x64.size a
  hwx0_19 : ∀ i : grid0.Coords, EltTy.bits .bf16 = 32 ∨ (Rect.block (s := S200x64) S200x64.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x64.size a ≤ S1x64.size a
  hwx0_20 : ∀ i : grid0.Coords, EltTy.bits .f32 = 32 ∨ (Rect.block (s := S1x64) S1x64.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x200.size a ≤ S32768x200.size a
  hwx0_21 : ∀ i : grid0.Coords, EltTy.bits .f32 = 32 ∨ (Rect.block (s := S32768x200) S1024x200.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1024x32.size a ≤ S32768x32.size a
  hwx0_22 : ∀ i : grid0.Coords, EltTy.bits .f32 = 32 ∨ (Rect.block (s := S32768x32) S1024x32.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1024x32.size a ≤ S32768x32.size a
  hwx0_23 : ∀ i : grid0.Coords, EltTy.bits .f32 = 32 ∨ (Rect.block (s := S32768x32) S1024x32.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1024x32.size a ≤ S32768x32.size a
  hwx0_24 : ∀ i : grid0.Coords, EltTy.bits .f32 = 32 ∨ (Rect.block (s := S32768x32) S1024x32.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1024x32.size a ≤ S32768x32.size a
  hwx0_25 : ∀ i : grid0.Coords, EltTy.bits .f32 = 32 ∨ (Rect.block (s := S32768x32) S1024x32.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1024x32.size a ≤ S32768x32.size a
  hwx0_26 : ∀ i : grid0.Coords, EltTy.bits .f32 = 32 ∨ (Rect.block (s := S32768x32) S1024x32.size (cc0_transform_26 i) (hinb0_26 i)).WholeWords (EltTy.packing .f32)

variable [Facts₀]

def scatter_S200x768_S1_S200x200_01_n_1_0 : ScatterDims S200x768 S1 S200x200 where
  updateWindowDims := [0, 1]
  insertedWindowDims := []
  scatterDimsToOperandDims := [1]
  indexVectorDim := 0
  wf := scatter_S200x768_S1_S200x200_01_n_1_0_wf
def scatter_S768_S1_S200_0_n_0_0 : ScatterDims S768 S1 S200 where
  updateWindowDims := [0]
  insertedWindowDims := []
  scatterDimsToOperandDims := [0]
  indexVectorDim := 0
  wf := scatter_S768_S1_S200_0_n_0_0_wf
def dot_S1024x6_S6x200_S1024x200_1_0_0_1_n_n : DotDims S1024x6 S6x200 S1024x200 where
  lhsContracting := [1]
  rhsContracting := [0]
  lhsNonContracting := [0]
  rhsNonContracting := [1]
  lhsBatch := []
  rhsBatch := []
  wf := dot_S1024x6_S6x200_S1024x200_1_0_0_1_n_n_wf
def dot_S1024x1024_S1024x200_S1024x200_1_0_0_1_n_n : DotDims S1024x1024 S1024x200 S1024x200 where
  lhsContracting := [1]
  rhsContracting := [0]
  lhsNonContracting := [0]
  rhsNonContracting := [1]
  lhsBatch := []
  rhsBatch := []
  wf := dot_S1024x1024_S1024x200_S1024x200_1_0_0_1_n_n_wf
def dot_S1024x200_S200x768_S1024x768_1_0_0_1_n_n : DotDims S1024x200 S200x768 S1024x768 where
  lhsContracting := [1]
  rhsContracting := [0]
  lhsNonContracting := [0]
  rhsNonContracting := [1]
  lhsBatch := []
  rhsBatch := []
  wf := dot_S1024x200_S200x768_S1024x768_1_0_0_1_n_n_wf
def dot_S1024x200_S200x200_S1024x200_1_0_0_1_n_n : DotDims S1024x200 S200x200 S1024x200 where
  lhsContracting := [1]
  rhsContracting := [0]
  lhsNonContracting := [0]
  rhsNonContracting := [1]
  lhsBatch := []
  rhsBatch := []
  wf := dot_S1024x200_S200x200_S1024x200_1_0_0_1_n_n_wf
def dot_S1024x200_S200x64_S1024x64_1_0_0_1_n_n : DotDims S1024x200 S200x64 S1024x64 where
  lhsContracting := [1]
  rhsContracting := [0]
  lhsNonContracting := [0]
  rhsNonContracting := [1]
  lhsBatch := []
  rhsBatch := []
  wf := dot_S1024x200_S200x64_S1024x64_1_0_0_1_n_n_wf

abbrev win0_0 : Pipeline.Window sig grid0 :=
  Pipeline.Window.ofSpec (Memref.whole main_arg0) S1024x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S200x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S200x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S6x200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v70) S1x200.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v49) S1024x200.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v71) S1x200.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v51) S200x200.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v72) S1x200.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v55) S200x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v57) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v60) S200x200.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v63) S1024x200.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v73) S1x200.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v67) S200x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v69) S1x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v74_0) S1024x200.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v74_1) S1024x32.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v74_2) S1024x32.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v74_3) S1024x32.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v74_4) S1024x32.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v74_5) S1024x32.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S32768x6 : Shape := ⟨2, ![32768, 6]⟩
abbrev S32768x1024 : Shape := ⟨2, ![32768, 1024]⟩
abbrev S32768x200 : Shape := ⟨2, ![32768, 200]⟩
abbrev S32768x32 : Shape := ⟨2, ![32768, 32]⟩
abbrev S600x200 : Shape := ⟨2, ![600, 200]⟩
abbrev S600 : Shape := ⟨1, ![600]⟩
abbrev S200x6 : Shape := ⟨2, ![200, 6]⟩
abbrev S200 : Shape := ⟨1, ![200]⟩
abbrev S200x1024 : Shape := ⟨2, ![200, 1024]⟩
abbrev S200x200 : Shape := ⟨2, ![200, 200]⟩
abbrev S32x200 : Shape := ⟨2, ![32, 200]⟩
abbrev S32 : Shape := ⟨1, ![32]⟩
abbrev S200x1224 : Shape := ⟨2, ![200, 1224]⟩
abbrev S6x200 : Shape := ⟨2, ![6, 200]⟩
abbrev S1x200 : Shape := ⟨2, ![1, 200]⟩
abbrev S1024x200 : Shape := ⟨2, ![1024, 200]⟩
abbrev S_ : Shape := ⟨0, ![]⟩
abbrev S200x600 : Shape := ⟨2, ![200, 600]⟩
abbrev S32768x600 : Shape := ⟨2, ![32768, 600]⟩
abbrev S1x600 : Shape := ⟨2, ![1, 600]⟩
abbrev S200x32 : Shape := ⟨2, ![200, 32]⟩
abbrev S1x32 : Shape := ⟨2, ![1, 32]⟩
abbrev S32768x1224 : Shape := ⟨2, ![32768, 1224]⟩
abbrev S1224x200 : Shape := ⟨2, ![1224, 200]⟩

abbrev nBuf : Space → Nat
  | .hbm => 154
  | .vmem => 0
  | .smem => 0
  | _ => 0

abbrev hbmTy0_0 (i : Nat) : BufTy := match i % 128 with
  | 0 => ⟨S32768x6, .f32⟩
  | 1 => ⟨S32768x1024, .f32⟩
  | 2 => ⟨S32768x200, .f32⟩
  | 3 => ⟨S32768x32, .f32⟩
  | 4 => ⟨S600x200, .f32⟩
  | 5 => ⟨S600, .f32⟩
  | 6 => ⟨S600x200, .f32⟩
  | 7 => ⟨S600, .f32⟩
  | 8 => ⟨S200x6, .f32⟩
  | 9 => ⟨S200, .f32⟩
  | 10 => ⟨S200x1024, .f32⟩
  | 11 => ⟨S200, .f32⟩
  | 12 => ⟨S200x200, .f32⟩
  | 13 => ⟨S200, .f32⟩
  | 14 => ⟨S32x200, .f32⟩
  | 15 => ⟨S32, .f32⟩
  | 16 => ⟨S32x200, .f32⟩
  | 17 => ⟨S32, .f32⟩
  | 18 => ⟨S200x1224, .f32⟩
  | 19 => ⟨S200, .f32⟩
  | 20 => ⟨S32x200, .f32⟩
  | 21 => ⟨S32, .f32⟩
  | 22 => ⟨S32x200, .f32⟩
  | 23 => ⟨S32, .f32⟩
  | 24 => ⟨S6x200, .f32⟩
  | 25 => ⟨S32768x200, .f32⟩
  | 26 => ⟨S1x200, .f32⟩
  | 27 => ⟨S32768x200, .f32⟩
  | 28 => ⟨S32768x200, .f32⟩
  | 29 => ⟨S1024x200, .f32⟩
  | 30 => ⟨S32768x200, .f32⟩
  | 31 => ⟨S1x200, .f32⟩
  | 32 => ⟨S32768x200, .f32⟩
  | 33 => ⟨S32768x200, .f32⟩
  | 34 => ⟨S_, .f32⟩
  | 35 => ⟨S32768x200, .f32⟩
  | 36 => ⟨S32768x200, .f32⟩
  | 37 => ⟨S32768x200, .f32⟩
  | 38 => ⟨S200x600, .f32⟩
  | 39 => ⟨S32768x600, .f32⟩
  | 40 => ⟨S1x600, .f32⟩
  | 41 => ⟨S32768x600, .f32⟩
  | 42 => ⟨S32768x600, .f32⟩
  | 43 => ⟨S200x600, .f32⟩
  | 44 => ⟨S32768x600, .f32⟩
  | 45 => ⟨S1x600, .f32⟩
  | 46 => ⟨S32768x600, .f32⟩
  | 47 => ⟨S32768x600, .f32⟩
  | 48 => ⟨S32768x200, .f32⟩
  | 49 => ⟨S32768x200, .f32⟩
  | 50 => ⟨S32768x200, .f32⟩
  | 51 => ⟨S32768x200, .f32⟩
  | 52 => ⟨S32768x200, .f32⟩
  | 53 => ⟨S32768x200, .f32⟩
  | 54 => ⟨S32768x200, .f32⟩
  | 55 => ⟨S32768x200, .f32⟩
  | 56 => ⟨S32768x200, .f32⟩
  | 57 => ⟨S_, .f32⟩
  | 58 => ⟨S32768x200, .f32⟩
  | 59 => ⟨S32768x200, .f32⟩
  | 60 => ⟨S_, .f32⟩
  | 61 => ⟨S32768x200, .f32⟩
  | 62 => ⟨S32768x200, .f32⟩
  | 63 => ⟨S32768x200, .f32⟩
  | 64 => ⟨S32768x200, .f32⟩
  | 65 => ⟨S32768x200, .f32⟩
  | 66 => ⟨S_, .f32⟩
  | 67 => ⟨S32768x200, .f32⟩
  | 68 => ⟨S32768x200, .f32⟩
  | 69 => ⟨S_, .f32⟩
  | 70 => ⟨S32768x200, .f32⟩
  | 71 => ⟨S32768x200, .f32⟩
  | 72 => ⟨S32768x200, .f32⟩
  | 73 => ⟨S32768x200, .f32⟩
  | 74 => ⟨S32768x200, .f32⟩
  | 75 => ⟨S_, .f32⟩
  | 76 => ⟨S32768x200, .f32⟩
  | 77 => ⟨S32768x200, .f32⟩
  | 78 => ⟨S32768x200, .f32⟩
  | 79 => ⟨S32768x200, .f32⟩
  | 80 => ⟨S32768x200, .f32⟩
  | 81 => ⟨S200x200, .f32⟩
  | 82 => ⟨S32768x200, .f32⟩
  | 83 => ⟨S1x200, .f32⟩
  | 84 => ⟨S32768x200, .f32⟩
  | 85 => ⟨S32768x200, .f32⟩
  | 86 => ⟨S_, .f32⟩
  | 87 => ⟨S32768x200, .f32⟩
  | 88 => ⟨S32768x200, .f32⟩
  | 89 => ⟨S200x32, .f32⟩
  | 90 => ⟨S32768x32, .f32⟩
  | 91 => ⟨S1x32, .f32⟩
  | 92 => ⟨S32768x32, .f32⟩
  | 93 => ⟨S32768x32, .f32⟩
  | 94 => ⟨S200x32, .f32⟩
  | 95 => ⟨S32768x32, .f32⟩
  | 96 => ⟨S1x32, .f32⟩
  | 97 => ⟨S32768x32, .f32⟩
  | 98 => ⟨S32768x32, .f32⟩
  | 99 => ⟨S_, .f32⟩
  | 100 => ⟨S32768x32, .f32⟩
  | 101 => ⟨S32768x32, .f32⟩
  | 102 => ⟨S32768x32, .f32⟩
  | 103 => ⟨S32768x32, .f32⟩
  | 104 => ⟨S32768x32, .i1⟩
  | 105 => ⟨S32768x32, .f32⟩
  | 106 => ⟨S32768x32, .f32⟩
  | 107 => ⟨S32768x32, .f32⟩
  | 108 => ⟨S32768x32, .f32⟩
  | 109 => ⟨S32768x32, .f32⟩
  | 110 => ⟨S32768x32, .f32⟩
  | 111 => ⟨S32768x32, .f32⟩
  | 112 => ⟨S32768x32, .f32⟩
  | 113 => ⟨S_, .f32⟩
  | 114 => ⟨S32768x32, .f32⟩
  | 115 => ⟨S32768x32, .f32⟩
  | 116 => ⟨S32768x1224, .f32⟩
  | 117 => ⟨S1224x200, .f32⟩
  | 118 => ⟨S32768x200, .f32⟩
  | 119 => ⟨S1x200, .f32⟩
  | 120 => ⟨S32768x200, .f32⟩
  | 121 => ⟨S32768x200, .f32⟩
  | 122 => ⟨S_, .f32⟩
  | 123 => ⟨S32768x200, .f32⟩
  | 124 => ⟨S32768x200, .f32⟩
  | 125 => ⟨S200x32, .f32⟩
  | 126 => ⟨S32768x32, .f32⟩
  | 127 => ⟨S1x32, .f32⟩
  | _ => ⟨S32768x6, .f32⟩

abbrev hbmTy0_1 (i : Nat) : BufTy := match i % 128 with
  | 0 => ⟨S32768x32, .f32⟩
  | 1 => ⟨S32768x32, .f32⟩
  | 2 => ⟨S200x32, .f32⟩
  | 3 => ⟨S32768x32, .f32⟩
  | 4 => ⟨S1x32, .f32⟩
  | 5 => ⟨S32768x32, .f32⟩
  | 6 => ⟨S32768x32, .f32⟩
  | 7 => ⟨S_, .f32⟩
  | 8 => ⟨S32768x32, .f32⟩
  | 9 => ⟨S32768x32, .f32⟩
  | 10 => ⟨S32768x32, .f32⟩
  | 11 => ⟨S32768x32, .f32⟩
  | 12 => ⟨S32768x32, .i1⟩
  | 13 => ⟨S32768x32, .f32⟩
  | 14 => ⟨S32768x32, .f32⟩
  | 15 => ⟨S32768x32, .f32⟩
  | 16 => ⟨S32768x32, .f32⟩
  | 17 => ⟨S32768x32, .f32⟩
  | 18 => ⟨S32768x32, .f32⟩
  | 19 => ⟨S32768x32, .f32⟩
  | 20 => ⟨S32768x32, .f32⟩
  | 21 => ⟨S_, .f32⟩
  | 22 => ⟨S32768x32, .f32⟩
  | 23 => ⟨S32768x32, .f32⟩
  | 24 => ⟨S32768x32, .f32⟩
  | 25 => ⟨S32768x32, .f32⟩
  | _ => ⟨S32768x6, .f32⟩

abbrev hbmTy (i : Nat) : BufTy := match i / 128 with
  | 0 => hbmTy0_0 i
  | 1 => hbmTy0_1 i
  | _ => ⟨S32768x6, .f32⟩

abbrev bufTy : (tb : Table) → Fin (tcTables nBuf tb) → BufTy
  | .hbm, ⟨i, _⟩ => hbmTy i
  | _, _ => ⟨S32768x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_call0_cst : Ref sig .tc := ⟨.hbm, 34, rfl⟩
abbrev main_call0_v0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst : Ref sig .tc := ⟨.hbm, 57, rfl⟩
abbrev main_v31 : Ref sig .tc := ⟨.hbm, 58, rfl⟩
abbrev main_v32 : Ref sig .tc := ⟨.hbm, 59, rfl⟩
abbrev main_cst_0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_1 : Ref sig .tc := ⟨.hbm, 66, rfl⟩
abbrev main_v38 : Ref sig .tc := ⟨.hbm, 67, rfl⟩
abbrev main_v39 : Ref sig .tc := ⟨.hbm, 68, rfl⟩
abbrev main_cst_2 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_3 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_v66 : Ref sig .tc := ⟨.hbm, 112, rfl⟩
abbrev main_cst_4 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_call3_cst : Ref sig .tc := ⟨.hbm, 122, rfl⟩
abbrev main_call3_v0 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_call4_cst : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_v86 : Ref sig .tc := ⟨.hbm, 148, rfl⟩
abbrev main_cst_5 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩

abbrev nD : Nat := 1
abbrev τ : Topo := Topo.v7x

variable {F : FTy → Type} [FloatOps F]

class Facts₀ : Prop where
  transposes_S200x6_S6x200_1_0 : S200x6.Transposes [1, 0] S6x200
  bcast_S200_S1x200_1 : S200.BroadcastsInDim S1x200 (![1] : Fin 1 → Fin S1x200.rank)
  bcast_S1x200_S32768x200_0_1 : S1x200.BroadcastsInDim S32768x200 (![0, 1] : Fin 2 → Fin S32768x200.rank)
  transposes_S200x1024_S1024x200_1_0 : S200x1024.Transposes [1, 0] S1024x200
  bcast_S_S32768x200 : S_.BroadcastsInDim S32768x200 (![] : Fin 0 → Fin S32768x200.rank)
  transposes_S600x200_S200x600_1_0 : S600x200.Transposes [1, 0] S200x600
  bcast_S600_S1x600_1 : S600.BroadcastsInDim S1x600 (![1] : Fin 1 → Fin S1x600.rank)
  bcast_S1x600_S32768x600_0_1 : S1x600.BroadcastsInDim S32768x600 (![0, 1] : Fin 2 → Fin S32768x600.rank)
  slices_S32768x600_S32768x200_0_0 : S32768x600.Slices ![0, 0] S32768x200
  slices_S32768x600_S32768x200_0_200 : S32768x600.Slices ![0, 200] S32768x200
  slices_S32768x600_S32768x200_0_400 : S32768x600.Slices ![0, 400] S32768x200
  transposes_S200x200_S200x200_1_0 : S200x200.Transposes [1, 0] S200x200
  transposes_S32x200_S200x32_1_0 : S32x200.Transposes [1, 0] S200x32
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  concatenates_S32768x200_S32768x1024_S32768x1224_d1 : Shape.Concatenates [S32768x200, S32768x1024] S32768x1224 1
  transposes_S200x1224_S1224x200_1_0 : S200x1224.Transposes [1, 0] S1224x200
  dot_S32768x6_S6x200_S32768x200_1_0_0_1_n_n_wf : DotDims.WF S32768x6 S6x200 S32768x200 [1] [0] [0] [1] [] []
  dot_S32768x1024_S1024x200_S32768x200_1_0_0_1_n_n_wf : DotDims.WF S32768x1024 S1024x200 S32768x200 [1] [0] [0] [1] [] []
  dot_S32768x200_S200x600_S32768x600_1_0_0_1_n_n_wf : DotDims.WF S32768x200 S200x600 S32768x600 [1] [0] [0] [1] [] []
  dot_S32768x200_S200x200_S32768x200_1_0_0_1_n_n_wf : DotDims.WF S32768x200 S200x200 S32768x200 [1] [0] [0] [1] [] []
  dot_S32768x200_S200x32_S32768x32_1_0_0_1_n_n_wf : DotDims.WF S32768x200 S200x32 S32768x32 [1] [0] [0] [1] [] []
  dot_S32768x1224_S1224x200_S32768x200_1_0_0_1_n_n_wf : DotDims.WF S32768x1224 S1224x200 S32768x200 [1] [0] [0] [1] [] []

variable [Facts₀]

def dot_S32768x6_S6x200_S32768x200_1_0_0_1_n_n : DotDims S32768x6 S6x200 S32768x200 where
  lhsContracting := [1]
  rhsContracting := [0]
  lhsNonContracting := [0]
  rhsNonContracting := [1]
  lhsBatch := []
  rhsBatch := []
  wf := dot_S32768x6_S6x200_S32768x200_1_0_0_1_n_n_wf
def dot_S32768x1024_S1024x200_S32768x200_1_0_0_1_n_n : DotDims S32768x1024 S1024x200 S32768x200 where
  lhsContracting := [1]
  rhsContracting := [0]
  lhsNonContracting := [0]
  rhsNonContracting := [1]
  lhsBatch := []
  rhsBatch := []
  wf := dot_S32768x1024_S1024x200_S32768x200_1_0_0_1_n_n_wf
def dot_S32768x200_S200x600_S32768x600_1_0_0_1_n_n : DotDims S32768x200 S200x600 S32768x600 where
  lhsContracting := [1]
  rhsContracting := [0]
  lhsNonContracting := [0]
  rhsNonContracting := [1]
  lhsBatch := []
  rhsBatch := []
  wf := dot_S32768x200_S200x600_S32768x600_1_0_0_1_n_n_wf
def dot_S32768x200_S200x200_S32768x200_1_0_0_1_n_n : DotDims S32768x200 S200x200 S32768x200 where
  lhsContracting := [1]
  rhsContracting := [0]
  lhsNonContracting := [0]
  rhsNonContracting := [1]
  lhsBatch := []
  rhsBatch := []
  wf := dot_S32768x200_S200x200_S32768x200_1_0_0_1_n_n_wf
def dot_S32768x200_S200x32_S32768x32_1_0_0_1_n_n : DotDims S32768x200 S200x32 S32768x32 where
  lhsContracting := [1]
  rhsContracting := [0]
  lhsNonContracting := [0]
  rhsNonContracting := [1]
  lhsBatch := []
  rhsBatch := []
  wf := dot_S32768x200_S200x32_S32768x32_1_0_0_1_n_n_wf
def dot_S32768x1224_S1224x200_S32768x200_1_0_0_1_n_n : DotDims S32768x1224 S1224x200 S32768x200 where
  lhsContracting := [1]
  rhsContracting := [0]
  lhsNonContracting := [0]
  rhsNonContracting := [1]
  lhsBatch := []
  rhsBatch := []
  wf := dot_S32768x1224_S1224x200_S32768x200_1_0_0_1_n_n_wf

class Facts : Prop extends Facts₀ where

variable [Facts]
-- ==== Proof.Spec.lean ====
/-
  One step of a recurrent state-space model, for ONE batch row, over the extended reals.

  A row carries an action a (6 entries), an observation embedding o (1024), a previous hidden state g (200) and a noise
  row e (32). With dense x w b q = (sum over k of x k * w k q) + b q:

    x      = dense a wAct bAct + max (dense o wEnc bEnc) 0
    r      = logistic (dense x wIr bIr + dense g wHr bHr)
    u      = logistic (dense x wIz bIz + dense g wHz bHz)
    n      = tanh (dense x wIn bIn + r * dense g wHn bHn)
    h      = (1 - u) * n + u * g                                   (the new hidden state)
    prior  = max (dense h wPrior bPrior) 0
    pm     = dense prior wPm bPm            ps = softplus (dense prior wPs bPs) + 0.1
    post   = max ((sum_k h k * wPostH k + sum_k o k * wPostO k) + bPost) 0
    qm     = dense post wQm bQm             qs = softplus (dense post wQs bQs) + 0.1
    z      = qm + qs * e

  softplus y is written max y 0 + log1p (exp (-|y - 0|)), the stable form both programs spell. The posterior layer is
  written with its contraction already split into the hidden part and the observation part; `sum_split` is the law
  that a sum over 200 + 1024 positions is the sum over the first 200 plus the sum over the last 1024, which is how a
  product with the joined row [h, o] meets this form. Addition of extended reals is commutative and associative, so the
  split needs no finiteness.
-/
import Idealize.ShloMosaic.PureOps.Ideal.Laws
import Idealize.ShloMosaic.Lib.ValueIdx

noncomputable section

namespace Cert.Rssm

open Idealize.ShloMosaic

/-- The float words the programs share: 0, 1 and the single-precision word nearest one tenth. -/
abbrev w0 : EReal := Ideal.ofBits .f32 0x00000000#32
abbrev w1 : EReal := Ideal.ofBits .f32 0x3F800000#32
abbrev wTenth : EReal := Ideal.ofBits .f32 0x3DCCCCCD#32

/-- A dense layer on one row: entry q is the sum over k of x k * w k q, plus b q. -/
def dense {K N : Nat} (x : Fin K → EReal) (w : Fin K → Fin N → EReal) (b : Fin N → EReal) (q : Fin N) : EReal :=
  (∑ k : Fin K, x k * w k q) + b q

/-- The clamp below at zero. -/
def relu (v : EReal) : EReal := max v w0

/-- softplus in its stable form: max y 0 + log1p (exp (-|y - 0|)). -/
def softplus (y : EReal) : EReal :=
  max y w0 + Ideal.log1p (Ideal.exp (-(max (y - w0) (-(y - w0)))))

/-- The weights, each as a function of (input position, output position), and the biases. -/
structure Params where
  wAct : Fin 6 → Fin 200 → EReal
  bAct : Fin 200 → EReal
  wEnc : Fin 1024 → Fin 200 → EReal
  bEnc : Fin 200 → EReal
  wIr : Fin 200 → Fin 200 → EReal
  wIz : Fin 200 → Fin 200 → EReal
  wIn : Fin 200 → Fin 200 → EReal
  bIr : Fin 200 → EReal
  bIz : Fin 200 → EReal
  bIn : Fin 200 → EReal
  wHr : Fin 200 → Fin 200 → EReal
  wHz : Fin 200 → Fin 200 → EReal
  wHn : Fin 200 → Fin 200 → EReal
  bHr : Fin 200 → EReal
  bHz : Fin 200 → EReal
  bHn : Fin 200 → EReal
  wPrior : Fin 200 → Fin 200 → EReal
  bPrior : Fin 200 → EReal
  wPm : Fin 200 → Fin 32 → EReal
  bPm : Fin 32 → EReal
  wPs : Fin 200 → Fin 32 → EReal
  bPs : Fin 32 → EReal
  wPostH : Fin 200 → Fin 200 → EReal
  wPostO : Fin 1024 → Fin 200 → EReal
  bPost : Fin 200 → EReal
  wQm : Fin 200 → Fin 32 → EReal
  bQm : Fin 32 → EReal
  wQs : Fin 200 → Fin 32 → EReal
  bQs : Fin 32 → EReal

variable (P : Params)

/-- The input of the recurrent cell: the embedded action plus the clamped encoding of the observation. -/
def xRow (a : Fin 6 → EReal) (o : Fin 1024 → EReal) (j : Fin 200) : EReal :=
  dense a P.wAct P.bAct j + relu (dense o P.wEnc P.bEnc j)

/-- One gated recurrent step from the six gate pre-activations of an entry and the previous state's entry. -/
def gate (ir hr iz hz inn hn g : EReal) : EReal :=
  (w1 - Ideal.logistic (iz + hz)) * Ideal.tanh (inn + Ideal.logistic (ir + hr) * hn) + Ideal.logistic (iz + hz) * g

/-- The new hidden state of a row. -/
def hRow (a : Fin 6 → EReal) (o : Fin 1024 → EReal) (g : Fin 200 → EReal) (j : Fin 200) : EReal :=
  gate (dense (xRow P a o) P.wIr P.bIr j) (dense g P.wHr P.bHr j)
       (dense (xRow P a o) P.wIz P.bIz j) (dense g P.wHz P.bHz j)
       (dense (xRow P a o) P.wIn P.bIn j) (dense g P.wHn P.bHn j) (g j)

/-- The prior head's hidden layer. -/
def priorRow (a : Fin 6 → EReal) (o : Fin 1024 → EReal) (g : Fin 200 → EReal) (j : Fin 200) : EReal :=
  relu (dense (hRow P a o g) P.wPrior P.bPrior j)

def priorMeanRow (a : Fin 6 → EReal) (o : Fin 1024 → EReal) (g : Fin 200 → EReal) (s : Fin 32) : EReal :=
  dense (priorRow P a o g) P.wPm P.bPm s

def priorStdRow (a : Fin 6 → EReal) (o : Fin 1024 → EReal) (g : Fin 200 → EReal) (s : Fin 32) : EReal :=
  softplus (dense (priorRow P a o g) P.wPs P.bPs s) + wTenth

/-- The posterior head's hidden layer, its contraction split into the hidden part and the observation part. -/
def postRow (a : Fin 6 → EReal) (o : Fin 1024 → EReal) (g : Fin 200 → EReal) (j : Fin 200) : EReal :=
  relu (((∑ k : Fin 200, hRow P a o g k * P.wPostH k j) + (∑ k : Fin 1024, o k * P.wPostO k j)) + P.bPost j)

def postMeanRow (a : Fin 6 → EReal) (o : Fin 1024 → EReal) (g : Fin 200 → EReal) (s : Fin 32) : EReal :=
  dense (postRow P a o g) P.wQm P.bQm s

def postStdRow (a : Fin 6 → EReal) (o : Fin 1024 → EReal) (g : Fin 200 → EReal) (s : Fin 32) : EReal :=
  softplus (dense (postRow P a o g) P.wQs P.bQs s) + wTenth

/-- The posterior sample. -/
def zRow (a : Fin 6 → EReal) (o : Fin 1024 → EReal) (g : Fin 200 → EReal) (e : Fin 32 → EReal) (s : Fin 32) : EReal :=
  postMeanRow P a o g s + postStdRow P a o g s * e s

/-- A sum over 200 + 1024 positions is the sum over the first 200 plus the sum over the last 1024. -/
theorem sum_split (f : Fin 1224 → EReal) :
    (∑ k : Fin 1224, f k)
      = (∑ k : Fin 200, f ⟨k.val, by have := k.isLt; omega⟩) + (∑ k : Fin 1024, f ⟨200 + k.val, by have := k.isLt; omega⟩) := by
  have h := Fin.sum_univ_add (M := EReal) (a := 200) (b := 1024) f
  exact h

/-- A compare of a value with itself for "not equal" is false, so a select on it takes its second branch. -/
theorem select_ne_self {α : Type} (p : CmpFPredicate) (hp : p = .one ∨ p = .une) (d : EReal) (u v : α) :
    Scalar.select (Ideal.cmp p d d) u v = v := by
  rcases hp with rfl | rfl <;> simp [Scalar.select, Ideal.cmp]

/-- Zero minus a value is its negation. -/
theorem w0_sub (v : EReal) : w0 - v = -v := by
  show Ideal.ofBits .f32 0x00000000#32 - v = -v
  rw [Ideal.ofBits_zero_f32, zero_sub]

/-! ## Whole arrays: the row functions applied to every row

A matrix with n rows is a function of a rank-2 index; row r of it is a function of the column. The parameters are read
off the weight arrays as the model stores them, [outputs, inputs]: the weight from input position k to output position q
is entry (q, k). The recurrent cell's two weight arrays stack the three gates along the output axis (reset at 0, update
at 200, candidate at 400), and the posterior layer's weight array stacks the hidden inputs (first 200 columns) before
the observation inputs (last 1024). -/

open Idealize.ShloMosaic.ValueIdx

abbrev Mat (a b : Nat) : Type := (⟨2, ![a, b]⟩ : Shape).Idx → EReal
abbrev Arr (a : Nat) : Type := (⟨1, ![a]⟩ : Shape).Idx → EReal

/-- Row r of a matrix. -/
def rowOf {n K : Nat} (x : Mat n K) (r : Fin n) : Fin K → EReal := fun k => x (ix2 r k)

/-- The parameters, from the twenty weight and bias arrays. -/
def paramsOf (wih : Mat 600 200) (bih : Arr 600) (whh : Mat 600 200) (bhh : Arr 600)
    (wact : Mat 200 6) (bact : Arr 200) (wenc : Mat 200 1024) (benc : Arr 200)
    (wprior : Mat 200 200) (bprior : Arr 200) (wpm : Mat 32 200) (bpm : Arr 32) (wps : Mat 32 200) (bps : Arr 32)
    (wpost : Mat 200 1224) (bpost : Arr 200) (wqm : Mat 32 200) (bqm : Arr 32) (wqs : Mat 32 200) (bqs : Arr 32) : Params where
  wAct k q := wact (ix2 q k)
  bAct q := bact (ix1 q)
  wEnc k q := wenc (ix2 q k)
  bEnc q := benc (ix1 q)
  wIr k j := wih (ix2 (⟨j.val, by have := j.isLt; omega⟩ : Fin 600) k)
  wIz k j := wih (ix2 (⟨200 + j.val, by have := j.isLt; omega⟩ : Fin 600) k)
  wIn k j := wih (ix2 (⟨400 + j.val, by have := j.isLt; omega⟩ : Fin 600) k)
  bIr j := bih (ix1 (⟨j.val, by have := j.isLt; omega⟩ : Fin 600))
  bIz j := bih (ix1 (⟨200 + j.val, by have := j.isLt; omega⟩ : Fin 600))
  bIn j := bih (ix1 (⟨400 + j.val, by have := j.isLt; omega⟩ : Fin 600))
  wHr k j := whh (ix2 (⟨j.val, by have := j.isLt; omega⟩ : Fin 600) k)
  wHz k j := whh (ix2 (⟨200 + j.val, by have := j.isLt; omega⟩ : Fin 600) k)
  wHn k j := whh (ix2 (⟨400 + j.val, by have := j.isLt; omega⟩ : Fin 600) k)
  bHr j := bhh (ix1 (⟨j.val, by have := j.isLt; omega⟩ : Fin 600))
  bHz j := bhh (ix1 (⟨200 + j.val, by have := j.isLt; omega⟩ : Fin 600))
  bHn j := bhh (ix1 (⟨400 + j.val, by have := j.isLt; omega⟩ : Fin 600))
  wPrior k q := wprior (ix2 q k)
  bPrior q := bprior (ix1 q)
  wPm k q := wpm (ix2 q k)
  bPm q := bpm (ix1 q)
  wPs k q := wps (ix2 q k)
  bPs q := bps (ix1 q)
  wPostH k q := wpost (ix2 q (⟨k.val, by have := k.isLt; omega⟩ : Fin 1224))
  wPostO k q := wpost (ix2 q (⟨200 + k.val, by have := k.isLt; omega⟩ : Fin 1224))
  bPost q := bpost (ix1 q)
  wQm k q := wqm (ix2 q k)
  bQm q := bqm (ix1 q)
  wQs k q := wqs (ix2 q k)
  bQs q := bqs (ix1 q)

variable {n : Nat}

/-- The six results over n rows: the new hidden state, the posterior sample, the posterior mean and deviation, the prior
    mean and deviation. -/
def Gh (act : Mat n 6) (obs : Mat n 1024) (prev : Mat n 200) : Mat n 200 :=
  fun i => hRow P (rowOf act (i 0)) (rowOf obs (i 0)) (rowOf prev (i 0)) (i 1)
def Gz (act : Mat n 6) (obs : Mat n 1024) (prev : Mat n 200) (eps : Mat n 32) : Mat n 32 :=
  fun i => zRow P (rowOf act (i 0)) (rowOf obs (i 0)) (rowOf prev (i 0)) (rowOf eps (i 0)) (i 1)
def Gqm (act : Mat n 6) (obs : Mat n 1024) (prev : Mat n 200) : Mat n 32 :=
  fun i => postMeanRow P (rowOf act (i 0)) (rowOf obs (i 0)) (rowOf prev (i 0)) (i 1)
def Gqs (act : Mat n 6) (obs : Mat n 1024) (prev : Mat n 200) : Mat n 32 :=
  fun i => postStdRow P (rowOf act (i 0)) (rowOf obs (i 0)) (rowOf prev (i 0)) (i 1)
def Gpm (act : Mat n 6) (obs : Mat n 1024) (prev : Mat n 200) : Mat n 32 :=
  fun i => priorMeanRow P (rowOf act (i 0)) (rowOf obs (i 0)) (rowOf prev (i 0)) (i 1)
def Gps (act : Mat n 6) (obs : Mat n 1024) (prev : Mat n 200) : Mat n 32 :=
  fun i => priorStdRow P (rowOf act (i 0)) (rowOf obs (i 0)) (rowOf prev (i 0)) (i 1)

end Cert.Rssm

end
-- ==== Proof.Block.lean ====
/-
  Row blocks. Each result is computed row by row, so a 1024-row tile whose rows are rows r p of the whole arrays, computed
  with the same parameters, holds at (p, q) what the whole-array result holds at (r p, q).
-/
import proofs.«108998_j15006615733147_2_alg».proof.Proof.Spec

noncomputable section

namespace Cert.Rssm

open Idealize.ShloMosaic Idealize.ShloMosaic.ValueIdx

theorem Gh_block (Pt P : Params) (hP : Pt = P) (X0 : Mat 1024 6) (X1 : Mat 1024 1024) (X2 : Mat 1024 200)
    (A0 : Mat 32768 6) (A1 : Mat 32768 1024) (A2 : Mat 32768 200) (r : Fin 1024 → Fin 32768)
    (h0 : ∀ p k, X0 (ix2 p k) = A0 (ix2 (r p) k)) (h1 : ∀ p k, X1 (ix2 p k) = A1 (ix2 (r p) k))
    (h2 : ∀ p k, X2 (ix2 p k) = A2 (ix2 (r p) k)) (p : Fin 1024) (q : Fin 200) :
    Gh Pt X0 X1 X2 (ix2 p q) = Gh P A0 A1 A2 (ix2 (r p) q) := by
  subst hP
  have e0 : rowOf X0 p = rowOf A0 (r p) := funext (h0 p)
  have e1 : rowOf X1 p = rowOf A1 (r p) := funext (h1 p)
  have e2 : rowOf X2 p = rowOf A2 (r p) := funext (h2 p)
  show hRow Pt (rowOf X0 p) (rowOf X1 p) (rowOf X2 p) q = hRow Pt (rowOf A0 (r p)) (rowOf A1 (r p)) (rowOf A2 (r p)) q
  rw [e0, e1, e2]

theorem Gz_block (Pt P : Params) (hP : Pt = P) (X0 : Mat 1024 6) (X1 : Mat 1024 1024) (X2 : Mat 1024 200) (X3 : Mat 1024 32)
    (A0 : Mat 32768 6) (A1 : Mat 32768 1024) (A2 : Mat 32768 200) (A3 : Mat 32768 32) (r : Fin 1024 → Fin 32768)
    (h0 : ∀ p k, X0 (ix2 p k) = A0 (ix2 (r p) k)) (h1 : ∀ p k, X1 (ix2 p k) = A1 (ix2 (r p) k))
    (h2 : ∀ p k, X2 (ix2 p k) = A2 (ix2 (r p) k)) (h3 : ∀ p k, X3 (ix2 p k) = A3 (ix2 (r p) k)) (p : Fin 1024) (q : Fin 32) :
    Gz Pt X0 X1 X2 X3 (ix2 p q) = Gz P A0 A1 A2 A3 (ix2 (r p) q) := by
  subst hP
  have e0 : rowOf X0 p = rowOf A0 (r p) := funext (h0 p)
  have e1 : rowOf X1 p = rowOf A1 (r p) := funext (h1 p)
  have e2 : rowOf X2 p = rowOf A2 (r p) := funext (h2 p)
  have e3 : rowOf X3 p = rowOf A3 (r p) := funext (h3 p)
  show zRow Pt (rowOf X0 p) (rowOf X1 p) (rowOf X2 p) (rowOf X3 p) q = zRow Pt (rowOf A0 (r p)) (rowOf A1 (r p)) (rowOf A2 (r p)) (rowOf A3 (r p)) q
  rw [e0, e1, e2, e3]

theorem Gqm_block (Pt P : Params) (hP : Pt = P) (X0 : Mat 1024 6) (X1 : Mat 1024 1024) (X2 : Mat 1024 200)
    (A0 : Mat 32768 6) (A1 : Mat 32768 1024) (A2 : Mat 32768 200) (r : Fin 1024 → Fin 32768)
    (h0 : ∀ p k, X0 (ix2 p k) = A0 (ix2 (r p) k)) (h1 : ∀ p k, X1 (ix2 p k) = A1 (ix2 (r p) k))
    (h2 : ∀ p k, X2 (ix2 p k) = A2 (ix2 (r p) k)) (p : Fin 1024) (q : Fin 32) :
    Gqm Pt X0 X1 X2 (ix2 p q) = Gqm P A0 A1 A2 (ix2 (r p) q) := by
  subst hP
  have e0 : rowOf X0 p = rowOf A0 (r p) := funext (h0 p)
  have e1 : rowOf X1 p = rowOf A1 (r p) := funext (h1 p)
  have e2 : rowOf X2 p = rowOf A2 (r p) := funext (h2 p)
  show postMeanRow Pt (rowOf X0 p) (rowOf X1 p) (rowOf X2 p) q = postMeanRow Pt (rowOf A0 (r p)) (rowOf A1 (r p)) (rowOf A2 (r p)) q
  rw [e0, e1, e2]

theorem Gqs_block (Pt P : Params) (hP : Pt = P) (X0 : Mat 1024 6) (X1 : Mat 1024 1024) (X2 : Mat 1024 200)
    (A0 : Mat 32768 6) (A1 : Mat 32768 1024) (A2 : Mat 32768 200) (r : Fin 1024 → Fin 32768)
    (h0 : ∀ p k, X0 (ix2 p k) = A0 (ix2 (r p) k)) (h1 : ∀ p k, X1 (ix2 p k) = A1 (ix2 (r p) k))
    (h2 : ∀ p k, X2 (ix2 p k) = A2 (ix2 (r p) k)) (p : Fin 1024) (q : Fin 32) :
    Gqs Pt X0 X1 X2 (ix2 p q) = Gqs P A0 A1 A2 (ix2 (r p) q) := by
  subst hP
  have e0 : rowOf X0 p = rowOf A0 (r p) := funext (h0 p)
  have e1 : rowOf X1 p = rowOf A1 (r p) := funext (h1 p)
  have e2 : rowOf X2 p = rowOf A2 (r p) := funext (h2 p)
  show postStdRow Pt (rowOf X0 p) (rowOf X1 p) (rowOf X2 p) q = postStdRow Pt (rowOf A0 (r p)) (rowOf A1 (r p)) (rowOf A2 (r p)) q
  rw [e0, e1, e2]

theorem Gpm_block (Pt P : Params) (hP : Pt = P) (X0 : Mat 1024 6) (X1 : Mat 1024 1024) (X2 : Mat 1024 200)
    (A0 : Mat 32768 6) (A1 : Mat 32768 1024) (A2 : Mat 32768 200) (r : Fin 1024 → Fin 32768)
    (h0 : ∀ p k, X0 (ix2 p k) = A0 (ix2 (r p) k)) (h1 : ∀ p k, X1 (ix2 p k) = A1 (ix2 (r p) k))
    (h2 : ∀ p k, X2 (ix2 p k) = A2 (ix2 (r p) k)) (p : Fin 1024) (q : Fin 32) :
    Gpm Pt X0 X1 X2 (ix2 p q) = Gpm P A0 A1 A2 (ix2 (r p) q) := by
  subst hP
  have e0 : rowOf X0 p = rowOf A0 (r p) := funext (h0 p)
  have e1 : rowOf X1 p = rowOf A1 (r p) := funext (h1 p)
  have e2 : rowOf X2 p = rowOf A2 (r p) := funext (h2 p)
  show priorMeanRow Pt (rowOf X0 p) (rowOf X1 p) (rowOf X2 p) q = priorMeanRow Pt (rowOf A0 (r p)) (rowOf A1 (r p)) (rowOf A2 (r p)) q
  rw [e0, e1, e2]

theorem Gps_block (Pt P : Params) (hP : Pt = P) (X0 : Mat 1024 6) (X1 : Mat 1024 1024) (X2 : Mat 1024 200)
    (A0 : Mat 32768 6) (A1 : Mat 32768 1024) (A2 : Mat 32768 200) (r : Fin 1024 → Fin 32768)
    (h0 : ∀ p k, X0 (ix2 p k) = A0 (ix2 (r p) k)) (h1 : ∀ p k, X1 (ix2 p k) = A1 (ix2 (r p) k))
    (h2 : ∀ p k, X2 (ix2 p k) = A2 (ix2 (r p) k)) (p : Fin 1024) (q : Fin 32) :
    Gps Pt X0 X1 X2 (ix2 p q) = Gps P A0 A1 A2 (ix2 (r p) q) := by
  subst hP
  have e0 : rowOf X0 p = rowOf A0 (r p) := funext (h0 p)
  have e1 : rowOf X1 p = rowOf A1 (r p) := funext (h1 p)
  have e2 : rowOf X2 p = rowOf A2 (r p) := funext (h2 p)
  show priorStdRow Pt (rowOf X0 p) (rowOf X1 p) (rowOf X2 p) q = priorStdRow Pt (rowOf A0 (r p)) (rowOf A1 (r p)) (rowOf A2 (r p)) q
  rw [e0, e1, e2]

end Cert.Rssm

end
-- ==== Proof.LibMatmul.lean ====
/-
  A matrix product of an [M, K] matrix by a [K, N] matrix into a zero accumulator, read at an entry at any sizes: entry
  (p, q) is the sum over k of the left operand's (p, k) entry times the right operand's (k, q) entry.
-/
import Idealize.ShloMosaic.PureOps.Ideal.Laws
import Idealize.ShloMosaic.Lib.ValueIdx

noncomputable section

namespace Cert.LibMatmul

open Idealize.ShloMosaic Idealize.ShloMosaic.ValueIdx

/-- The dimension numbers of the plain product — contract the left operand's axis 1 with the right operand's axis 0, no
    batch axes — under any proof of their conditions. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem contr_rank : (plainDims M K N wf).contr.rank = 1 := rfl
theorem contr_size : (plainDims M K N wf).contr.size ⟨0, by rw [contr_rank]; exact Nat.one_pos⟩ = K := rfl

/-- The left operand's index at output (p, q) and contraction position k is (p, k). -/
theorem lhsIdx_eq (p : Fin M) (q : Fin N) (k : Fin K) :
    (plainDims M K N wf).lhsIdx (ix2 p q) ((contrEquiv1 (plainDims M K N wf) K (contr_rank wf) (contr_size wf)).symm k) = ix2 p k := by
  funext a
  apply Fin.ext
  match a with
  | ⟨0, _⟩ =>
    show ((plainDims M K N wf).lhsIdx (ix2 p q) _ (0 : Fin 2)).val = p.val
    unfold DotDims.lhsIdx
    simp
    rfl
  | ⟨1, _⟩ =>
    refine ((plainDims M K N wf).lhsIdx_val_of_single (cl := (1 : Fin 2)) rfl _ _).trans ?_
    exact contrEquiv1_symm_val _ K (contr_rank wf) (contr_size wf) k

/-- The right operand's index at output (p, q) and contraction position k is (k, q). -/
theorem rhsIdx_eq (p : Fin M) (q : Fin N) (k : Fin K) :
    (plainDims M K N wf).rhsIdx (ix2 p q) ((contrEquiv1 (plainDims M K N wf) K (contr_rank wf) (contr_size wf)).symm k) = ix2 k q := by
  funext a
  apply Fin.ext
  match a with
  | ⟨0, _⟩ =>
    refine ((plainDims M K N wf).rhsIdx_val_of_single (cr := (0 : Fin 2)) rfl _ _).trans ?_
    exact contrEquiv1_symm_val _ K (contr_rank wf) (contr_size wf) k
  | ⟨1, _⟩ =>
    show ((plainDims M K N wf).rhsIdx (ix2 p q) _ (1 : Fin 2)).val = q.val
    unfold DotDims.rhsIdx
    simp
    rfl

/-- THE PRODUCT READ AT (p, q): the sum over the contracted axis of the operands' entries multiplied. -/
theorem matmul_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (plainDims M K N wf) prec lhs rhs (constant ⟨2, ![M, N]⟩ .f32 0x00000000#32) (ix2 p q)
      = ∑ k : Fin K, lhs (ix2 p k) * rhs (ix2 k q) := by
  refine (Ideal.matmul_constant_zero_apply (plainDims M K N wf) prec lhs rhs (ix2 p q)).trans ?_
  rw [← Equiv.sum_comp (contrEquiv1 (plainDims M K N wf) K (contr_rank wf) (contr_size wf)).symm]
  refine Finset.sum_congr rfl fun k _ => ?_
  rw [lhsIdx_eq, rhsIdx_eq]

end Cert.LibMatmul

end
-- ==== Proof.UnitDense.lean ====
/-
  A dense layer as the vector unit spells it, read as ONE function of the tile index, at any sizes over the extended
  reals: a matrix product into a zero accumulator plus a [1, N] bias row broadcast along the rows is, at (p, q), the sum
  over k of lhs (p, k) * rhs (k, q), plus the bias row's entry q. Also the form with two products added before the
  bias (a layer whose input is split in two), and a slice of columns [off, off + b) read at an index.
-/
import Idealize.ShloMosaic.PureOps.Ideal.Laws
import Idealize.ShloMosaic.Lib.ValueIdx
import Idealize.ShloMosaic.Lib.ValueLayout
import Idealize.ShloMosaic.Lib.Pipeline.Value
import proofs.«108998_j15006615733147_2_alg».proof.Proof.LibMatmul
import proofs.«108998_j15006615733147_2_alg».proof.Proof.Spec

noncomputable section

namespace Cert.Rssm.Unit

open Idealize.ShloMosaic Idealize.ShloMosaic.ValueIdx Cert.Rssm

/-- Column off + j of a wider row. -/
def colAt {a b : Nat} (off : Nat) (h : off + b ≤ a) (j : Fin b) : Fin a := ⟨off + j.val, by have := j.isLt; omega⟩

/-- A matrix [K, N] as a weight: (input position k, output position q) ↦ entry (k, q). -/
def matOf {K N : Nat} {φ : FTy} (w : FVec Ideal ⟨2, ![K, N]⟩ φ) : Fin K → Fin N → EReal := fun k q => w (ix2 k q)

/-- A [1, N] row as a bias: q ↦ entry (0, q). -/
def rowVec {N : Nat} (b : FVec Ideal ⟨2, ![1, N]⟩ .f32) : Fin N → EReal := fun q => b (ix2 (0 : Fin 1) q)

/-- ONE PRODUCT PLUS A BIAS ROW, as a function of the tile index. -/
theorem unit_dense {M K N : Nat} (D : DotDims ⟨2, ![M, K]⟩ ⟨2, ![K, N]⟩ ⟨2, ![M, N]⟩)
    (wf : DotDims.WF ⟨2, ![M, K]⟩ ⟨2, ![K, N]⟩ ⟨2, ![M, N]⟩ [1] [0] [0] [1] [] [])
    (hD : D = Cert.LibMatmul.plainDims M K N wf) {φ₁ φ₂ : FTy} (prec : Option ContractPrecision)
    (lhs : FVec Ideal ⟨2, ![M, K]⟩ φ₁) (rhs : FVec Ideal ⟨2, ![K, N]⟩ φ₂) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) :
    addf (matmul D prec lhs rhs (constant ⟨2, ![M, N]⟩ .f32 0x00000000#32))
        (broadcastTo ⟨2, ![M, N]⟩ (shapeCast ⟨2, ![1, N]⟩ b hc) hb)
      = fun i => dense (fun k => lhs (ix2 (n0 := M) (i 0) k)) (matOf rhs) (rowVec b) (i 1) := by
  subst hD
  funext i
  obtain ⟨p, q, rfl⟩ : ∃ (p : Fin M) (q : Fin N), i = ix2 p q := ⟨i 0, i 1, eq_ix2 i⟩
  show matmul (Cert.LibMatmul.plainDims M K N wf) prec lhs rhs (constant ⟨2, ![M, N]⟩ .f32 0x00000000#32) (ix2 p q)
      + broadcastTo ⟨2, ![M, N]⟩ (shapeCast ⟨2, ![1, N]⟩ b hc) hb (ix2 p q)
    = (∑ k : Fin K, lhs (ix2 p k) * rhs (ix2 k q)) + b (ix2 (0 : Fin 1) q)
  rw [Cert.LibMatmul.matmul_plain_apply, broadcastTo_1b_ab_apply, shapeCast_self]

/-- TWO PRODUCTS ADDED, PLUS A BIAS ROW, as a function of the tile index. -/
theorem unit_dense2 {M K K' N : Nat} (D : DotDims ⟨2, ![M, K]⟩ ⟨2, ![K, N]⟩ ⟨2, ![M, N]⟩)
    (wf : DotDims.WF ⟨2, ![M, K]⟩ ⟨2, ![K, N]⟩ ⟨2, ![M, N]⟩ [1] [0] [0] [1] [] [])
    (hD : D = Cert.LibMatmul.plainDims M K N wf)
    (D' : DotDims ⟨2, ![M, K']⟩ ⟨2, ![K', N]⟩ ⟨2, ![M, N]⟩)
    (wf' : DotDims.WF ⟨2, ![M, K']⟩ ⟨2, ![K', N]⟩ ⟨2, ![M, N]⟩ [1] [0] [0] [1] [] [])
    (hD' : D' = Cert.LibMatmul.plainDims M K' N wf') {φ₁ φ₂ φ₃ φ₄ : FTy} (prec prec' : Option ContractPrecision)
    (lhs : FVec Ideal ⟨2, ![M, K]⟩ φ₁) (rhs : FVec Ideal ⟨2, ![K, N]⟩ φ₂)
    (lhs' : FVec Ideal ⟨2, ![M, K']⟩ φ₃) (rhs' : FVec Ideal ⟨2, ![K', N]⟩ φ₄) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) :
    addf (addf (matmul D prec lhs rhs (constant ⟨2, ![M, N]⟩ .f32 0x00000000#32))
               (matmul D' prec' lhs' rhs' (constant ⟨2, ![M, N]⟩ .f32 0x00000000#32)))
        (broadcastTo ⟨2, ![M, N]⟩ (shapeCast ⟨2, ![1, N]⟩ b hc) hb)
      = fun i => ((∑ k : Fin K, lhs (ix2 (n0 := M) (i 0) k) * matOf rhs k (i 1))
                  + (∑ k : Fin K', lhs' (ix2 (n0 := M) (i 0) k) * matOf rhs' k (i 1))) + rowVec b (i 1) := by
  subst hD
  subst hD'
  funext i
  obtain ⟨p, q, rfl⟩ : ∃ (p : Fin M) (q : Fin N), i = ix2 p q := ⟨i 0, i 1, eq_ix2 i⟩
  show (matmul (Cert.LibMatmul.plainDims M K N wf) prec lhs rhs (constant ⟨2, ![M, N]⟩ .f32 0x00000000#32) (ix2 p q)
        + matmul (Cert.LibMatmul.plainDims M K' N wf') prec' lhs' rhs' (constant ⟨2, ![M, N]⟩ .f32 0x00000000#32) (ix2 p q))
      + broadcastTo ⟨2, ![M, N]⟩ (shapeCast ⟨2, ![1, N]⟩ b hc) hb (ix2 p q)
    = ((∑ k : Fin K, lhs (ix2 p k) * rhs (ix2 k q)) + (∑ k : Fin K', lhs' (ix2 p k) * rhs' (ix2 k q))) + b (ix2 (0 : Fin 1) q)
  rw [Cert.LibMatmul.matmul_plain_apply, Cert.LibMatmul.matmul_plain_apply, broadcastTo_1b_ab_apply, shapeCast_self]

/-- A SLICE OF COLUMNS [off, off + b) of an [n, a] matrix, as a function of the index: entry (p, j) is the matrix's entry
    (p, off + j). -/
theorem slice_cols {α : Type} {n a b : Nat} (off : Nat) (hoff : off + b ≤ a) (v : (⟨2, ![n, a]⟩ : Shape).Idx → α)
    (h : (⟨2, ![n, a]⟩ : Shape).Slices ![0, off] ⟨2, ![n, b]⟩) :
    extractStridedSlice ⟨2, ![n, b]⟩ ![0, off] v h = fun i => v (ix2 (n0 := n) (i 0) (colAt off hoff (i 1))) := by
  funext i
  refine extractStridedSlice_apply _ v h i _ (fun ax => ?_)
  match ax with
  | ⟨0, _⟩ => show (i 0).val = 0 + (i 0).val; omega
  | ⟨1, _⟩ => rfl

end Cert.Rssm.Unit

end
-- ==== Proof.Tile.lean ====
/-
  One grid point of the kernel, as functions of the tile index.

  At a grid point the body loads a 1024-row block of each of the four batch arrays (action x0, observation x1,
  previous state x2, noise x3) and the seventeen resident weight blocks x4 … x20, already laid out for the matrix
  unit: [inputs, outputs] matrices and [1, outputs] bias rows, the recurrent cell's three gates at columns 0, 256 and
  512 of 768-wide buffers, the mean and deviation heads side by side in 64-wide buffers. Each value the body stores
  is read here as one function of the tile index: a product into a zero accumulator plus a broadcast bias row is a
  dense layer on the row (the casts to bf16 are the identity on the extended reals), a slice of columns reads a
  shifted column, the dead select of the softplus takes its second branch, and zero minus |d| is -|d|. With the weight
  blocks gathered into `tileParams`, the six stored values are the row functions of the specification applied to
  every row of the tile.
-/
import proofs.«108998_j15006615733147_2_alg».proof.Proof.Gen.KernelIdeal.Skeleton
import proofs.«108998_j15006615733147_2_alg».proof.Proof.UnitDense
import Idealize.ShloMosaic.Lib.Pipeline.Value

noncomputable section

namespace Cert.Rssm.Tile

open Idealize.ShloMosaic Idealize.ShloMosaic.ValueIdx Cert.Rssm Cert.Rssm.Unit Cert.KernelIdeal Cert.KernelIdeal.Gen

/-- The parameters as the matrix unit's weight blocks hold them. -/
def tileParams (x4 : FVec Ideal S200x768 .bf16) (x5 : FVec Ideal S1x768 .f32) (x6 : FVec Ideal S200x768 .bf16) (x7 : FVec Ideal S1x768 .f32)
    (x8 : FVec Ideal S6x200 .bf16) (x9 : FVec Ideal S1x200 .f32) (x10 : FVec Ideal S1024x200 .bf16) (x11 : FVec Ideal S1x200 .f32)
    (x12 : FVec Ideal S200x200 .bf16) (x13 : FVec Ideal S1x200 .f32) (x14 : FVec Ideal S200x64 .bf16) (x15 : FVec Ideal S1x64 .f32)
    (x16 : FVec Ideal S200x200 .bf16) (x17 : FVec Ideal S1024x200 .bf16) (x18 : FVec Ideal S1x200 .f32)
    (x19 : FVec Ideal S200x64 .bf16) (x20 : FVec Ideal S1x64 .f32) : Params where
  wAct := matOf x8
  bAct := rowVec x9
  wEnc := matOf x10
  bEnc := rowVec x11
  wIr k j := matOf x4 k (colAt 0 (by decide) j)
  wIz k j := matOf x4 k (colAt 256 (by decide) j)
  wIn k j := matOf x4 k (colAt 512 (by decide) j)
  bIr j := rowVec x5 (colAt 0 (by decide) j)
  bIz j := rowVec x5 (colAt 256 (by decide) j)
  bIn j := rowVec x5 (colAt 512 (by decide) j)
  wHr k j := matOf x6 k (colAt 0 (by decide) j)
  wHz k j := matOf x6 k (colAt 256 (by decide) j)
  wHn k j := matOf x6 k (colAt 512 (by decide) j)
  bHr j := rowVec x7 (colAt 0 (by decide) j)
  bHz j := rowVec x7 (colAt 256 (by decide) j)
  bHn j := rowVec x7 (colAt 512 (by decide) j)
  wPrior := matOf x12
  bPrior := rowVec x13
  wPm k s := matOf x14 k (colAt 0 (by decide) s)
  bPm s := rowVec x15 (colAt 0 (by decide) s)
  wPs k s := matOf x14 k (colAt 32 (by decide) s)
  bPs s := rowVec x15 (colAt 32 (by decide) s)
  wPostH := matOf x16
  wPostO := matOf x17
  bPost := rowVec x18
  wQm k s := matOf x19 k (colAt 0 (by decide) s)
  bQm s := rowVec x20 (colAt 0 (by decide) s)
  wQs k s := matOf x19 k (colAt 32 (by decide) s)
  bQs s := rowVec x20 (colAt 32 (by decide) s)

variable (x0 : FVec Ideal S1024x6 .f32) (x1 : FVec Ideal S1024x1024 .f32) (x2 : FVec Ideal S1024x200 .f32)
    (x3 : FVec Ideal S1024x32 .f32) (x4 : FVec Ideal S200x768 .bf16) (x5 : FVec Ideal S1x768 .f32) (x6 : FVec Ideal S200x768 .bf16) (x7 : FVec Ideal S1x768 .f32)
    (x8 : FVec Ideal S6x200 .bf16) (x9 : FVec Ideal S1x200 .f32) (x10 : FVec Ideal S1024x200 .bf16) (x11 : FVec Ideal S1x200 .f32)
    (x12 : FVec Ideal S200x200 .bf16) (x13 : FVec Ideal S1x200 .f32) (x14 : FVec Ideal S200x64 .bf16) (x15 : FVec Ideal S1x64 .f32)
    (x16 : FVec Ideal S200x200 .bf16) (x17 : FVec Ideal S1024x200 .bf16) (x18 : FVec Ideal S1x200 .f32)
    (x19 : FVec Ideal S200x64 .bf16) (x20 : FVec Ideal S1x64 .f32)

/-- The 768-wide input-side gate pre-activations: a dense layer of the cell's input x. -/
theorem gi_tile :
    k0_pay4 (F := Ideal) x0 x1 x8 x9 x10 x11 x4 x5
      = fun i => dense (fun j => dense (fun k => x0 (ix2 (n0 := 1024) (i 0) k)) (matOf x8) (rowVec x9) j
                          + relu (dense (fun k => x1 (ix2 (n0 := 1024) (i 0) k)) (matOf x10) (rowVec x11) j))
                  (matOf x4) (rowVec x5) (i 1) := by
  simp only [k0_pay4, k0_pay3]
  rw [shapeCast_self x8, shapeCast_self x10, shapeCast_self x4]
  rw [unit_dense dot_S1024x6_S6x200_S1024x200_1_0_0_1_n_n dot_S1024x6_S6x200_S1024x200_1_0_0_1_n_n.wf rfl,
    unit_dense dot_S1024x1024_S1024x200_S1024x200_1_0_0_1_n_n dot_S1024x1024_S1024x200_S1024x200_1_0_0_1_n_n.wf rfl,
    unit_dense dot_S1024x200_S200x768_S1024x768_1_0_0_1_n_n dot_S1024x200_S200x768_S1024x768_1_0_0_1_n_n.wf rfl]
  rfl

/-- The hidden-side gate pre-activations of tile row p at column c: a dense layer of the previous state. -/
def ghTile (p : Fin 1024) (c : Fin 768) : EReal :=
  dense (fun k => x2 (ix2 p k)) (matOf x6) (rowVec x7) c

/-- The new hidden state from ANY 768-wide input-side pre-activations v30: the gates read columns j, 256 + j, 512 + j. -/
theorem h_tile (v30 : FVec Ideal S1024x768 .f32) :
    k0_pay6 (F := Ideal) x2 v30 (k0_pay5 x2) x6 x7
      = fun i => gate (v30 (ix2 (n0 := 1024) (i 0) (colAt 0 (by decide) (i 1)))) (ghTile x2 x6 x7 (i 0) (colAt 0 (by decide) (i 1)))
                      (v30 (ix2 (n0 := 1024) (i 0) (colAt 256 (by decide) (i 1)))) (ghTile x2 x6 x7 (i 0) (colAt 256 (by decide) (i 1)))
                      (v30 (ix2 (n0 := 1024) (i 0) (colAt 512 (by decide) (i 1)))) (ghTile x2 x6 x7 (i 0) (colAt 512 (by decide) (i 1)))
                      (x2 i) := by
  simp only [k0_pay6, k0_pay5]
  rw [shapeCast_self x6]
  rw [unit_dense dot_S1024x200_S200x768_S1024x768_1_0_0_1_n_n dot_S1024x200_S200x768_S1024x768_1_0_0_1_n_n.wf rfl]
  simp only [slice_cols (n := 1024) (a := 768) (b := 200) 0 (by decide), slice_cols (n := 1024) (a := 768) (b := 200) 256 (by decide),
    slice_cols (n := 1024) (a := 768) (b := 200) 512 (by decide)]
  rfl

/-- The two prior heads side by side (64 columns) over ANY input-side pre-activations: two dense layers with a clamp
    between, on the new hidden state. -/
theorem pp_tile (v30 : FVec Ideal S1024x768 .f32) :
    k0_pay8 (F := Ideal) x2 v30 (k0_pay5 x2) x6 x7 x12 x13 x14 x15
      = fun i => dense (fun j => relu (dense (fun k => k0_pay6 (F := Ideal) x2 v30 (k0_pay5 x2) x6 x7 (ix2 (n0 := 1024) (i 0) k))
                                        (matOf x12) (rowVec x13) j)) (matOf x14) (rowVec x15) (i 1) := by
  simp only [k0_pay8, k0_pay7]
  rw [shapeCast_self x12, shapeCast_self x14]
  rw [unit_dense dot_S1024x200_S200x200_S1024x200_1_0_0_1_n_n dot_S1024x200_S200x200_S1024x200_1_0_0_1_n_n.wf rfl,
    unit_dense dot_S1024x200_S200x64_S1024x64_1_0_0_1_n_n dot_S1024x200_S200x64_S1024x64_1_0_0_1_n_n.wf rfl]
  rfl

/-- The softplus of the body, plus one tenth: the select on "d differs from d" is dead, and zero minus |d| is -|d|. -/
theorem sp_tile (v76 : FVec Ideal S1024x32 .f32) :
    k0_pay11 (F := Ideal) v76 (Scalar.ofBits .f32 0x00000000#32) = fun i => softplus (v76 i) + wTenth := by
  funext i
  show Scalar.select (Ideal.cmp .one (v76 i - w0) (v76 i - w0)) (v76 i + w0)
      (max (v76 i) w0 + Ideal.log1p (Ideal.exp (w0 - max (v76 i - w0) (-(v76 i - w0))))) + wTenth = softplus (v76 i) + wTenth
  rw [select_ne_self _ (Or.inl rfl), w0_sub]
  rfl

/-- The same softplus where the body passes the clamp and the difference in from outside. -/
theorem sp2_tile (v115 : FVec Ideal S1024x32 .f32) :
    k0_pay1 (F := Ideal) v115 (Scalar.ofBits .f32 0x00000000#32)
        (maximumf v115 (broadcast S1024x32 (Scalar.ofBits (F := Ideal) .f32 0x00000000#32)))
        (subf v115 (broadcast S1024x32 (Scalar.ofBits (F := Ideal) .f32 0x00000000#32)))
      = fun i => softplus (v115 i) + wTenth := by
  funext i
  show Scalar.select (Ideal.cmp .one (v115 i - w0) (v115 i - w0)) (v115 i + w0)
      (max (v115 i) w0 + Ideal.log1p (Ideal.exp (w0 - max (v115 i - w0) (-(v115 i - w0))))) + wTenth = softplus (v115 i) + wTenth
  rw [select_ne_self _ (Or.inl rfl), w0_sub]
  rfl

/-- The two posterior heads side by side (64 columns), from ANY bf16 observation block v4 and hidden-state block v57: the
    layer's contraction comes in two parts, the hidden part and the observation part, added before the bias. -/
theorem qq_tile (v4 : FVec Ideal S1024x1024 .bf16) (v57 : FVec Ideal S1024x200 .bf16) :
    k0_pay12 (F := Ideal) v4 v57 x16 x17 x18 x19 x20
      = fun i => dense (fun j => relu (((∑ k : Fin 200, v57 (ix2 (n0 := 1024) (i 0) k) * matOf x16 k j)
                                        + (∑ k : Fin 1024, v4 (ix2 (n0 := 1024) (i 0) k) * matOf x17 k j)) + rowVec x18 j))
                  (matOf x19) (rowVec x20) (i 1) := by
  simp only [k0_pay12]
  rw [shapeCast_self x16, shapeCast_self x17, shapeCast_self x19]
  rw [unit_dense2 dot_S1024x200_S200x200_S1024x200_1_0_0_1_n_n dot_S1024x200_S200x200_S1024x200_1_0_0_1_n_n.wf rfl
      dot_S1024x1024_S1024x200_S1024x200_1_0_0_1_n_n dot_S1024x1024_S1024x200_S1024x200_1_0_0_1_n_n.wf rfl,
    unit_dense dot_S1024x200_S200x64_S1024x64_1_0_0_1_n_n dot_S1024x200_S200x64_S1024x64_1_0_0_1_n_n.wf rfl]
  rfl

/-! ## The six stored values are the specification's row functions on every row of the tile -/

/-- The new hidden state. -/
theorem h_full :
    k0_pay6 (F := Ideal) x2 (k0_pay4 (F := Ideal) x0 x1 x8 x9 x10 x11 x4 x5) (k0_pay5 x2) x6 x7
      = Gh (tileParams x4 x5 x6 x7 x8 x9 x10 x11 x12 x13 x14 x15 x16 x17 x18 x19 x20) x0 x1 x2 := by
  rw [h_tile, gi_tile]
  funext i
  obtain ⟨p, q, rfl⟩ : ∃ (p : Fin 1024) (q : Fin 200), i = ix2 p q := ⟨i 0, i 1, eq_ix2 i⟩
  rfl

/-- The prior mean. -/
theorem pm_full :
    k0_pay9 (F := Ideal) x2 (k0_pay4 (F := Ideal) x0 x1 x8 x9 x10 x11 x4 x5) (k0_pay5 x2) x6 x7 x12 x13 x14 x15
      = Gpm (tileParams x4 x5 x6 x7 x8 x9 x10 x11 x12 x13 x14 x15 x16 x17 x18 x19 x20) x0 x1 x2 := by
  simp only [k0_pay9]
  rw [slice_cols (n := 1024) (a := 64) (b := 32) 0 (by decide), pp_tile, h_tile, gi_tile]
  funext i
  obtain ⟨p, q, rfl⟩ : ∃ (p : Fin 1024) (q : Fin 32), i = ix2 p q := ⟨i 0, i 1, eq_ix2 i⟩
  rfl

/-- The prior deviation. -/
theorem ps_full :
    k0_pay11 (F := Ideal) (k0_pay10 (F := Ideal) x2 (k0_pay4 (F := Ideal) x0 x1 x8 x9 x10 x11 x4 x5) (k0_pay5 x2) x6 x7 x12 x13 x14 x15) (Scalar.ofBits .f32 0x00000000#32)
      = Gps (tileParams x4 x5 x6 x7 x8 x9 x10 x11 x12 x13 x14 x15 x16 x17 x18 x19 x20) x0 x1 x2 := by
  rw [sp_tile]
  simp only [k0_pay10]
  rw [slice_cols (n := 1024) (a := 64) (b := 32) 32 (by decide), pp_tile, h_tile, gi_tile]
  funext i
  obtain ⟨p, q, rfl⟩ : ∃ (p : Fin 1024) (q : Fin 32), i = ix2 p q := ⟨i 0, i 1, eq_ix2 i⟩
  rfl

/-- The posterior mean. -/
theorem qm_full :
    k0_pay13 (F := Ideal) (k0_pay3 x1) (k0_pay7 (F := Ideal) x2 (k0_pay4 (F := Ideal) x0 x1 x8 x9 x10 x11 x4 x5) (k0_pay5 x2) x6 x7) x16 x17 x18 x19 x20
      = Gqm (tileParams x4 x5 x6 x7 x8 x9 x10 x11 x12 x13 x14 x15 x16 x17 x18 x19 x20) x0 x1 x2 := by
  simp only [k0_pay13]
  rw [slice_cols (n := 1024) (a := 64) (b := 32) 0 (by decide), qq_tile]
  simp only [k0_pay7, k0_pay3]
  rw [h_tile, gi_tile]
  funext i
  obtain ⟨p, q, rfl⟩ : ∃ (p : Fin 1024) (q : Fin 32), i = ix2 p q := ⟨i 0, i 1, eq_ix2 i⟩
  rfl

/-- The posterior deviation. -/
theorem qs_full :
    k0_pay1 (F := Ideal)
        (k0_pay14 (F := Ideal) (k0_pay3 x1) (k0_pay7 (F := Ideal) x2 (k0_pay4 (F := Ideal) x0 x1 x8 x9 x10 x11 x4 x5) (k0_pay5 x2) x6 x7) x16 x17 x18 x19 x20)
        (Scalar.ofBits .f32 0x00000000#32)
        (k0_pay15 (F := Ideal) (k0_pay3 x1) (k0_pay7 (F := Ideal) x2 (k0_pay4 (F := Ideal) x0 x1 x8 x9 x10 x11 x4 x5) (k0_pay5 x2) x6 x7) x16 x17 x18 x19 x20)
        (k0_pay16 (F := Ideal) (k0_pay3 x1) (k0_pay7 (F := Ideal) x2 (k0_pay4 (F := Ideal) x0 x1 x8 x9 x10 x11 x4 x5) (k0_pay5 x2) x6 x7) x16 x17 x18 x19 x20)
      = Gqs (tileParams x4 x5 x6 x7 x8 x9 x10 x11 x12 x13 x14 x15 x16 x17 x18 x19 x20) x0 x1 x2 := by
  simp only [k0_pay15, k0_pay16]
  rw [sp2_tile]
  simp only [k0_pay14]
  rw [slice_cols (n := 1024) (a := 64) (b := 32) 32 (by decide), qq_tile]
  simp only [k0_pay7, k0_pay3]
  rw [h_tile, gi_tile]
  funext i
  obtain ⟨p, q, rfl⟩ : ∃ (p : Fin 1024) (q : Fin 32), i = ix2 p q := ⟨i 0, i 1, eq_ix2 i⟩
  rfl

/-- The posterior sample: the mean plus the deviation times the noise. -/
theorem z_full :
    k0_pay2 (F := Ideal) x3
        (k0_pay13 (F := Ideal) (k0_pay3 x1) (k0_pay7 (F := Ideal) x2 (k0_pay4 (F := Ideal) x0 x1 x8 x9 x10 x11 x4 x5) (k0_pay5 x2) x6 x7) x16 x17 x18 x19 x20)
        (k0_pay14 (F := Ideal) (k0_pay3 x1) (k0_pay7 (F := Ideal) x2 (k0_pay4 (F := Ideal) x0 x1 x8 x9 x10 x11 x4 x5) (k0_pay5 x2) x6 x7) x16 x17 x18 x19 x20)
        (Scalar.ofBits .f32 0x00000000#32)
        (k0_pay15 (F := Ideal) (k0_pay3 x1) (k0_pay7 (F := Ideal) x2 (k0_pay4 (F := Ideal) x0 x1 x8 x9 x10 x11 x4 x5) (k0_pay5 x2) x6 x7) x16 x17 x18 x19 x20)
        (k0_pay16 (F := Ideal) (k0_pay3 x1) (k0_pay7 (F := Ideal) x2 (k0_pay4 (F := Ideal) x0 x1 x8 x9 x10 x11 x4 x5) (k0_pay5 x2) x6 x7) x16 x17 x18 x19 x20)
      = Gz (tileParams x4 x5 x6 x7 x8 x9 x10 x11 x12 x13 x14 x15 x16 x17 x18 x19 x20) x0 x1 x2 x3 := by
  simp only [k0_pay2]
  rw [qs_full, qm_full]
  funext i
  obtain ⟨p, q, rfl⟩ : ∃ (p : Fin 1024) (q : Fin 32), i = ix2 p q := ⟨i 0, i 1, eq_ix2 i⟩
  rfl

end Cert.Rssm.Tile

end
-- ==== Proof.LibScatterWindow.lean ====
/-
  A host scatter read at one index.

  `Host.scatter` is a left fold, over the update indices in row-major order, of conditional point updates: update
  index `j` replaces the element at its result index (when that index is inside the operand) by the body applied to
  the element and the update's element. Read at ONE operand index `i'`, the fold only sees the update indices that
  land on `i'`: none of them — the operand's element stays (`scatter_apply_of_miss`); exactly one — the body is applied
  once, to the operand's element and that update's element (`scatter_apply_of_hit`, and `scatter_set_apply_of_hit` for
  the body that returns the update).

  The window form: a rank-2 update `[a, b]` written whole at ONE start index `(r0, c0)` into a rank-2 operand `[A, B]`,
  the window inside the operand. Update index `(j0, j1)` lands at `(r0 + j0, c0 + j1)` (`window_resultIdx?`), so the
  result at `(p, q)` is the update at `(p - r0, q - c0)` inside the window and the operand outside it
  (`scatter_window_apply`).
-/
import Idealize.ShloMosaic.PureOps.ShapeOps
import Idealize.ShloMosaic.Lib.ValueIdx

namespace Idealize.ShloMosaic.ScatterWindow

open Idealize.ShloMosaic Idealize.ShloMosaic.ValueIdx

section Fold
variable {s si u : Shape} {α : Type} {w : Nat}

/-- One step of the scatter's fold: the update at row-major position `n` replaces the element at its result index by
    the body `f` of that element and the update's element, and is dropped when it has no result index. -/
abbrev step (d : ScatterDims s si u) (f : α → α → α) (idx : IVec si w) (upd : u.Idx → α) :
    (s.Idx → α) → Fin u.numel → (s.Idx → α) := fun r n =>
  match d.resultIdx? (u.rowMajor.symm n) idx with
  | some i => fun i' => if i' = i then f (r i) (upd (u.rowMajor.symm n)) else r i'
  | none => r

/-- The scatter is the left fold of `step` over the row-major positions of the updates. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update does not land on `i'` leaves the element at `i'` as it was. -/
theorem step_apply_of_ne (d : ScatterDims s si u) (f : α → α → α) (idx : IVec si w) (upd : u.Idx → α)
    (r : s.Idx → α) (n : Fin u.numel) (i' : s.Idx) (h : d.resultIdx? (u.rowMajor.symm n) idx ≠ some i') :
    step d f idx upd r n i' = r i' := by
  unfold step
  cases hr : d.resultIdx? (u.rowMajor.symm n) idx with
  | none => rfl
  | some i =>
    have hne : i' ≠ i := fun e => h (by rw [hr, e])
    exact if_neg hne

/-- A step whose update lands on `i'` puts there the body of the old element and the update's element. -/
theorem step_apply_of_eq (d : ScatterDims s si u) (f : α → α → α) (idx : IVec si w) (upd : u.Idx → α)
    (r : s.Idx → α) (n : Fin u.numel) (i' : s.Idx) (h : d.resultIdx? (u.rowMajor.symm n) idx = some i') :
    step d f idx upd r n i' = f (r i') (upd (u.rowMajor.symm n)) := by
  unfold step
  rw [h]
  exact if_pos rfl

/-- Folding steps none of which lands on `i'` leaves the element at `i'` as it was. -/
theorem foldl_apply_of_miss (d : ScatterDims s si u) (f : α → α → α) (idx : IVec si w) (upd : u.Idx → α) (i' : s.Idx) :
    ∀ (l : List (Fin u.numel)) (r : s.Idx → α),
      (∀ n ∈ l, d.resultIdx? (u.rowMajor.symm n) idx ≠ some i') → l.foldl (step d f idx upd) r i' = r i' := by
  intro l
  induction l with
  | nil => intro r _; rfl
  | cons n t ih =>
    intro r h
    rw [List.foldl_cons, ih _ (fun m hm => h m (List.mem_cons_of_mem _ hm)),
      step_apply_of_ne d f idx upd r n i' (h n List.mem_cons_self)]

/-- Folding steps over positions without repeats, exactly one of which (`n0`) lands on `i'`, applies the body once
    there: to the old element and the update's element at `n0`. -/
theorem foldl_apply_of_hit (d : ScatterDims s si u) (f : α → α → α) (idx : IVec si w) (upd : u.Idx → α) (i' : s.Idx)
    (n0 : Fin u.numel) (h0 : d.resultIdx? (u.rowMajor.symm n0) idx = some i') :
    ∀ (l : List (Fin u.numel)) (r : s.Idx → α), l.Nodup → n0 ∈ l →
      (∀ n ∈ l, d.resultIdx? (u.rowMajor.symm n) idx = some i' → n = n0) →
      l.foldl (step d f idx upd) r i' = f (r i') (upd (u.rowMajor.symm n0)) := by
  intro l
  induction l with
  | nil => intro r _ hm _; exact absurd hm List.not_mem_nil
  | cons n t ih =>
    intro r hnd hm huniq
    rw [List.foldl_cons]
    have hnd' := List.nodup_cons.1 hnd
    by_cases hn : n = n0
    · subst hn
      rw [foldl_apply_of_miss d f idx upd i' t _ (fun m hmt e =>
        hnd'.1 (huniq m (List.mem_cons_of_mem _ hmt) e ▸ hmt)), step_apply_of_eq d f idx upd r n i' h0]
    · have hmt : n0 ∈ t := (List.mem_cons.1 hm).resolve_left (fun e => hn e.symm)
      rw [ih _ hnd'.2 hmt (fun m hm' => huniq m (List.mem_cons_of_mem _ hm')),
        step_apply_of_ne d f idx upd r n i' (fun e => hn (huniq n List.mem_cons_self e))]

/-- NO UPDATE LANDS ON `i'`: the scatter's result there is the operand's element, whatever the body. -/
theorem scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [scatter_eq_foldl]
  exact foldl_apply_of_miss d f idx upd i' _ x (fun n _ => h _)

/-- EXACTLY ONE UPDATE INDEX `j0` LANDS ON `i'`: the scatter's result there is the body of the operand's element and
    the update's element at `j0`. -/
theorem scatter_apply_of_hit (d : ScatterDims s si u) (f : α → α → α) (x : s.Idx → α) (idx : IVec si w)
    (upd : u.Idx → α) (i' : s.Idx) (j0 : u.Idx) (h0 : d.resultIdx? j0 idx = some i')
    (huniq : ∀ j : u.Idx, d.resultIdx? j idx = some i' → j = j0) :
    Host.scatter d f x idx upd i' = f (x i') (upd j0) := by
  rw [scatter_eq_foldl]
  have e0 : u.rowMajor.symm (u.rowMajor j0) = j0 := u.rowMajor.symm_apply_apply j0
  rw [foldl_apply_of_hit d f idx upd i' (u.rowMajor j0) (by rw [e0]; exact h0) _ x (List.nodup_finRange _)
    (List.mem_finRange _) (fun n _ hn => by
      have := huniq _ hn
      rw [← this]; exact (u.rowMajor.apply_symm_apply n).symm), e0]

/-- The same for the body that returns the update (a scatter that SETS), with no update landing on `i'`. -/
theorem scatter_set_apply_of_miss (d : ScatterDims s si u) (x : s.Idx → α) (idx : IVec si w)
    (upd : u.Idx → α) (i' : s.Idx) (h : ∀ j : u.Idx, d.resultIdx? j idx ≠ some i') :
    Host.scatter d (fun _ b => b) x idx upd i' = x i' :=
  scatter_apply_of_miss d _ x idx upd i' h

/-- The same for the body that returns the update, with exactly one update index `j0` landing on `i'`: the result
    there is the update's element at `j0`. -/
theorem scatter_set_apply_of_hit (d : ScatterDims s si u) (x : s.Idx → α) (idx : IVec si w)
    (upd : u.Idx → α) (i' : s.Idx) (j0 : u.Idx) (h0 : d.resultIdx? j0 idx = some i')
    (huniq : ∀ j : u.Idx, d.resultIdx? j idx = some i' → j = j0) :
    Host.scatter d (fun _ b => b) x idx upd i' = upd j0 :=
  scatter_apply_of_hit d _ x idx upd i' j0 h0 huniq

end Fold

section Window
variable {α : Type}

/-- The dimension numbers of a rank-2 update `[a, b]` written whole at ONE start index (a 2-vector) into a rank-2
    operand `[A, B]`: both update axes are window axes, no operand axis is inserted, the start index's two components
    go to the operand's axes `0` and `1`. Their conditions `wf` are decided on a program's literal shapes. -/
abbrev windowDims (A B a b : Nat)
    (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ where
  updateWindowDims := [0, 1]
  insertedWindowDims := []
  scatterDimsToOperandDims := [0, 1]
  indexVectorDim := 0
  wf := wf

variable {A B a b w : Nat} (wf : ScatterDims.WF ⟨2, ![A, B]⟩ ⟨1, ![2]⟩ ⟨2, ![a, b]⟩ [0, 1] [] [0, 1] 0)

/-- No operand axis is inserted: both are kept. -/
theorem mem_sKept (c : Fin 2) : c ∈ (windowDims A B a b wf).sKept :=
  List.mem_filter.2 ⟨List.mem_finRange _, by simp⟩

/-- The window's start on operand axis `0` is the start index's component `0`, read signed. -/
theorem window_start0 (idx : IVec ⟨1, ![2]⟩ w) (j : (⟨2, ![a, b]⟩ : Shape).Idx) :
    (windowDims A B a b wf).start j idx 0 = (idx (ix1 0)).toInt := by
  unfold ScatterDims.start
  rw [dif_pos (show (0 : Fin 2) ∈ (windowDims A B a b wf).scatterDimsToOperandDims from List.mem_cons_self)]
  congr 2
  funext c
  match c with
  | ⟨0, _⟩ => rfl

/-- The window's start on operand axis `1` is the start index's component `1`, read signed. -/
theorem window_start1 (idx : IVec ⟨1, ![2]⟩ w) (j : (⟨2, ![a, b]⟩ : Shape).Idx) :
    (windowDims A B a b wf).start j idx 1 = (idx (ix1 1)).toInt := by
  unfold ScatterDims.start
  rw [dif_pos (show (1 : Fin 2) ∈ (windowDims A B a b wf).scatterDimsToOperandDims from List.mem_cons_of_mem _ List.mem_cons_self)]
  congr 2
  funext c
  match c with
  | ⟨0, _⟩ => rfl

/-- The window coordinate on operand axis `0` is the update index's coordinate `0`. -/
theorem window_window0 (j : (⟨2, ![a, b]⟩ : Shape).Idx) : (windowDims A B a b wf).window j 0 = (j 0).val := by
  unfold ScatterDims.window
  rw [dif_pos (mem_sKept wf 0)]
  rfl

/-- The window coordinate on operand axis `1` is the update index's coordinate `1`. -/
theorem window_window1 (j : (⟨2, ![a, b]⟩ : Shape).Idx) : (windowDims A B a b wf).window j 1 = (j 1).val := by
  unfold ScatterDims.window
  rw [dif_pos (mem_sKept wf 1)]
  rfl

/-- UPDATE INDEX `(j0, j1)` LANDS AT `(r0 + j0, c0 + j1)`: with the start index `(r0, c0)` (its components read signed)
    and the window inside the operand (`r0 + a ≤ A`, `c0 + b ≤ B`), no update is dropped. -/
theorem window_resultIdx? (idx : IVec ⟨1, ![2]⟩ w) (r0 c0 : Nat)
    (hr : (idx (ix1 0)).toInt = (r0 : Int)) (hc : (idx (ix1 1)).toInt = (c0 : Int))
    (hA : r0 + a ≤ A) (hB : c0 + b ≤ B) (j : (⟨2, ![a, b]⟩ : Shape).Idx) :
    (windowDims A B a b wf).resultIdx? j idx
      = some (ix2 ⟨r0 + (j 0).val, by have := idx2_lt0 j; omega⟩ ⟨c0 + (j 1).val, by have := idx2_lt1 j; omega⟩) := by
  have h0 := idx2_lt0 j
  have h1 := idx2_lt1 j
  have h : ∀ c : Fin 2, 0 ≤ (windowDims A B a b wf).start j idx c + (windowDims A B a b wf).window j c ∧
      (windowDims A B a b wf).start j idx c + (windowDims A B a b wf).window j c
        < ((⟨2, ![A, B]⟩ : Shape).size c : Int) := by
    intro c
    match c with
    | ⟨0, _⟩ =>
      show 0 ≤ (windowDims A B a b wf).start j idx 0 + (windowDims A B a b wf).window j 0 ∧
        (windowDims A B a b wf).start j idx 0 + (windowDims A B a b wf).window j 0 < (A : Int)
      rw [window_start0, window_window0, hr]; omega
    | ⟨1, _⟩ =>
      show 0 ≤ (windowDims A B a b wf).start j idx 1 + (windowDims A B a b wf).window j 1 ∧
        (windowDims A B a b wf).start j idx 1 + (windowDims A B a b wf).window j 1 < (B : Int)
      rw [window_start1, window_window1, hc]; omega
  unfold ScatterDims.resultIdx?
  rw [dif_pos h]
  congr 1
  funext c
  match c with
  | ⟨0, _⟩ =>
    refine Fin.ext ?_
    show ((windowDims A B a b wf).start j idx 0 + (windowDims A B a b wf).window j 0).toNat = r0 + (j 0).val
    rw [window_start0, window_window0, hr]; omega
  | ⟨1, _⟩ =>
    refine Fin.ext ?_
    show ((windowDims A B a b wf).start j idx 1 + (windowDims A B a b wf).window j 1).toNat = c0 + (j 1).val
    rw [window_start1, window_window1, hc]; omega

/-- THE WINDOW SCATTER READ AT `(p, q)`: an update `[a, b]` set at the one start index `(r0, c0)` (the components of
    `idx`, read signed), the window inside the operand `[A, B]`. Inside the window
    `r0 ≤ p < r0 + a`, `c0 ≤ q < c0 + b` the result is the update at `(p - r0, q - c0)`; outside it is the operand. -/
theorem scatter_window_apply (x : (⟨2, ![A, B]⟩ : Shape).Idx → α) (idx : IVec ⟨1, ![2]⟩ w)
    (upd : (⟨2, ![a, b]⟩ : Shape).Idx → α) (r0 c0 : Nat)
    (hr : (idx (ix1 0)).toInt = (r0 : Int)) (hc : (idx (ix1 1)).toInt = (c0 : Int))
    (hA : r0 + a ≤ A) (hB : c0 + b ≤ B) (p : Fin A) (q : Fin B) :
    Host.scatter (windowDims A B a b wf) (fun _ v => v) x idx upd (ix2 p q)
      = if h : r0 ≤ p.val ∧ p.val < r0 + a ∧ c0 ≤ q.val ∧ q.val < c0 + b then
          upd (ix2 ⟨p.val - r0, by omega⟩ ⟨q.val - c0, by omega⟩)
        else x (ix2 p q) := by
  by_cases h : r0 ≤ p.val ∧ p.val < r0 + a ∧ c0 ≤ q.val ∧ q.val < c0 + b
  · rw [dif_pos h]
    refine scatter_set_apply_of_hit _ x idx upd _ _ ?_ ?_
    · rw [window_resultIdx? wf idx r0 c0 hr hc hA hB]
      congr 1
      funext c
      match c with
      | ⟨0, _⟩ => exact Fin.ext (show r0 + (p.val - r0) = p.val by omega)
      | ⟨1, _⟩ => exact Fin.ext (show c0 + (q.val - c0) = q.val by omega)
    · intro j hj
      rw [window_resultIdx? wf idx r0 c0 hr hc hA hB] at hj
      have e := Option.some.inj hj
      have e0 : r0 + (j 0).val = p.val := congrArg (fun i : (⟨2, ![A, B]⟩ : Shape).Idx => (i 0).val) e
      have e1 : c0 + (j 1).val = q.val := congrArg (fun i : (⟨2, ![A, B]⟩ : Shape).Idx => (i 1).val) e
      rw [eq_ix2 j]
      funext c
      match c with
      | ⟨0, _⟩ => exact Fin.ext (show (j 0).val = p.val - r0 by omega)
      | ⟨1, _⟩ => exact Fin.ext (show (j 1).val = q.val - c0 by omega)
  · rw [dif_neg h]
    refine scatter_set_apply_of_miss _ x idx upd _ (fun j hj => h ?_)
    rw [window_resultIdx? wf idx r0 c0 hr hc hA hB] at hj
    have e := Option.some.inj hj
    have e0 : r0 + (j 0).val = p.val := congrArg (fun i : (⟨2, ![A, B]⟩ : Shape).Idx => (i 0).val) e
    have e1 : c0 + (j 1).val = q.val := congrArg (fun i : (⟨2, ![A, B]⟩ : Shape).Idx => (i 1).val) e
    have h0 := idx2_lt0 j
    have h1 := idx2_lt1 j
    omega

/-- A 32-bit word below `2 ^ 31`, read signed, is the natural number it was made from. -/
theorem toInt_ofNat32 {n : Nat} (h : n < 2 ^ 31) : (BitVec.ofNat 32 n).toInt = (n : Int) := by
  rw [BitVec.toInt_eq_toNat_cond, BitVec.toNat_ofNat, Nat.mod_eq_of_lt (by omega)]
  split <;> omega

/-- The window scatter read at `(p, q)`, the start index given as the two 32-bit words `r0` and `c0` (below `2 ^ 31`). -/
theorem scatter_window_apply_ofNat (x : (⟨2, ![A, B]⟩ : Shape).Idx → α) (idx : IVec ⟨1, ![2]⟩ 32)
    (upd : (⟨2, ![a, b]⟩ : Shape).Idx → α) (r0 c0 : Nat)
    (hr : idx (ix1 0) = BitVec.ofNat 32 r0) (hc : idx (ix1 1) = BitVec.ofNat 32 c0)
    (hr31 : r0 < 2 ^ 31) (hc31 : c0 < 2 ^ 31)
    (hA : r0 + a ≤ A) (hB : c0 + b ≤ B) (p : Fin A) (q : Fin B) :
    Host.scatter (windowDims A B a b wf) (fun _ v => v) x idx upd (ix2 p q)
      = if h : r0 ≤ p.val ∧ p.val < r0 + a ∧ c0 ≤ q.val ∧ q.val < c0 + b then
          upd (ix2 ⟨p.val - r0, by omega⟩ ⟨q.val - c0, by omega⟩)
        else x (ix2 p q) :=
  scatter_window_apply wf x idx upd r0 c0 (by rw [hr]; exact toInt_ofNat32 hr31) (by rw [hc]; exact toInt_ofNat32 hc31)
    hA hB p q

end Window

end Idealize.ShloMosaic.ScatterWindow
-- ==== Proof.LibScatterCols.lean ====
/-
  A host scatter that sets a block of columns, read at one index.

  Rank 2: an update [a, b] is written whole into an operand [A, B] at ONE start index with a single component, the
  column c0 (the start on the row axis is 0 because the index map names only the column axis). Update index (j0, j1)
  lands at (j0, c0 + j1), so the result at (p, q) is the update at (p, q - c0) when p < a and c0 ≤ q < c0 + b, and the
  operand elsewhere.

  Rank 1: an update [b] is written into an operand [B] at the one start c0: the result at q is the update at q - c0
  when c0 ≤ q < c0 + b, and the operand elsewhere.
-/
import Idealize.ShloMosaic.PureOps.ShapeOps
import Idealize.ShloMosaic.Lib.ValueIdx
import proofs.«108998_j15006615733147_2_alg».proof.Proof.LibScatterWindow

namespace Cert.LibScatterCols

open Idealize.ShloMosaic Idealize.ShloMosaic.ValueIdx Idealize.ShloMosaic.ScatterWindow

variable {α : Type}

/-! ## Rank 2: a block of columns -/

section Cols

/-- The dimension numbers: both update axes are window axes, no operand axis is inserted, the start index's one
    component goes to the operand's column axis. -/
abbrev colDims (A B a b : Nat)
    (wf : ScatterDims.WF ⟨2, ![A, B]⟩ ⟨1, ![1]⟩ ⟨2, ![a, b]⟩ [0, 1] [] [1] 0) :
    ScatterDims ⟨2, ![A, B]⟩ ⟨1, ![1]⟩ ⟨2, ![a, b]⟩ where
  updateWindowDims := [0, 1]
  insertedWindowDims := []
  scatterDimsToOperandDims := [1]
  indexVectorDim := 0
  wf := wf

variable {A B a b w : Nat} (wf : ScatterDims.WF ⟨2, ![A, B]⟩ ⟨1, ![1]⟩ ⟨2, ![a, b]⟩ [0, 1] [] [1] 0)

theorem mem_sKept (c : Fin 2) : c ∈ (colDims A B a b wf).sKept :=
  List.mem_filter.2 ⟨List.mem_finRange _, by simp⟩

/-- The row axis is not named by the index map: the window starts at row 0. -/
theorem col_start0 (idx : IVec ⟨1, ![1]⟩ w) (j : (⟨2, ![a, b]⟩ : Shape).Idx) :
    (colDims A B a b wf).start j idx 0 = 0 := by
  unfold ScatterDims.start
  rw [dif_neg (show (0 : Fin 2) ∉ (colDims A B a b wf).scatterDimsToOperandDims from
    (by decide : (0 : Fin 2) ∉ ([1] : List (Fin 2))))]

/-- The window's start on the column axis is the start index's one component, read signed. -/
theorem col_start1 (idx : IVec ⟨1, ![1]⟩ w) (j : (⟨2, ![a, b]⟩ : Shape).Idx) :
    (colDims A B a b wf).start j idx 1 = (idx (ix1 0)).toInt := by
  unfold ScatterDims.start
  rw [dif_pos (show (1 : Fin 2) ∈ (colDims A B a b wf).scatterDimsToOperandDims from List.mem_cons_self)]
  congr 2
  funext c
  match c with
  | ⟨0, _⟩ => rfl

theorem col_window0 (j : (⟨2, ![a, b]⟩ : Shape).Idx) : (colDims A B a b wf).window j 0 = (j 0).val := by
  unfold ScatterDims.window
  rw [dif_pos (mem_sKept wf 0)]
  rfl

theorem col_window1 (j : (⟨2, ![a, b]⟩ : Shape).Idx) : (colDims A B a b wf).window j 1 = (j 1).val := by
  unfold ScatterDims.window
  rw [dif_pos (mem_sKept wf 1)]
  rfl

/-- Update index (j0, j1) lands at (j0, c0 + j1) when the block fits (a ≤ A, c0 + b ≤ B): no update is dropped. -/
theorem col_resultIdx? (idx : IVec ⟨1, ![1]⟩ w) (c0 : Nat) (hc : (idx (ix1 0)).toInt = (c0 : Int))
    (hA : a ≤ A) (hB : c0 + b ≤ B) (j : (⟨2, ![a, b]⟩ : Shape).Idx) :
    (colDims A B a b wf).resultIdx? j idx
      = some (ix2 ⟨(j 0).val, by have := idx2_lt0 j; omega⟩ ⟨c0 + (j 1).val, by have := idx2_lt1 j; omega⟩) := by
  have h0 := idx2_lt0 j
  have h1 := idx2_lt1 j
  have h : ∀ c : Fin 2, 0 ≤ (colDims A B a b wf).start j idx c + (colDims A B a b wf).window j c ∧
      (colDims A B a b wf).start j idx c + (colDims A B a b wf).window j c
        < ((⟨2, ![A, B]⟩ : Shape).size c : Int) := by
    intro c
    match c with
    | ⟨0, _⟩ =>
      show 0 ≤ (colDims A B a b wf).start j idx 0 + (colDims A B a b wf).window j 0 ∧
        (colDims A B a b wf).start j idx 0 + (colDims A B a b wf).window j 0 < (A : Int)
      rw [col_start0, col_window0]; omega
    | ⟨1, _⟩ =>
      show 0 ≤ (colDims A B a b wf).start j idx 1 + (colDims A B a b wf).window j 1 ∧
        (colDims A B a b wf).start j idx 1 + (colDims A B a b wf).window j 1 < (B : Int)
      rw [col_start1, col_window1, hc]; omega
  unfold ScatterDims.resultIdx?
  rw [dif_pos h]
  congr 1
  funext c
  match c with
  | ⟨0, _⟩ =>
    refine Fin.ext ?_
    show ((colDims A B a b wf).start j idx 0 + (colDims A B a b wf).window j 0).toNat = (j 0).val
    rw [col_start0, col_window0]; omega
  | ⟨1, _⟩ =>
    refine Fin.ext ?_
    show ((colDims A B a b wf).start j idx 1 + (colDims A B a b wf).window j 1).toNat = c0 + (j 1).val
    rw [col_start1, col_window1, hc]; omega

/-- THE BLOCK OF COLUMNS READ AT (p, q): inside the block the update at (p, q - c0), outside it the operand. -/
theorem scatter_cols_apply (x : (⟨2, ![A, B]⟩ : Shape).Idx → α) (idx : IVec ⟨1, ![1]⟩ w)
    (upd : (⟨2, ![a, b]⟩ : Shape).Idx → α) (c0 : Nat) (hc : (idx (ix1 0)).toInt = (c0 : Int))
    (hA : a ≤ A) (hB : c0 + b ≤ B) (p : Fin A) (q : Fin B) :
    Host.scatter (colDims A B a b wf) (fun _ v => v) x idx upd (ix2 p q)
      = if h : p.val < a ∧ c0 ≤ q.val ∧ q.val < c0 + b then
          upd (ix2 ⟨p.val, h.1⟩ ⟨q.val - c0, by omega⟩)
        else x (ix2 p q) := by
  by_cases h : p.val < a ∧ c0 ≤ q.val ∧ q.val < c0 + b
  · rw [dif_pos h]
    refine scatter_set_apply_of_hit _ x idx upd _ _ ?_ ?_
    · rw [col_resultIdx? wf idx c0 hc hA hB]
      congr 1
      funext c
      match c with
      | ⟨0, _⟩ => exact Fin.ext rfl
      | ⟨1, _⟩ => exact Fin.ext (show c0 + (q.val - c0) = q.val by omega)
    · intro j hj
      rw [col_resultIdx? wf idx c0 hc hA hB] at hj
      have e := Option.some.inj hj
      have e0 : (j 0).val = p.val := congrArg (fun i : (⟨2, ![A, B]⟩ : Shape).Idx => (i 0).val) e
      have e1 : c0 + (j 1).val = q.val := congrArg (fun i : (⟨2, ![A, B]⟩ : Shape).Idx => (i 1).val) e
      rw [eq_ix2 j]
      funext c
      match c with
      | ⟨0, _⟩ => exact Fin.ext e0
      | ⟨1, _⟩ => exact Fin.ext (show (j 1).val = q.val - c0 by omega)
  · rw [dif_neg h]
    refine scatter_set_apply_of_miss _ x idx upd _ (fun j hj => h ?_)
    rw [col_resultIdx? wf idx c0 hc hA hB] at hj
    have e := Option.some.inj hj
    have e0 : (j 0).val = p.val := congrArg (fun i : (⟨2, ![A, B]⟩ : Shape).Idx => (i 0).val) e
    have e1 : c0 + (j 1).val = q.val := congrArg (fun i : (⟨2, ![A, B]⟩ : Shape).Idx => (i 1).val) e
    have h0 := idx2_lt0 j
    have h1 := idx2_lt1 j
    omega

end Cols

/-! ## Rank 1: a segment -/

section Seg

/-- The dimension numbers: the update's one axis is a window axis, the start index's one component goes to the
    operand's one axis. -/
abbrev segDims (B b : Nat) (wf : ScatterDims.WF ⟨1, ![B]⟩ ⟨1, ![1]⟩ ⟨1, ![b]⟩ [0] [] [0] 0) :
    ScatterDims ⟨1, ![B]⟩ ⟨1, ![1]⟩ ⟨1, ![b]⟩ where
  updateWindowDims := [0]
  insertedWindowDims := []
  scatterDimsToOperandDims := [0]
  indexVectorDim := 0
  wf := wf

variable {B b w : Nat} (wf : ScatterDims.WF ⟨1, ![B]⟩ ⟨1, ![1]⟩ ⟨1, ![b]⟩ [0] [] [0] 0)

theorem seg_mem_sKept (c : Fin 1) : c ∈ (segDims B b wf).sKept :=
  List.mem_filter.2 ⟨List.mem_finRange _, by simp⟩

theorem seg_start (idx : IVec ⟨1, ![1]⟩ w) (j : (⟨1, ![b]⟩ : Shape).Idx) :
    (segDims B b wf).start j idx 0 = (idx (ix1 0)).toInt := by
  unfold ScatterDims.start
  rw [dif_pos (show (0 : Fin 1) ∈ (segDims B b wf).scatterDimsToOperandDims from List.mem_cons_self)]
  congr 2
  funext c
  match c with
  | ⟨0, _⟩ => rfl

theorem seg_window (j : (⟨1, ![b]⟩ : Shape).Idx) : (segDims B b wf).window j 0 = (j 0).val := by
  unfold ScatterDims.window
  rw [dif_pos (seg_mem_sKept wf 0)]
  rfl

/-- Update index j lands at c0 + j when the segment fits. -/
theorem seg_resultIdx? (idx : IVec ⟨1, ![1]⟩ w) (c0 : Nat) (hc : (idx (ix1 0)).toInt = (c0 : Int))
    (hB : c0 + b ≤ B) (j : (⟨1, ![b]⟩ : Shape).Idx) :
    (segDims B b wf).resultIdx? j idx
      = some (ix1 ⟨c0 + (j 0).val, by have : (j 0).val < b := (j 0).isLt; omega⟩) := by
  have h0 : (j 0).val < b := (j 0).isLt
  have h : ∀ c : Fin 1, 0 ≤ (segDims B b wf).start j idx c + (segDims B b wf).window j c ∧
      (segDims B b wf).start j idx c + (segDims B b wf).window j c < ((⟨1, ![B]⟩ : Shape).size c : Int) := by
    intro c
    match c with
    | ⟨0, _⟩ =>
      show 0 ≤ (segDims B b wf).start j idx 0 + (segDims B b wf).window j 0 ∧
        (segDims B b wf).start j idx 0 + (segDims B b wf).window j 0 < (B : Int)
      rw [seg_start, seg_window, hc]; omega
  unfold ScatterDims.resultIdx?
  rw [dif_pos h]
  congr 1
  funext c
  match c with
  | ⟨0, _⟩ =>
    refine Fin.ext ?_
    show ((segDims B b wf).start j idx 0 + (segDims B b wf).window j 0).toNat = c0 + (j 0).val
    rw [seg_start, seg_window, hc]; omega

/-- THE SEGMENT READ AT q: inside the segment the update at q - c0, outside it the operand. -/
theorem scatter_seg_apply (x : (⟨1, ![B]⟩ : Shape).Idx → α) (idx : IVec ⟨1, ![1]⟩ w)
    (upd : (⟨1, ![b]⟩ : Shape).Idx → α) (c0 : Nat) (hc : (idx (ix1 0)).toInt = (c0 : Int))
    (hB : c0 + b ≤ B) (q : Fin B) :
    Host.scatter (segDims B b wf) (fun _ v => v) x idx upd (ix1 q)
      = if h : c0 ≤ q.val ∧ q.val < c0 + b then upd (ix1 ⟨q.val - c0, by omega⟩) else x (ix1 q) := by
  by_cases h : c0 ≤ q.val ∧ q.val < c0 + b
  · rw [dif_pos h]
    refine scatter_set_apply_of_hit _ x idx upd _ _ ?_ ?_
    · rw [seg_resultIdx? wf idx c0 hc hB]
      congr 1
      funext c
      match c with
      | ⟨0, _⟩ => exact Fin.ext (show c0 + (q.val - c0) = q.val by omega)
    · intro j hj
      rw [seg_resultIdx? wf idx c0 hc hB] at hj
      have e := Option.some.inj hj
      have e0 : c0 + (j 0).val = q.val := congrArg (fun i : (⟨1, ![B]⟩ : Shape).Idx => (i 0).val) e
      rw [eq_ix1 j]
      funext c
      match c with
      | ⟨0, _⟩ => exact Fin.ext (show (j 0).val = q.val - c0 by omega)
  · rw [dif_neg h]
    refine scatter_set_apply_of_miss _ x idx upd _ (fun j hj => h ?_)
    rw [seg_resultIdx? wf idx c0 hc hB] at hj
    have e := Option.some.inj hj
    have e0 : c0 + (j 0).val = q.val := congrArg (fun i : (⟨1, ![B]⟩ : Shape).Idx => (i 0).val) e
    have h0 : (j 0).val < b := (j 0).isLt
    omega

end Seg

end Cert.LibScatterCols
-- ==== Proof.HostPrep.lean ====
/-
  The weight blocks as the host prepares them, read back to the model's weight arrays.

  Before the kernel runs, the host lays the weights out for the matrix unit: every weight matrix is transposed to
  [inputs, outputs] (and cast to bf16, the identity on the extended reals); every bias vector becomes a [1, outputs] row;
  the recurrent cell's stacked [600, ·] gate weights are written gate by gate into a zeroed [·, 768] buffer at columns 0,
  256 and 512 (so entry (k, 256·g + j) is the weight of gate g from input k to output j, and the padding columns, never
  read, stay zero), and likewise the [600] gate biases into a zeroed [768] row; the mean and deviation heads' weights sit
  side by side in [·, 64] buffers (columns 0..31 the mean, 32..63 the deviation); the posterior layer's [200, 1224] weight is
  cut into its first 200 input columns (the hidden state's) and its last 1024 (the observation's).
  Each lemma here reads one of these arrays at an index and finds the model's weight entry there.
-/
import proofs.«108998_j15006615733147_2_alg».proof.Proof.KernelIdealFrameP
import proofs.«108998_j15006615733147_2_alg».proof.Proof.LibScatterCols
import proofs.«108998_j15006615733147_2_alg».proof.Proof.UnitDense
import Idealize.ShloMosaic.Lib.Pipeline.Value
import Idealize.ShloMosaic.Lib.ValueLayout

noncomputable section

namespace Cert.Rssm.Prep

open Idealize.ShloMosaic Idealize.ShloMosaic.ValueIdx Cert.Rssm Cert.Rssm.Unit Cert.KernelIdeal
open Idealize.ShloMosaic.ScatterWindow (toInt_ofNat32)
open Cert.KernelIdeal.Facts₀ Cert.KernelIdeal.Facts

/-! ## General reads -/

/-- A rank-2 transpose read at (k, q): the operand's entry (q, k). -/
theorem transpose2_apply {α : Type} {a b : Nat} (w : (⟨2, ![a, b]⟩ : Shape).Idx → α)
    (h : (⟨2, ![a, b]⟩ : Shape).Transposes [1, 0] ⟨2, ![b, a]⟩) (k : Fin b) (q : Fin a) :
    transpose ⟨2, ![b, a]⟩ [1, 0] w h (ix2 k q) = w (ix2 q k) :=
  transpose_apply _ w h (ix2 k q) (ix2 q k) (fun c => match c with | ⟨0, _⟩ => rfl | ⟨1, _⟩ => rfl)

/-- A change of float format is the identity on the extended reals. -/
theorem truncf_id {s : Shape} {φ ψ : FTy} (x : FVec Ideal s φ) (h : ψ.bits < φ.bits) : truncf ψ x h = (x : FVec Ideal s ψ) := rfl

/-- A slice [off, off + b) of a vector read at j: the vector's entry off + j. -/
theorem slice1_apply {α : Type} {a b : Nat} (off : Nat) (hoff : off + b ≤ a) (v : (⟨1, ![a]⟩ : Shape).Idx → α)
    (h : (⟨1, ![a]⟩ : Shape).Slices ![off] ⟨1, ![b]⟩) (j : Fin b) :
    extractStridedSlice ⟨1, ![b]⟩ ![off] v h (ix1 j) = v (ix1 (colAt off hoff j)) :=
  extractStridedSlice_apply _ v h (ix1 j) _ (fun ax => match ax with | ⟨0, _⟩ => rfl)

/-- The one-component start index made by broadcasting a 32-bit word: its component, read signed, is the word's number. -/
theorem start_word (n : Nat) (hn : n < 2 ^ 31) (h : (⟨0, ![]⟩ : Shape).BroadcastsInDim S1 (![] : Fin 0 → Fin 1)) :
    ((broadcastInDim S1 ![] h (constantI S_ 32 (BitVec.ofNat 32 n)) : IVec S1 32) (ix1 0)).toInt = (n : Int) := by
  rw [broadcastInDim_apply _ h _ (ix1 0) ix0 (fun a => a.elim0)]
  exact toInt_ofNat32 hn

/-- The program's column scatter into a [200, 768] buffer: a [200, 200] block set at column n. -/
theorem cols768 (x : (⟨2, ![200, 768]⟩ : Shape).Idx → EReal) (idx : IVec S1 32) (u : (⟨2, ![200, 200]⟩ : Shape).Idx → EReal)
    (n : Nat) (hc : (idx (ix1 0)).toInt = (n : Int)) (hB : n + 200 ≤ 768) (k : Fin 200) (q : Fin 768) :
    Host.scatter scatter_S200x768_S1_S200x200_01_n_1_0 (fun _ v => v) x idx u (ix2 k q)
      = if h : k.val < 200 ∧ n ≤ q.val ∧ q.val < n + 200 then u (ix2 ⟨k.val, h.1⟩ ⟨q.val - n, by omega⟩) else x (ix2 k q) :=
  Cert.LibScatterCols.scatter_cols_apply (A := 200) (B := 768) (a := 200) (b := 200)
    scatter_S200x768_S1_S200x200_01_n_1_0.wf x idx u n hc (le_refl _) hB k q

/-- The program's segment scatter into a [768] buffer: a [200] segment set at position n. -/
theorem seg768 (x : (⟨1, ![768]⟩ : Shape).Idx → EReal) (idx : IVec S1 32) (u : (⟨1, ![200]⟩ : Shape).Idx → EReal)
    (n : Nat) (hc : (idx (ix1 0)).toInt = (n : Int)) (hB : n + 200 ≤ 768) (q : Fin 768) :
    Host.scatter scatter_S768_S1_S200_0_n_0_0 (fun _ v => v) x idx u (ix1 q)
      = if h : n ≤ q.val ∧ q.val < n + 200 then u (ix1 ⟨q.val - n, by omega⟩) else x (ix1 q) :=
  Cert.LibScatterCols.scatter_seg_apply (B := 768) (b := 200) scatter_S768_S1_S200_0_n_0_0.wf x idx u n hc hB q

/-- Inside the block the column scatter holds the update: column n + j of the result is column j of the update. -/
theorem cols768_hit (x : (⟨2, ![200, 768]⟩ : Shape).Idx → EReal) (idx : IVec S1 32) (u : (⟨2, ![200, 200]⟩ : Shape).Idx → EReal)
    (n : Nat) (hc : (idx (ix1 0)).toInt = (n : Int)) (hB : n + 200 ≤ 768) (k : Fin 200) (j : Fin 200) :
    Host.scatter scatter_S200x768_S1_S200x200_01_n_1_0 (fun _ v => v) x idx u (ix2 k (colAt n hB j)) = u (ix2 k j) := by
  have hj := j.isLt
  rw [cols768 x idx u n hc hB k (colAt n hB j),
    dif_pos (show k.val < 200 ∧ n ≤ (colAt n hB j).val ∧ (colAt n hB j).val < n + 200 from
      ⟨k.isLt, by show n ≤ n + j.val; omega, by show n + j.val < n + 200; omega⟩)]
  congr 1
  funext c
  match c with
  | ⟨0, _⟩ => rfl
  | ⟨1, _⟩ => exact Fin.ext (by show n + j.val - n = j.val; omega)

/-- Outside the block the column scatter keeps the operand. -/
theorem cols768_miss (x : (⟨2, ![200, 768]⟩ : Shape).Idx → EReal) (idx : IVec S1 32) (u : (⟨2, ![200, 200]⟩ : Shape).Idx → EReal)
    (n : Nat) (hc : (idx (ix1 0)).toInt = (n : Int)) (hB : n + 200 ≤ 768) (k : Fin 200) (q : Fin 768)
    (hq : q.val < n ∨ n + 200 ≤ q.val) :
    Host.scatter scatter_S200x768_S1_S200x200_01_n_1_0 (fun _ v => v) x idx u (ix2 k q) = x (ix2 k q) := by
  rw [cols768 x idx u n hc hB k q, dif_neg (fun h => by omega)]

theorem seg768_hit (x : (⟨1, ![768]⟩ : Shape).Idx → EReal) (idx : IVec S1 32) (u : (⟨1, ![200]⟩ : Shape).Idx → EReal)
    (n : Nat) (hc : (idx (ix1 0)).toInt = (n : Int)) (hB : n + 200 ≤ 768) (j : Fin 200) :
    Host.scatter scatter_S768_S1_S200_0_n_0_0 (fun _ v => v) x idx u (ix1 (colAt n hB j)) = u (ix1 j) := by
  have hj := j.isLt
  rw [seg768 x idx u n hc hB (colAt n hB j),
    dif_pos (show n ≤ (colAt n hB j).val ∧ (colAt n hB j).val < n + 200 from
      ⟨by show n ≤ n + j.val; omega, by show n + j.val < n + 200; omega⟩)]
  congr 1
  funext c
  match c with
  | ⟨0, _⟩ => exact Fin.ext (by show n + j.val - n = j.val; omega)

theorem seg768_miss (x : (⟨1, ![768]⟩ : Shape).Idx → EReal) (idx : IVec S1 32) (u : (⟨1, ![200]⟩ : Shape).Idx → EReal)
    (n : Nat) (hc : (idx (ix1 0)).toInt = (n : Int)) (hB : n + 200 ≤ 768) (q : Fin 768) (hq : q.val < n ∨ n + 200 ≤ q.val) :
    Host.scatter scatter_S768_S1_S200_0_n_0_0 (fun _ v => v) x idx u (ix1 q) = x (ix1 q) := by
  rw [seg768 x idx u n hc hB q, dif_neg (fun h => by omega)]

/-! ## The recurrent cell's gate buffers -/

def zeros768x : FVec Ideal S200x768 .f32 := broadcastInDim S200x768 ![] bcast_S_S200x768 (constant (F := Ideal) S_ .f32 0x00000000#32)
def zeros768 : FVec Ideal S768 .f32 := broadcastInDim S768 ![] bcast_S_S768 (constant (F := Ideal) S_ .f32 0x00000000#32)
def startAt (n : BitVec 32) : IVec S1 32 := broadcastInDim S1 ![] bcast_S_S1 (constantI S_ 32 n)

theorem startAt_word (n : Nat) (hn : n < 2 ^ 31) : ((startAt (BitVec.ofNat 32 n)) (ix1 0)).toInt = (n : Int) :=
  start_word n hn bcast_S_S1

/-- The stacked [600, 200] gate weights, transposed and written gate by gate at columns 0, 256, 512 of a zeroed
    [200, 768] buffer. -/
def gateW (w : FVec Ideal S600x200 .f32) : FVec Ideal S200x768 .bf16 :=
  truncf .bf16
    (Host.scatter scatter_S200x768_S1_S200x200_01_n_1_0 (fun _ b => b)
      (Host.scatter scatter_S200x768_S1_S200x200_01_n_1_0 (fun _ b => b)
        (Host.scatter scatter_S200x768_S1_S200x200_01_n_1_0 (fun _ b => b) zeros768x (startAt 0#32)
          (extractStridedSlice S200x200 ![0, 0] (transpose S200x600 [1, 0] w transposes_S600x200_S200x600_1_0) slices_S200x600_S200x200_0_0))
        (startAt 256#32)
        (extractStridedSlice S200x200 ![0, 200] (transpose S200x600 [1, 0] w transposes_S600x200_S200x600_1_0) slices_S200x600_S200x200_0_200))
      (startAt 512#32)
      (extractStridedSlice S200x200 ![0, 400] (transpose S200x600 [1, 0] w transposes_S600x200_S200x600_1_0) slices_S200x600_S200x200_0_400))
    bitsLt_bf16_f32

/-- A slice of 200 columns of the transposed gate weights: entry (k, j) is the weight's entry (off + j, k). -/
theorem tslice (w : FVec Ideal S600x200 .f32) (off : Nat) (hoff : off + 200 ≤ 600)
    (hs : (⟨2, ![200, 600]⟩ : Shape).Slices ![0, off] ⟨2, ![200, 200]⟩) (k j : Fin 200) :
    extractStridedSlice S200x200 ![0, off] (transpose S200x600 [1, 0] w transposes_S600x200_S200x600_1_0) hs (ix2 k j) = w (ix2 (colAt off hoff j) k) := by
  rw [slice_cols (n := 200) (a := 600) (b := 200) off hoff]
  exact transpose2_apply w _ k (colAt off hoff j)

theorem gateW_r (w : FVec Ideal S600x200 .f32) (k j : Fin 200) :
    gateW w (ix2 k (colAt 0 (by decide) j)) = w (ix2 (⟨j.val, by have := j.isLt; omega⟩ : Fin 600) k) := by
  have hj := j.isLt
  unfold gateW
  rw [truncf_id]
  rw [cols768_miss _ _ _ 512 (startAt_word 512 (by decide)) (by decide) k _ (Or.inl (by show 0 + j.val < 512; omega)),
    cols768_miss _ _ _ 256 (startAt_word 256 (by decide)) (by decide) k _ (Or.inl (by show 0 + j.val < 256; omega)),
    cols768_hit _ _ _ 0 (startAt_word 0 (by decide)) (by decide) k j, tslice w 0 (by decide)]
  exact congrArg (fun r => w (ix2 r k)) (Fin.ext (by show 0 + j.val = j.val; omega))

theorem gateW_z (w : FVec Ideal S600x200 .f32) (k j : Fin 200) :
    gateW w (ix2 k (colAt 256 (by decide) j)) = w (ix2 (⟨200 + j.val, by have := j.isLt; omega⟩ : Fin 600) k) := by
  have hj := j.isLt
  unfold gateW
  rw [truncf_id]
  rw [cols768_miss _ _ _ 512 (startAt_word 512 (by decide)) (by decide) k _ (Or.inl (by show 256 + j.val < 512; omega)),
    cols768_hit _ _ _ 256 (startAt_word 256 (by decide)) (by decide) k j, tslice w 200 (by decide)]
  rfl

theorem gateW_n (w : FVec Ideal S600x200 .f32) (k j : Fin 200) :
    gateW w (ix2 k (colAt 512 (by decide) j)) = w (ix2 (⟨400 + j.val, by have := j.isLt; omega⟩ : Fin 600) k) := by
  unfold gateW
  rw [truncf_id]
  rw [cols768_hit _ _ _ 512 (startAt_word 512 (by decide)) (by decide) k j, tslice w 400 (by decide)]
  rfl

/-- The stacked [600] gate biases, written gate by gate at positions 0, 256, 512 of a zeroed [768] vector, as a [1, 768] row. -/
def gateB (b : FVec Ideal S600 .f32) : FVec Ideal S1x768 .f32 :=
  shapeCast S1x768
    (Host.scatter scatter_S768_S1_S200_0_n_0_0 (fun _ b => b)
      (Host.scatter scatter_S768_S1_S200_0_n_0_0 (fun _ b => b)
        (Host.scatter scatter_S768_S1_S200_0_n_0_0 (fun _ b => b) zeros768 (startAt 0#32) (extractStridedSlice S200 ![0] b slices_S600_S200_0))
        (startAt 256#32) (extractStridedSlice S200 ![200] b slices_S600_S200_200))
      (startAt 512#32) (extractStridedSlice S200 ![400] b slices_S600_S200_400))
    shapeCasts_S768_S1x768

theorem gateB_r (b : FVec Ideal S600 .f32) (j : Fin 200) :
    rowVec (gateB b) (colAt 0 (by decide) j) = b (ix1 (⟨j.val, by have := j.isLt; omega⟩ : Fin 600)) := by
  have hj := j.isLt
  unfold rowVec gateB
  rw [shapeCast_a_1a_apply]
  rw [seg768_miss _ _ _ 512 (startAt_word 512 (by decide)) (by decide) _ (Or.inl (by show 0 + j.val < 512; omega)),
    seg768_miss _ _ _ 256 (startAt_word 256 (by decide)) (by decide) _ (Or.inl (by show 0 + j.val < 256; omega)),
    seg768_hit _ _ _ 0 (startAt_word 0 (by decide)) (by decide) j, slice1_apply (a := 600) (b := 200) 0 (by decide)]
  exact congrArg (fun r => b (ix1 r)) (Fin.ext (by show 0 + j.val = j.val; omega))

theorem gateB_z (b : FVec Ideal S600 .f32) (j : Fin 200) :
    rowVec (gateB b) (colAt 256 (by decide) j) = b (ix1 (⟨200 + j.val, by have := j.isLt; omega⟩ : Fin 600)) := by
  have hj := j.isLt
  unfold rowVec gateB
  rw [shapeCast_a_1a_apply]
  rw [seg768_miss _ _ _ 512 (startAt_word 512 (by decide)) (by decide) _ (Or.inl (by show 256 + j.val < 512; omega)),
    seg768_hit _ _ _ 256 (startAt_word 256 (by decide)) (by decide) j, slice1_apply (a := 600) (b := 200) 200 (by decide)]
  rfl

theorem gateB_n (b : FVec Ideal S600 .f32) (j : Fin 200) :
    rowVec (gateB b) (colAt 512 (by decide) j) = b (ix1 (⟨400 + j.val, by have := j.isLt; omega⟩ : Fin 600)) := by
  unfold rowVec gateB
  rw [shapeCast_a_1a_apply]
  rw [seg768_hit _ _ _ 512 (startAt_word 512 (by decide)) (by decide) j, slice1_apply (a := 600) (b := 200) 400 (by decide)]
  rfl

/-! ## The plain layers: a transposed weight, a bias as a row -/

/-- A bias vector as a [1, f] row reads back the vector. -/
theorem rowVec_cast {f : Nat} (b : (⟨1, ![f]⟩ : Shape).Idx → EReal) (h : (⟨1, ![f]⟩ : Shape).ShapeCasts ⟨2, ![1, f]⟩) (q : Fin f) :
    rowVec (shapeCast ⟨2, ![1, f]⟩ b h) q = b (ix1 q) := by
  unfold rowVec
  rw [shapeCast_a_1a_apply]

/-- A transposed weight cast to bf16 reads, at (k, q), the weight's entry (q, k). -/
theorem matOf_tr {a b : Nat} (w : (⟨2, ![a, b]⟩ : Shape).Idx → EReal) (h : (⟨2, ![a, b]⟩ : Shape).Transposes [1, 0] ⟨2, ![b, a]⟩)
    (hb : FTy.bf16.bits < FTy.f32.bits) (k : Fin b) (q : Fin a) :
    matOf (φ := .bf16) (truncf (F := Ideal) (φ := .f32) .bf16 (transpose ⟨2, ![b, a]⟩ [1, 0] w h) hb) k q = w (ix2 q k) := by
  unfold matOf
  rw [truncf_id]
  exact transpose2_apply w h k q

/-! ## The fused heads: mean and deviation side by side -/

def catW (x y : FVec Ideal S32x200 .f32) : FVec Ideal S200x64 .bf16 :=
  truncf .bf16 (concatenate S200x64 1 [⟨S200x32, transpose S200x32 [1, 0] x transposes_S32x200_S200x32_1_0⟩,
      ⟨S200x32, transpose S200x32 [1, 0] y transposes_S32x200_S200x32_1_0⟩] concatenates_S200x32_S200x32_S200x64_d1) bitsLt_bf16_f32

theorem catW_l (x y : FVec Ideal S32x200 .f32) (k : Fin 200) (s : Fin 32) :
    matOf (catW x y) k (colAt 0 (by decide) s) = x (ix2 s k) := by
  unfold matOf catW
  rw [truncf_id]
  exact (concatenate_pair_apply_left (t := S200x64) (s₁ := S200x32) (s₂ := S200x32) (1 : Fin 2) _ _
    concatenates_S200x32_S200x32_S200x64_d1 (ix2 (n1 := 64) k (colAt 0 (by decide) s)) rfl (ix2 k s)
    (fun c => match c with | ⟨0, _⟩ => rfl | ⟨1, _⟩ => by show s.val = 0 + s.val; omega)).trans (transpose2_apply x _ k s)

theorem catW_r (x y : FVec Ideal S32x200 .f32) (k : Fin 200) (s : Fin 32) :
    matOf (catW x y) k (colAt 32 (by decide) s) = y (ix2 s k) := by
  unfold matOf catW
  rw [truncf_id]
  exact (concatenate_pair_apply_right (t := S200x64) (s₁ := S200x32) (s₂ := S200x32) (1 : Fin 2) _ _
    concatenates_S200x32_S200x32_S200x64_d1 (ix2 (n1 := 64) k (colAt 32 (by decide) s)) rfl rfl (ix2 k s)
    (fun c hc => match c, hc with | ⟨0, _⟩, _ => rfl | ⟨1, _⟩, hc => absurd rfl hc)
    (by show s.val + 32 = 32 + s.val; omega)).trans (transpose2_apply y _ k s)

def catB (x y : FVec Ideal S32 .f32) : FVec Ideal S1x64 .f32 :=
  shapeCast S1x64 (concatenate S64 0 [⟨S32, x⟩, ⟨S32, y⟩] concatenates_S32_S32_S64_d0) shapeCasts_S64_S1x64

theorem catB_l (x y : FVec Ideal S32 .f32) (s : Fin 32) : rowVec (catB x y) (colAt 0 (by decide) s) = x (ix1 s) := by
  unfold rowVec catB
  rw [shapeCast_a_1a_apply]
  exact concatenate_pair_apply_left (t := S64) (s₁ := S32) (s₂ := S32) (0 : Fin 1) _ _ concatenates_S32_S32_S64_d0 (ix1 (n := 64) (colAt 0 (by decide) s)) rfl (ix1 s)
    (fun c => match c with | ⟨0, _⟩ => by show s.val = 0 + s.val; omega)

theorem catB_r (x y : FVec Ideal S32 .f32) (s : Fin 32) : rowVec (catB x y) (colAt 32 (by decide) s) = y (ix1 s) := by
  unfold rowVec catB
  rw [shapeCast_a_1a_apply]
  exact concatenate_pair_apply_right (t := S64) (s₁ := S32) (s₂ := S32) (0 : Fin 1) _ _ concatenates_S32_S32_S64_d0 (ix1 (n := 64) (colAt 32 (by decide) s)) rfl rfl (ix1 s)
    (fun c hc => match c, hc with | ⟨0, _⟩, hc => absurd rfl hc)
    (by show s.val + 32 = 32 + s.val; omega)

/-! ## The posterior layer's weight, cut in two -/

def postH (w : FVec Ideal S200x1224 .f32) : FVec Ideal S200x200 .bf16 :=
  truncf .bf16 (transpose S200x200 [1, 0] (extractStridedSlice S200x200 ![0, 0] w slices_S200x1224_S200x200_0_0)
    transposes_S200x200_S200x200_1_0) bitsLt_bf16_f32

def postO (w : FVec Ideal S200x1224 .f32) : FVec Ideal S1024x200 .bf16 :=
  truncf .bf16 (transpose S1024x200 [1, 0] (extractStridedSlice S200x1024 ![0, 200] w slices_S200x1224_S200x1024_0_200)
    transposes_S200x1024_S1024x200_1_0) bitsLt_bf16_f32

theorem postH_read (w : FVec Ideal S200x1224 .f32) (k q : Fin 200) :
    matOf (postH w) k q = w (ix2 q (⟨k.val, by have := k.isLt; omega⟩ : Fin 1224)) := by
  have hk := k.isLt
  unfold matOf postH
  rw [truncf_id]
  refine (transpose2_apply _ _ k q).trans ?_
  rw [slice_cols (n := 200) (a := 1224) (b := 200) 0 (by decide)]
  exact congrArg (fun r => w (ix2 q r)) (Fin.ext (by show 0 + k.val = k.val; omega))

theorem postO_read (w : FVec Ideal S200x1224 .f32) (k : Fin 1024) (q : Fin 200) :
    matOf (postO w) k q = w (ix2 q (⟨200 + k.val, by have := k.isLt; omega⟩ : Fin 1224)) := by
  unfold matOf postO
  rw [truncf_id]
  refine (transpose2_apply _ _ k q).trans ?_
  rw [slice_cols (n := 200) (a := 1224) (b := 1024) 200 (by decide)]
  rfl

end Cert.Rssm.Prep

end
-- ==== Proof.HostVa.lean ====
/-
  What the region finds in each prepared weight array (the recurrent cell's gate buffers and the plain layers): the host operations before the kernel, composed,
  applied to the weight arguments of the memory the program starts from.
-/
import proofs.«108998_j15006615733147_2_alg».proof.Proof.KernelIdealFrameP
import proofs.«108998_j15006615733147_2_alg».proof.Proof.HostPrep
import Idealize.ShloMosaic.Lib.Pipeline.Value
import Idealize.ShloMosaic.Lib.StableHlo.Run
import Idealize.ShloMosaic.PureOps.Ideal.Laws

noncomputable section

namespace Cert.Rssm.Prep

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ)

set_option maxHeartbeats 4000000 in
theorem V_main_v11 (c : Dev nD) : (V m c main_v11 : S200x768.Idx → EReal) = gateW (m ((c.tc : Thread nD τ).loc main_arg4)) := by
  dsimp only [V, hostOps0]
  after_results_simp <;> rfl

set_option maxHeartbeats 4000000 in
theorem V_main_v34 (c : Dev nD) : (V m c main_v34 : S1x768.Idx → EReal) = gateB (m ((c.tc : Thread nD τ).loc main_arg5)) := by
  dsimp only [V, hostOps0]
  after_results_simp <;> rfl

set_option maxHeartbeats 4000000 in
theorem V_main_v23 (c : Dev nD) : (V m c main_v23 : S200x768.Idx → EReal) = gateW (m ((c.tc : Thread nD τ).loc main_arg6)) := by
  dsimp only [V, hostOps0]
  after_results_simp <;> rfl

set_option maxHeartbeats 4000000 in
theorem V_main_v45 (c : Dev nD) : (V m c main_v45 : S1x768.Idx → EReal) = gateB (m ((c.tc : Thread nD τ).loc main_arg7)) := by
  dsimp only [V, hostOps0]
  after_results_simp <;> rfl

set_option maxHeartbeats 4000000 in
theorem V_main_v47 (c : Dev nD) : (V m c main_v47 : S6x200.Idx → EReal) = truncf (F := Ideal) .bf16 (transpose S6x200 [1, 0] (m ((c.tc : Thread nD τ).loc main_arg8)) Facts₀.transposes_S200x6_S6x200_1_0) Facts₀.bitsLt_bf16_f32 := by
  dsimp only [V, hostOps0]
  after_results_simp <;> rfl

set_option maxHeartbeats 4000000 in
theorem V_main_v70 (c : Dev nD) : (V m c main_v70 : S1x200.Idx → EReal) = shapeCast S1x200 (m ((c.tc : Thread nD τ).loc main_arg9)) Facts₀.shapeCasts_S200_S1x200 := by
  dsimp only [V, hostOps0]
  after_results_simp <;> rfl

set_option maxHeartbeats 4000000 in
theorem V_main_v49 (c : Dev nD) : (V m c main_v49 : S1024x200.Idx → EReal) = truncf (F := Ideal) .bf16 (transpose S1024x200 [1, 0] (m ((c.tc : Thread nD τ).loc main_arg10)) Facts₀.transposes_S200x1024_S1024x200_1_0) Facts₀.bitsLt_bf16_f32 := by
  dsimp only [V, hostOps0]
  after_results_simp <;> rfl

set_option maxHeartbeats 4000000 in
theorem V_main_v71 (c : Dev nD) : (V m c main_v71 : S1x200.Idx → EReal) = shapeCast S1x200 (m ((c.tc : Thread nD τ).loc main_arg11)) Facts₀.shapeCasts_S200_S1x200 := by
  dsimp only [V, hostOps0]
  after_results_simp <;> rfl

set_option maxHeartbeats 4000000 in
theorem V_main_v51 (c : Dev nD) : (V m c main_v51 : S200x200.Idx → EReal) = truncf (F := Ideal) .bf16 (transpose S200x200 [1, 0] (m ((c.tc : Thread nD τ).loc main_arg12)) Facts₀.transposes_S200x200_S200x200_1_0) Facts₀.bitsLt_bf16_f32 := by
  dsimp only [V, hostOps0]
  after_results_simp <;> rfl

end Cert.Rssm.Prep

end
-- ==== Proof.HostVb.lean ====
/-
  What the region finds in each prepared weight array (the prior and posterior heads): the host operations before the kernel, composed,
  applied to the weight arguments of the memory the program starts from.
-/
import proofs.«108998_j15006615733147_2_alg».proof.Proof.KernelIdealFrameP
import proofs.«108998_j15006615733147_2_alg».proof.Proof.HostPrep
import Idealize.ShloMosaic.Lib.Pipeline.Value
import Idealize.ShloMosaic.Lib.StableHlo.Run
import Idealize.ShloMosaic.PureOps.Ideal.Laws

noncomputable section

namespace Cert.Rssm.Prep

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ)

set_option maxHeartbeats 4000000 in
theorem V_main_v72 (c : Dev nD) : (V m c main_v72 : S1x200.Idx → EReal) = shapeCast S1x200 (m ((c.tc : Thread nD τ).loc main_arg13)) Facts₀.shapeCasts_S200_S1x200 := by
  dsimp only [V, hostOps0]
  after_results_simp <;> rfl

set_option maxHeartbeats 4000000 in
theorem V_main_v55 (c : Dev nD) : (V m c main_v55 : S200x64.Idx → EReal) = catW (m ((c.tc : Thread nD τ).loc main_arg14)) (m ((c.tc : Thread nD τ).loc main_arg16)) := by
  dsimp only [V, hostOps0]
  after_results_simp <;> rfl

set_option maxHeartbeats 4000000 in
theorem V_main_v57 (c : Dev nD) : (V m c main_v57 : S1x64.Idx → EReal) = catB (m ((c.tc : Thread nD τ).loc main_arg15)) (m ((c.tc : Thread nD τ).loc main_arg17)) := by
  dsimp only [V, hostOps0]
  after_results_simp <;> rfl

set_option maxHeartbeats 4000000 in
theorem V_main_v60 (c : Dev nD) : (V m c main_v60 : S200x200.Idx → EReal) = postH (m ((c.tc : Thread nD τ).loc main_arg18)) := by
  dsimp only [V, hostOps0]
  after_results_simp <;> rfl

set_option maxHeartbeats 4000000 in
theorem V_main_v63 (c : Dev nD) : (V m c main_v63 : S1024x200.Idx → EReal) = postO (m ((c.tc : Thread nD τ).loc main_arg18)) := by
  dsimp only [V, hostOps0]
  after_results_simp <;> rfl

set_option maxHeartbeats 4000000 in
theorem V_main_v73 (c : Dev nD) : (V m c main_v73 : S1x200.Idx → EReal) = shapeCast S1x200 (m ((c.tc : Thread nD τ).loc main_arg19)) Facts₀.shapeCasts_S200_S1x200 := by
  dsimp only [V, hostOps0]
  after_results_simp <;> rfl

set_option maxHeartbeats 4000000 in
theorem V_main_v67 (c : Dev nD) : (V m c main_v67 : S200x64.Idx → EReal) = catW (m ((c.tc : Thread nD τ).loc main_arg20)) (m ((c.tc : Thread nD τ).loc main_arg22)) := by
  dsimp only [V, hostOps0]
  after_results_simp <;> rfl

set_option maxHeartbeats 4000000 in
theorem V_main_v69 (c : Dev nD) : (V m c main_v69 : S1x64.Idx → EReal) = catB (m ((c.tc : Thread nD τ).loc main_arg21)) (m ((c.tc : Thread nD τ).loc main_arg23)) := by
  dsimp only [V, hostOps0]
  after_results_simp <;> rfl

end Cert.Rssm.Prep

end
-- ==== Proof.KernelBlocks.lean ====
/-
  The grid's blocks. The grid has 32 points; point t works on rows 1024·t … 1024·t + 1023 of the four batch arrays and
  of the six result arrays, and on the whole of each of the seventeen prepared weight arrays. By the
  index maps as printed (the same map for every batch and result window, the constant (0, 0) for every weight window): every
  batch and result window sits at block row t and block column 0, every weight window at block (0, 0); that block row t is
  below 32 and that every block row is some point's is decided over the 32 points.
  So a batch block's row p is the argument's row 1024·t + p, a weight block is its whole array, a result block's entry
  (p, q) sits at (1024·t + p, q), and the 32 result blocks cover their arrays.
-/
import proofs.«108998_j15006615733147_2_alg».proof.Proof.KernelIdealFrameP
import proofs.«108998_j15006615733147_2_alg».proof.Proof.Spec
import Idealize.ShloMosaic.Lib.Pipeline.Value

set_option maxRecDepth 16384

noncomputable section

namespace Cert.Rssm.Kernel

open Idealize.ShloMosaic Idealize.ShloMosaic.TcCoe Idealize.SL.Sem Idealize.ShloMosaic.ValueIdx
open Cert.Rssm Cert.KernelIdeal Cert.KernelIdeal.Gen Cert.KernelIdeal.GenP
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 32 grid points -/

/-- The result windows all sit at block row t, block column 0; block row t is below 32. -/
theorem blkAt21 : ∀ t : Fin cfg0.N, win0_21.index t (1 : Fin 2) = 0 ∧ win0_21.index t (0 : Fin 2) ≤ 31 := (by decide +kernel : ∀ t : Fin grid0.N, _)
/-- Every block row is some point's. -/
theorem onto21 : ∀ q0 : Fin 32, ∃ t : Fin cfg0.N, win0_21.index t = ![q0.val, 0] :=
  (by decide +kernel : ∀ q0 : Fin 32, ∃ t : Fin grid0.N, win0_21.index t = ![q0.val, 0])
theorem blkAt0 : ∀ t : Fin cfg0.N, win0_0.index t (0 : Fin 2) = win0_21.index t (0 : Fin 2) ∧ win0_0.index t (1 : Fin 2) = 0 := fun _ => ⟨rfl, rfl⟩
theorem blkAt1 : ∀ t : Fin cfg0.N, win0_1.index t (0 : Fin 2) = win0_21.index t (0 : Fin 2) ∧ win0_1.index t (1 : Fin 2) = 0 := fun _ => ⟨rfl, rfl⟩
theorem blkAt2 : ∀ t : Fin cfg0.N, win0_2.index t (0 : Fin 2) = win0_21.index t (0 : Fin 2) ∧ win0_2.index t (1 : Fin 2) = 0 := fun _ => ⟨rfl, rfl⟩
theorem blkAt3 : ∀ t : Fin cfg0.N, win0_3.index t (0 : Fin 2) = win0_21.index t (0 : Fin 2) ∧ win0_3.index t (1 : Fin 2) = 0 := fun _ => ⟨rfl, rfl⟩
theorem blkAt22 : ∀ t : Fin cfg0.N, win0_22.index t (0 : Fin 2) = win0_21.index t (0 : Fin 2) ∧ win0_22.index t (1 : Fin 2) = 0 := fun _ => ⟨rfl, rfl⟩
theorem blkAt23 : ∀ t : Fin cfg0.N, win0_23.index t (0 : Fin 2) = win0_21.index t (0 : Fin 2) ∧ win0_23.index t (1 : Fin 2) = 0 := fun _ => ⟨rfl, rfl⟩
theorem blkAt24 : ∀ t : Fin cfg0.N, win0_24.index t (0 : Fin 2) = win0_21.index t (0 : Fin 2) ∧ win0_24.index t (1 : Fin 2) = 0 := fun _ => ⟨rfl, rfl⟩
theorem blkAt25 : ∀ t : Fin cfg0.N, win0_25.index t (0 : Fin 2) = win0_21.index t (0 : Fin 2) ∧ win0_25.index t (1 : Fin 2) = 0 := fun _ => ⟨rfl, rfl⟩
theorem blkAt26 : ∀ t : Fin cfg0.N, win0_26.index t (0 : Fin 2) = win0_21.index t (0 : Fin 2) ∧ win0_26.index t (1 : Fin 2) = 0 := fun _ => ⟨rfl, rfl⟩
theorem blkAt4 : ∀ t : Fin cfg0.N, win0_4.index t (0 : Fin 2) = 0 ∧ win0_4.index t (1 : Fin 2) = 0 := fun _ => ⟨rfl, rfl⟩
theorem blkAt5 : ∀ t : Fin cfg0.N, win0_5.index t (0 : Fin 2) = 0 ∧ win0_5.index t (1 : Fin 2) = 0 := fun _ => ⟨rfl, rfl⟩
theorem blkAt6 : ∀ t : Fin cfg0.N, win0_6.index t (0 : Fin 2) = 0 ∧ win0_6.index t (1 : Fin 2) = 0 := fun _ => ⟨rfl, rfl⟩
theorem blkAt7 : ∀ t : Fin cfg0.N, win0_7.index t (0 : Fin 2) = 0 ∧ win0_7.index t (1 : Fin 2) = 0 := fun _ => ⟨rfl, rfl⟩
theorem blkAt8 : ∀ t : Fin cfg0.N, win0_8.index t (0 : Fin 2) = 0 ∧ win0_8.index t (1 : Fin 2) = 0 := fun _ => ⟨rfl, rfl⟩
theorem blkAt9 : ∀ t : Fin cfg0.N, win0_9.index t (0 : Fin 2) = 0 ∧ win0_9.index t (1 : Fin 2) = 0 := fun _ => ⟨rfl, rfl⟩
theorem blkAt10 : ∀ t : Fin cfg0.N, win0_10.index t (0 : Fin 2) = 0 ∧ win0_10.index t (1 : Fin 2) = 0 := fun _ => ⟨rfl, rfl⟩
theorem blkAt11 : ∀ t : Fin cfg0.N, win0_11.index t (0 : Fin 2) = 0 ∧ win0_11.index t (1 : Fin 2) = 0 := fun _ => ⟨rfl, rfl⟩
theorem blkAt12 : ∀ t : Fin cfg0.N, win0_12.index t (0 : Fin 2) = 0 ∧ win0_12.index t (1 : Fin 2) = 0 := fun _ => ⟨rfl, rfl⟩
theorem blkAt13 : ∀ t : Fin cfg0.N, win0_13.index t (0 : Fin 2) = 0 ∧ win0_13.index t (1 : Fin 2) = 0 := fun _ => ⟨rfl, rfl⟩
theorem blkAt14 : ∀ t : Fin cfg0.N, win0_14.index t (0 : Fin 2) = 0 ∧ win0_14.index t (1 : Fin 2) = 0 := fun _ => ⟨rfl, rfl⟩
theorem blkAt15 : ∀ t : Fin cfg0.N, win0_15.index t (0 : Fin 2) = 0 ∧ win0_15.index t (1 : Fin 2) = 0 := fun _ => ⟨rfl, rfl⟩
theorem blkAt16 : ∀ t : Fin cfg0.N, win0_16.index t (0 : Fin 2) = 0 ∧ win0_16.index t (1 : Fin 2) = 0 := fun _ => ⟨rfl, rfl⟩
theorem blkAt17 : ∀ t : Fin cfg0.N, win0_17.index t (0 : Fin 2) = 0 ∧ win0_17.index t (1 : Fin 2) = 0 := fun _ => ⟨rfl, rfl⟩
theorem blkAt18 : ∀ t : Fin cfg0.N, win0_18.index t (0 : Fin 2) = 0 ∧ win0_18.index t (1 : Fin 2) = 0 := fun _ => ⟨rfl, rfl⟩
theorem blkAt19 : ∀ t : Fin cfg0.N, win0_19.index t (0 : Fin 2) = 0 ∧ win0_19.index t (1 : Fin 2) = 0 := fun _ => ⟨rfl, rfl⟩
theorem blkAt20 : ∀ t : Fin cfg0.N, win0_20.index t (0 : Fin 2) = 0 ∧ win0_20.index t (1 : Fin 2) = 0 := fun _ => ⟨rfl, rfl⟩

/-- The row of the whole arrays that row p of point t's tiles is. -/
def rowIx (t : Fin cfg0.N) (p : Fin 1024) : Fin 32768 :=
  ⟨win0_21.index t (0 : Fin 2) * 1024 + p.val, by have := (blkAt21 t).2; have := p.isLt; omega⟩

/-! ## The blocks of the batch arrays are rows of the arguments

Stated first for ANY contents X of the array, so that nothing about how the region finds the array is opened. -/

theorem rd0 (c : Dev nD) (t : Fin cfg0.N) (X : Buf (Elt Ideal) ((c.tc : Thread nD τ).loc main_arg0)) (p : Fin 1024) (k : Fin 6) :
    ((cfg0.win 0).blk t).view.read (Elt Ideal) X (ix2 p k) = (X : S32768x6.Idx → EReal) (ix2 (rowIx t p) k) := by
  obtain ⟨e0, e1⟩ := blkAt0 t
  show (X : S32768x6.Idx → EReal) (((cfg0.win 0).blk t).view.emb (ix2 p k)) = (X : S32768x6.Idx → EReal) (ix2 (rowIx t p) k)
  refine congrArg _ (funext fun a => Fin.ext ?_)
  match a with
  | ⟨0, _⟩ => show win0_0.index t (0 : Fin 2) * 1024 + 1 * p.val = win0_21.index t (0 : Fin 2) * 1024 + p.val; omega
  | ⟨1, _⟩ => show win0_0.index t (1 : Fin 2) * 6 + 1 * k.val = k.val; omega

theorem in0 (c : Dev nD) (t : Fin cfg0.N) (p : Fin 1024) (k : Fin 6) :
    (iblk m c 0 t : S1024x6.Idx → EReal) (ix2 p k) = (m ((c.tc : Thread nD τ).loc main_arg0) : S32768x6.Idx → EReal) (ix2 (rowIx t p) k) :=
  (rd0 c t (V m c main_arg0) p k).trans (congrFun (V_main_arg0 m c) _)

theorem rd1 (c : Dev nD) (t : Fin cfg0.N) (X : Buf (Elt Ideal) ((c.tc : Thread nD τ).loc main_arg1)) (p : Fin 1024) (k : Fin 1024) :
    ((cfg0.win 1).blk t).view.read (Elt Ideal) X (ix2 p k) = (X : S32768x1024.Idx → EReal) (ix2 (rowIx t p) k) := by
  obtain ⟨e0, e1⟩ := blkAt1 t
  show (X : S32768x1024.Idx → EReal) (((cfg0.win 1).blk t).view.emb (ix2 p k)) = (X : S32768x1024.Idx → EReal) (ix2 (rowIx t p) k)
  refine congrArg _ (funext fun a => Fin.ext ?_)
  match a with
  | ⟨0, _⟩ => show win0_1.index t (0 : Fin 2) * 1024 + 1 * p.val = win0_21.index t (0 : Fin 2) * 1024 + p.val; omega
  | ⟨1, _⟩ => show win0_1.index t (1 : Fin 2) * 1024 + 1 * k.val = k.val; omega

theorem in1 (c : Dev nD) (t : Fin cfg0.N) (p : Fin 1024) (k : Fin 1024) :
    (iblk m c 1 t : S1024x1024.Idx → EReal) (ix2 p k) = (m ((c.tc : Thread nD τ).loc main_arg1) : S32768x1024.Idx → EReal) (ix2 (rowIx t p) k) :=
  (rd1 c t (V m c main_arg1) p k).trans (congrFun (V_main_arg1 m c) _)

theorem rd2 (c : Dev nD) (t : Fin cfg0.N) (X : Buf (Elt Ideal) ((c.tc : Thread nD τ).loc main_arg2)) (p : Fin 1024) (k : Fin 200) :
    ((cfg0.win 2).blk t).view.read (Elt Ideal) X (ix2 p k) = (X : S32768x200.Idx → EReal) (ix2 (rowIx t p) k) := by
  obtain ⟨e0, e1⟩ := blkAt2 t
  show (X : S32768x200.Idx → EReal) (((cfg0.win 2).blk t).view.emb (ix2 p k)) = (X : S32768x200.Idx → EReal) (ix2 (rowIx t p) k)
  refine congrArg _ (funext fun a => Fin.ext ?_)
  match a with
  | ⟨0, _⟩ => show win0_2.index t (0 : Fin 2) * 1024 + 1 * p.val = win0_21.index t (0 : Fin 2) * 1024 + p.val; omega
  | ⟨1, _⟩ => show win0_2.index t (1 : Fin 2) * 200 + 1 * k.val = k.val; omega

theorem in2 (c : Dev nD) (t : Fin cfg0.N) (p : Fin 1024) (k : Fin 200) :
    (iblk m c 2 t : S1024x200.Idx → EReal) (ix2 p k) = (m ((c.tc : Thread nD τ).loc main_arg2) : S32768x200.Idx → EReal) (ix2 (rowIx t p) k) :=
  (rd2 c t (V m c main_arg2) p k).trans (congrFun (V_main_arg2 m c) _)

theorem rd3 (c : Dev nD) (t : Fin cfg0.N) (X : Buf (Elt Ideal) ((c.tc : Thread nD τ).loc main_arg3)) (p : Fin 1024) (k : Fin 32) :
    ((cfg0.win 3).blk t).view.read (Elt Ideal) X (ix2 p k) = (X : S32768x32.Idx → EReal) (ix2 (rowIx t p) k) := by
  obtain ⟨e0, e1⟩ := blkAt3 t
  show (X : S32768x32.Idx → EReal) (((cfg0.win 3).blk t).view.emb (ix2 p k)) = (X : S32768x32.Idx → EReal) (ix2 (rowIx t p) k)
  refine congrArg _ (funext fun a => Fin.ext ?_)
  match a with
  | ⟨0, _⟩ => show win0_3.index t (0 : Fin 2) * 1024 + 1 * p.val = win0_21.index t (0 : Fin 2) * 1024 + p.val; omega
  | ⟨1, _⟩ => show win0_3.index t (1 : Fin 2) * 32 + 1 * k.val = k.val; omega

theorem in3 (c : Dev nD) (t : Fin cfg0.N) (p : Fin 1024) (k : Fin 32) :
    (iblk m c 3 t : S1024x32.Idx → EReal) (ix2 p k) = (m ((c.tc : Thread nD τ).loc main_arg3) : S32768x32.Idx → EReal) (ix2 (rowIx t p) k) :=
  (rd3 c t (V m c main_arg3) p k).trans (congrFun (V_main_arg3 m c) _)

/-! ## The weight blocks are the whole prepared arrays -/

theorem rw4 (c : Dev nD) (t : Fin cfg0.N) (X : Buf (Elt Ideal) ((c.tc : Thread nD τ).loc main_v11)) :
    ((cfg0.win 4).blk t).view.read (Elt Ideal) X = (X : S200x768.Idx → EReal) := by
  obtain ⟨e0, e1⟩ := blkAt4 t
  funext y
  show (X : S200x768.Idx → EReal) (((cfg0.win 4).blk t).view.emb y) = (X : S200x768.Idx → EReal) y
  refine congrArg _ (funext fun a => Fin.ext ?_)
  match a with
  | ⟨0, _⟩ => show win0_4.index t (0 : Fin 2) * 200 + 1 * (y 0).val = (y 0).val; omega
  | ⟨1, _⟩ => show win0_4.index t (1 : Fin 2) * 768 + 1 * (y 1).val = (y 1).val; omega

theorem wb4 (c : Dev nD) (t : Fin cfg0.N) : (iblk m c 4 t : S200x768.Idx → EReal) = (V m c main_v11 : S200x768.Idx → EReal) :=
  rw4 c t (V m c main_v11)

theorem rw5 (c : Dev nD) (t : Fin cfg0.N) (X : Buf (Elt Ideal) ((c.tc : Thread nD τ).loc main_v34)) :
    ((cfg0.win 5).blk t).view.read (Elt Ideal) X = (X : S1x768.Idx → EReal) := by
  obtain ⟨e0, e1⟩ := blkAt5 t
  funext y
  show (X : S1x768.Idx → EReal) (((cfg0.win 5).blk t).view.emb y) = (X : S1x768.Idx → EReal) y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 768 + 1 * (y 1).val = (y 1).val; omega

theorem wb5 (c : Dev nD) (t : Fin cfg0.N) : (iblk m c 5 t : S1x768.Idx → EReal) = (V m c main_v34 : S1x768.Idx → EReal) :=
  rw5 c t (V m c main_v34)

theorem rw6 (c : Dev nD) (t : Fin cfg0.N) (X : Buf (Elt Ideal) ((c.tc : Thread nD τ).loc main_v23)) :
    ((cfg0.win 6).blk t).view.read (Elt Ideal) X = (X : S200x768.Idx → EReal) := by
  obtain ⟨e0, e1⟩ := blkAt6 t
  funext y
  show (X : S200x768.Idx → EReal) (((cfg0.win 6).blk t).view.emb y) = (X : S200x768.Idx → EReal) y
  refine congrArg _ (funext fun a => Fin.ext ?_)
  match a with
  | ⟨0, _⟩ => show win0_6.index t (0 : Fin 2) * 200 + 1 * (y 0).val = (y 0).val; omega
  | ⟨1, _⟩ => show win0_6.index t (1 : Fin 2) * 768 + 1 * (y 1).val = (y 1).val; omega

theorem wb6 (c : Dev nD) (t : Fin cfg0.N) : (iblk m c 6 t : S200x768.Idx → EReal) = (V m c main_v23 : S200x768.Idx → EReal) :=
  rw6 c t (V m c main_v23)

theorem rw7 (c : Dev nD) (t : Fin cfg0.N) (X : Buf (Elt Ideal) ((c.tc : Thread nD τ).loc main_v45)) :
    ((cfg0.win 7).blk t).view.read (Elt Ideal) X = (X : S1x768.Idx → EReal) := by
  obtain ⟨e0, e1⟩ := blkAt7 t
  funext y
  show (X : S1x768.Idx → EReal) (((cfg0.win 7).blk t).view.emb y) = (X : S1x768.Idx → EReal) y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 768 + 1 * (y 1).val = (y 1).val; omega

theorem wb7 (c : Dev nD) (t : Fin cfg0.N) : (iblk m c 7 t : S1x768.Idx → EReal) = (V m c main_v45 : S1x768.Idx → EReal) :=
  rw7 c t (V m c main_v45)

theorem rw8 (c : Dev nD) (t : Fin cfg0.N) (X : Buf (Elt Ideal) ((c.tc : Thread nD τ).loc main_v47)) :
    ((cfg0.win 8).blk t).view.read (Elt Ideal) X = (X : S6x200.Idx → EReal) := by
  obtain ⟨e0, e1⟩ := blkAt8 t
  funext y
  show (X : S6x200.Idx → EReal) (((cfg0.win 8).blk t).view.emb y) = (X : S6x200.Idx → EReal) y
  refine congrArg _ (funext fun a => Fin.ext ?_)
  match a with
  | ⟨0, _⟩ => show win0_8.index t (0 : Fin 2) * 6 + 1 * (y 0).val = (y 0).val; omega
  | ⟨1, _⟩ => show win0_8.index t (1 : Fin 2) * 200 + 1 * (y 1).val = (y 1).val; omega

theorem wb8 (c : Dev nD) (t : Fin cfg0.N) : (iblk m c 8 t : S6x200.Idx → EReal) = (V m c main_v47 : S6x200.Idx → EReal) :=
  rw8 c t (V m c main_v47)

theorem rw9 (c : Dev nD) (t : Fin cfg0.N) (X : Buf (Elt Ideal) ((c.tc : Thread nD τ).loc main_v70)) :
    ((cfg0.win 9).blk t).view.read (Elt Ideal) X = (X : S1x200.Idx → EReal) := by
  obtain ⟨e0, e1⟩ := blkAt9 t
  funext y
  show (X : S1x200.Idx → EReal) (((cfg0.win 9).blk t).view.emb y) = (X : S1x200.Idx → EReal) y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 200 + 1 * (y 1).val = (y 1).val; omega

theorem wb9 (c : Dev nD) (t : Fin cfg0.N) : (iblk m c 9 t : S1x200.Idx → EReal) = (V m c main_v70 : S1x200.Idx → EReal) :=
  rw9 c t (V m c main_v70)

theorem rw10 (c : Dev nD) (t : Fin cfg0.N) (X : Buf (Elt Ideal) ((c.tc : Thread nD τ).loc main_v49)) :
    ((cfg0.win 10).blk t).view.read (Elt Ideal) X = (X : S1024x200.Idx → EReal) := by
  obtain ⟨e0, e1⟩ := blkAt10 t
  funext y
  show (X : S1024x200.Idx → EReal) (((cfg0.win 10).blk t).view.emb y) = (X : S1024x200.Idx → EReal) y
  refine congrArg _ (funext fun a => Fin.ext ?_)
  match a with
  | ⟨0, _⟩ => show win0_10.index t (0 : Fin 2) * 1024 + 1 * (y 0).val = (y 0).val; omega
  | ⟨1, _⟩ => show win0_10.index t (1 : Fin 2) * 200 + 1 * (y 1).val = (y 1).val; omega

theorem wb10 (c : Dev nD) (t : Fin cfg0.N) : (iblk m c 10 t : S1024x200.Idx → EReal) = (V m c main_v49 : S1024x200.Idx → EReal) :=
  rw10 c t (V m c main_v49)

theorem rw11 (c : Dev nD) (t : Fin cfg0.N) (X : Buf (Elt Ideal) ((c.tc : Thread nD τ).loc main_v71)) :
    ((cfg0.win 11).blk t).view.read (Elt Ideal) X = (X : S1x200.Idx → EReal) := by
  obtain ⟨e0, e1⟩ := blkAt11 t
  funext y
  show (X : S1x200.Idx → EReal) (((cfg0.win 11).blk t).view.emb y) = (X : S1x200.Idx → EReal) y
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 200 + 1 * (y 1).val = (y 1).val; omega

theorem wb11 (c : Dev nD) (t : Fin cfg0.N) : (iblk m c 11 t : S1x200.Idx → EReal) = (V m c main_v71 : S1x200.Idx → EReal) :=
  rw11 c t (V m c main_v71)

theorem rw12 (c : Dev nD) (t : Fin cfg0.N) (X : Buf (Elt Ideal) ((c.tc : Thread nD τ).loc main_v51)) :
    ((cfg0.win 12).blk t).view.read (Elt Ideal) X = (X : S200x200.Idx → EReal) := by
  obtain ⟨e0, e1⟩ := blkAt12 t
  funext y
  show (X : S200x200.Idx → EReal) (((cfg0.win 12).blk t).view.emb y) = (X : S200x200.Idx → EReal) y
  refine congrArg _ (funext fun a => Fin.ext ?_)
  match a with
  | ⟨0, _⟩ => show win0_12.index t (0 : Fin 2) * 200 + 1 * (y 0).val = (y 0).val; omega
  | ⟨1, _⟩ => show win0_12.index t (1 : Fin 2) * 200 + 1 * (y 1).val = (y 1).val; omega

theorem wb12 (c : Dev nD) (t : Fin cfg0.N) : (iblk m c 12 t : S200x200.Idx → EReal) = (V m c main_v51 : S200x200.Idx → EReal) :=
  rw12 c t (V m c main_v51)

theorem rw13 (c : Dev nD) (t : Fin cfg0.N) (X : Buf (Elt Ideal) ((c.tc : Thread nD τ).loc main_v72)) :
    ((cfg0.win 13).blk t).view.read (Elt Ideal) X = (X : S1x200.Idx → EReal) := by
  obtain ⟨e0, e1⟩ := blkAt13 t
  funext y
  show (X : S1x200.Idx → EReal) (((cfg0.win 13).blk t).view.emb y) = (X : S1x200.Idx → EReal) y
  refine congrArg _ (funext fun a => Fin.ext ?_)
  match a with
  | ⟨0, _⟩ => show win0_13.index t (0 : Fin 2) * 1 + 1 * (y 0).val = (y 0).val; omega
  | ⟨1, _⟩ => show win0_13.index t (1 : Fin 2) * 200 + 1 * (y 1).val = (y 1).val; omega

theorem wb13 (c : Dev nD) (t : Fin cfg0.N) : (iblk m c 13 t : S1x200.Idx → EReal) = (V m c main_v72 : S1x200.Idx → EReal) :=
  rw13 c t (V m c main_v72)

theorem rw14 (c : Dev nD) (t : Fin cfg0.N) (X : Buf (Elt Ideal) ((c.tc : Thread nD τ).loc main_v55)) :
    ((cfg0.win 14).blk t).view.read (Elt Ideal) X = (X : S200x64.Idx → EReal) := by
  obtain ⟨e0, e1⟩ := blkAt14 t
  funext y
  show (X : S200x64.Idx → EReal) (((cfg0.win 14).blk t).view.emb y) = (X : S200x64.Idx → EReal) y
  refine congrArg _ (funext fun a => Fin.ext ?_)
  match a with
  | ⟨0, _⟩ => show win0_14.index t (0 : Fin 2) * 200 + 1 * (y 0).val = (y 0).val; omega
  | ⟨1, _⟩ => show win0_14.index t (1 : Fin 2) * 64 + 1 * (y 1).val = (y 1).val; omega

theorem wb14 (c : Dev nD) (t : Fin cfg0.N) : (iblk m c 14 t : S200x64.Idx → EReal) = (V m c main_v55 : S200x64.Idx → EReal) :=
  rw14 c t (V m c main_v55)

theorem rw15 (c : Dev nD) (t : Fin cfg0.N) (X : Buf (Elt Ideal) ((c.tc : Thread nD τ).loc main_v57)) :
    ((cfg0.win 15).blk t).view.read (Elt Ideal) X = (X : S1x64.Idx → EReal) := by
  obtain ⟨e0, e1⟩ := blkAt15 t
  funext y
  show (X : S1x64.Idx → EReal) (((cfg0.win 15).blk t).view.emb y) = (X : S1x64.Idx → EReal) y
  refine congrArg _ (funext fun a => Fin.ext ?_)
  match a with
  | ⟨0, _⟩ => show win0_15.index t (0 : Fin 2) * 1 + 1 * (y 0).val = (y 0).val; omega
  | ⟨1, _⟩ => show win0_15.index t (1 : Fin 2) * 64 + 1 * (y 1).val = (y 1).val; omega

theorem wb15 (c : Dev nD) (t : Fin cfg0.N) : (iblk m c 15 t : S1x64.Idx → EReal) = (V m c main_v57 : S1x64.Idx → EReal) :=
  rw15 c t (V m c main_v57)

theorem rw16 (c : Dev nD) (t : Fin cfg0.N) (X : Buf (Elt Ideal) ((c.tc : Thread nD τ).loc main_v60)) :
    ((cfg0.win 16).blk t).view.read (Elt Ideal) X = (X : S200x200.Idx → EReal) := by
  obtain ⟨e0, e1⟩ := blkAt16 t
  funext y
  show (X : S200x200.Idx → EReal) (((cfg0.win 16).blk t).view.emb y) = (X : S200x200.Idx → EReal) y
  refine congrArg _ (funext fun a => Fin.ext ?_)
  match a with
  | ⟨0, _⟩ => show win0_16.index t (0 : Fin 2) * 200 + 1 * (y 0).val = (y 0).val; omega
  | ⟨1, _⟩ => show win0_16.index t (1 : Fin 2) * 200 + 1 * (y 1).val = (y 1).val; omega

theorem wb16 (c : Dev nD) (t : Fin cfg0.N) : (iblk m c 16 t : S200x200.Idx → EReal) = (V m c main_v60 : S200x200.Idx → EReal) :=
  rw16 c t (V m c main_v60)

theorem rw17 (c : Dev nD) (t : Fin cfg0.N) (X : Buf (Elt Ideal) ((c.tc : Thread nD τ).loc main_v63)) :
    ((cfg0.win 17).blk t).view.read (Elt Ideal) X = (X : S1024x200.Idx → EReal) := by
  obtain ⟨e0, e1⟩ := blkAt17 t
  funext y
  show (X : S1024x200.Idx → EReal) (((cfg0.win 17).blk t).view.emb y) = (X : S1024x200.Idx → EReal) y
  refine congrArg _ (funext fun a => Fin.ext ?_)
  match a with
  | ⟨0, _⟩ => show win0_17.index t (0 : Fin 2) * 1024 + 1 * (y 0).val = (y 0).val; omega
  | ⟨1, _⟩ => show win0_17.index t (1 : Fin 2) * 200 + 1 * (y 1).val = (y 1).val; omega

theorem wb17 (c : Dev nD) (t : Fin cfg0.N) : (iblk m c 17 t : S1024x200.Idx → EReal) = (V m c main_v63 : S1024x200.Idx → EReal) :=
  rw17 c t (V m c main_v63)

theorem rw18 (c : Dev nD) (t : Fin cfg0.N) (X : Buf (Elt Ideal) ((c.tc : Thread nD τ).loc main_v73)) :
    ((cfg0.win 18).blk t).view.read (Elt Ideal) X = (X : S1x200.Idx → EReal) := by
  obtain ⟨e0, e1⟩ := blkAt18 t
  funext y
  show (X : S1x200.Idx → EReal) (((cfg0.win 18).blk t).view.emb y) = (X : S1x200.Idx → EReal) y
  refine congrArg _ (funext fun a => Fin.ext ?_)
  match a with
  | ⟨0, _⟩ => show win0_18.index t (0 : Fin 2) * 1 + 1 * (y 0).val = (y 0).val; omega
  | ⟨1, _⟩ => show win0_18.index t (1 : Fin 2) * 200 + 1 * (y 1).val = (y 1).val; omega

theorem wb18 (c : Dev nD) (t : Fin cfg0.N) : (iblk m c 18 t : S1x200.Idx → EReal) = (V m c main_v73 : S1x200.Idx → EReal) :=
  rw18 c t (V m c main_v73)

theorem rw19 (c : Dev nD) (t : Fin cfg0.N) (X : Buf (Elt Ideal) ((c.tc : Thread nD τ).loc main_v67)) :
    ((cfg0.win 19).blk t).view.read (Elt Ideal) X = (X : S200x64.Idx → EReal) := by
  obtain ⟨e0, e1⟩ := blkAt19 t
  funext y
  show (X : S200x64.Idx → EReal) (((cfg0.win 19).blk t).view.emb y) = (X : S200x64.Idx → EReal) y
  refine congrArg _ (funext fun a => Fin.ext ?_)
  match a with
  | ⟨0, _⟩ => show win0_19.index t (0 : Fin 2) * 200 + 1 * (y 0).val = (y 0).val; omega
  | ⟨1, _⟩ => show win0_19.index t (1 : Fin 2) * 64 + 1 * (y 1).val = (y 1).val; omega

theorem wb19 (c : Dev nD) (t : Fin cfg0.N) : (iblk m c 19 t : S200x64.Idx → EReal) = (V m c main_v67 : S200x64.Idx → EReal) :=
  rw19 c t (V m c main_v67)

theorem rw20 (c : Dev nD) (t : Fin cfg0.N) (X : Buf (Elt Ideal) ((c.tc : Thread nD τ).loc main_v69)) :
    ((cfg0.win 20).blk t).view.read (Elt Ideal) X = (X : S1x64.Idx → EReal) := by
  obtain ⟨e0, e1⟩ := blkAt20 t
  funext y
  show (X : S1x64.Idx → EReal) (((cfg0.win 20).blk t).view.emb y) = (X : S1x64.Idx → EReal) y
  refine congrArg _ (funext fun a => Fin.ext ?_)
  match a with
  | ⟨0, _⟩ => show win0_20.index t (0 : Fin 2) * 1 + 1 * (y 0).val = (y 0).val; omega
  | ⟨1, _⟩ => show win0_20.index t (1 : Fin 2) * 64 + 1 * (y 1).val = (y 1).val; omega

theorem wb20 (c : Dev nD) (t : Fin cfg0.N) : (iblk m c 20 t : S1x64.Idx → EReal) = (V m c main_v69 : S1x64.Idx → EReal) :=
  rw20 c t (V m c main_v69)

/-! ## The result windows' blocks sit at rows rowIx t p -/

theorem out21 (t : Fin cfg0.N) (p : Fin 1024) (q : Fin 200) :
    (((cfg0.win 21).blk t).view.emb (ix2 p q : S1024x200.Idx) : S32768x200.Idx) = ix2 (rowIx t p) q := by
  obtain ⟨e0, e1⟩ := (⟨rfl, (blkAt21 t).1⟩ : win0_21.index t (0 : Fin 2) = win0_21.index t (0 : Fin 2) ∧ win0_21.index t (1 : Fin 2) = 0)
  funext a
  refine Fin.ext ?_
  match a with
  | ⟨0, _⟩ => show win0_21.index t (0 : Fin 2) * 1024 + 1 * p.val = win0_21.index t (0 : Fin 2) * 1024 + p.val; omega
  | ⟨1, _⟩ => show win0_21.index t (1 : Fin 2) * 200 + 1 * q.val = q.val; omega

theorem mem_blk21 (t : Fin cfg0.N) (i : S32768x200.Idx) :
    i ∈ ((cfg0.win 21).blk t).view.set ↔ ∀ a : Fin 2, win0_21.index t a * S1024x200.size a ≤ (i a).val ∧ (i a).val < win0_21.index t a * S1024x200.size a + S1024x200.size a := by
  show i ∈ ((View.whole main_v74_0).slice (win0_21.rect t)).set ↔ _
  rw [View.set_slice_whole, Rect.mem_set_unit]
  exact Iff.rfl

/-- The 32 blocks of result window 21 cover its array: row r is in the block of the point at block row r / 1024. -/
theorem cover21 (i : S32768x200.Idx) : ∃ t : Fin cfg0.N, (cfg0.win 21).flush t = true ∧ i ∈ ((cfg0.win 21).blk t).view.set := by
  have hi0 : (i 0).val < 32768 := (i 0).isLt
  have hi1 : (i 1).val < 200 := (i 1).isLt
  obtain ⟨t, ht⟩ := onto21 ⟨(i 0).val / 1024, by omega⟩
  have q0 : win0_21.index t (0 : Fin 2) = (i 0).val / 1024 := congrFun ht 0
  have q1 : win0_21.index t (1 : Fin 2) = 0 := congrFun ht 1

  refine ⟨t, flush0_21 t, ?_⟩
  rw [mem_blk21]
  intro a
  match a with
  | ⟨0, _⟩ => show win0_21.index t (0 : Fin 2) * 1024 ≤ (i 0).val ∧ (i 0).val < win0_21.index t (0 : Fin 2) * 1024 + 1024; omega
  | ⟨1, _⟩ => show win0_21.index t (1 : Fin 2) * 200 ≤ (i 1).val ∧ (i 1).val < win0_21.index t (1 : Fin 2) * 200 + 200; omega

theorem out22 (t : Fin cfg0.N) (p : Fin 1024) (q : Fin 32) :
    (((cfg0.win 22).blk t).view.emb (ix2 p q : S1024x32.Idx) : S32768x32.Idx) = ix2 (rowIx t p) q := by
  obtain ⟨e0, e1⟩ := blkAt22 t
  funext a
  refine Fin.ext ?_
  match a with
  | ⟨0, _⟩ => show win0_22.index t (0 : Fin 2) * 1024 + 1 * p.val = win0_21.index t (0 : Fin 2) * 1024 + p.val; omega
  | ⟨1, _⟩ => show win0_22.index t (1 : Fin 2) * 32 + 1 * q.val = q.val; omega

theorem mem_blk22 (t : Fin cfg0.N) (i : S32768x32.Idx) :
    i ∈ ((cfg0.win 22).blk t).view.set ↔ ∀ a : Fin 2, win0_22.index t a * S1024x32.size a ≤ (i a).val ∧ (i a).val < win0_22.index t a * S1024x32.size a + S1024x32.size a := by
  show i ∈ ((View.whole main_v74_1).slice (win0_22.rect t)).set ↔ _
  rw [View.set_slice_whole, Rect.mem_set_unit]
  exact Iff.rfl

/-- The 32 blocks of result window 22 cover its array: row r is in the block of the point at block row r / 1024. -/
theorem cover22 (i : S32768x32.Idx) : ∃ t : Fin cfg0.N, (cfg0.win 22).flush t = true ∧ i ∈ ((cfg0.win 22).blk t).view.set := by
  have hi0 : (i 0).val < 32768 := (i 0).isLt
  have hi1 : (i 1).val < 32 := (i 1).isLt
  obtain ⟨t, ht⟩ := onto21 ⟨(i 0).val / 1024, by omega⟩
  have q0 : win0_21.index t (0 : Fin 2) = (i 0).val / 1024 := congrFun ht 0
  have q1 : win0_21.index t (1 : Fin 2) = 0 := congrFun ht 1
  obtain ⟨e0, e1⟩ := blkAt22 t
  refine ⟨t, flush0_22 t, ?_⟩
  rw [mem_blk22]
  intro a
  match a with
  | ⟨0, _⟩ => show win0_22.index t (0 : Fin 2) * 1024 ≤ (i 0).val ∧ (i 0).val < win0_22.index t (0 : Fin 2) * 1024 + 1024; omega
  | ⟨1, _⟩ => show win0_22.index t (1 : Fin 2) * 32 ≤ (i 1).val ∧ (i 1).val < win0_22.index t (1 : Fin 2) * 32 + 32; omega

theorem out23 (t : Fin cfg0.N) (p : Fin 1024) (q : Fin 32) :
    (((cfg0.win 23).blk t).view.emb (ix2 p q : S1024x32.Idx) : S32768x32.Idx) = ix2 (rowIx t p) q := by
  obtain ⟨e0, e1⟩ := blkAt23 t
  funext a
  refine Fin.ext ?_
  match a with
  | ⟨0, _⟩ => show win0_23.index t (0 : Fin 2) * 1024 + 1 * p.val = win0_21.index t (0 : Fin 2) * 1024 + p.val; omega
  | ⟨1, _⟩ => show win0_23.index t (1 : Fin 2) * 32 + 1 * q.val = q.val; omega

theorem mem_blk23 (t : Fin cfg0.N) (i : S32768x32.Idx) :
    i ∈ ((cfg0.win 23).blk t).view.set ↔ ∀ a : Fin 2, win0_23.index t a * S1024x32.size a ≤ (i a).val ∧ (i a).val < win0_23.index t a * S1024x32.size a + S1024x32.size a := by
  show i ∈ ((View.whole main_v74_2).slice (win0_23.rect t)).set ↔ _
  rw [View.set_slice_whole, Rect.mem_set_unit]
  exact Iff.rfl

/-- The 32 blocks of result window 23 cover its array: row r is in the block of the point at block row r / 1024. -/
theorem cover23 (i : S32768x32.Idx) : ∃ t : Fin cfg0.N, (cfg0.win 23).flush t = true ∧ i ∈ ((cfg0.win 23).blk t).view.set := by
  have hi0 : (i 0).val < 32768 := (i 0).isLt
  have hi1 : (i 1).val < 32 := (i 1).isLt
  obtain ⟨t, ht⟩ := onto21 ⟨(i 0).val / 1024, by omega⟩
  have q0 : win0_21.index t (0 : Fin 2) = (i 0).val / 1024 := congrFun ht 0
  have q1 : win0_21.index t (1 : Fin 2) = 0 := congrFun ht 1
  obtain ⟨e0, e1⟩ := blkAt23 t
  refine ⟨t, flush0_23 t, ?_⟩
  rw [mem_blk23]
  intro a
  match a with
  | ⟨0, _⟩ => show win0_23.index t (0 : Fin 2) * 1024 ≤ (i 0).val ∧ (i 0).val < win0_23.index t (0 : Fin 2) * 1024 + 1024; omega
  | ⟨1, _⟩ => show win0_23.index t (1 : Fin 2) * 32 ≤ (i 1).val ∧ (i 1).val < win0_23.index t (1 : Fin 2) * 32 + 32; omega

theorem out24 (t : Fin cfg0.N) (p : Fin 1024) (q : Fin 32) :
    (((cfg0.win 24).blk t).view.emb (ix2 p q : S1024x32.Idx) : S32768x32.Idx) = ix2 (rowIx t p) q := by
  obtain ⟨e0, e1⟩ := blkAt24 t
  funext a
  refine Fin.ext ?_
  match a with
  | ⟨0, _⟩ => show win0_24.index t (0 : Fin 2) * 1024 + 1 * p.val = win0_21.index t (0 : Fin 2) * 1024 + p.val; omega
  | ⟨1, _⟩ => show win0_24.index t (1 : Fin 2) * 32 + 1 * q.val = q.val; omega

theorem mem_blk24 (t : Fin cfg0.N) (i : S32768x32.Idx) :
    i ∈ ((cfg0.win 24).blk t).view.set ↔ ∀ a : Fin 2, win0_24.index t a * S1024x32.size a ≤ (i a).val ∧ (i a).val < win0_24.index t a * S1024x32.size a + S1024x32.size a := by
  show i ∈ ((View.whole main_v74_3).slice (win0_24.rect t)).set ↔ _
  rw [View.set_slice_whole, Rect.mem_set_unit]
  exact Iff.rfl

/-- The 32 blocks of result window 24 cover its array: row r is in the block of the point at block row r / 1024. -/
theorem cover24 (i : S32768x32.Idx) : ∃ t : Fin cfg0.N, (cfg0.win 24).flush t = true ∧ i ∈ ((cfg0.win 24).blk t).view.set := by
  have hi0 : (i 0).val < 32768 := (i 0).isLt
  have hi1 : (i 1).val < 32 := (i 1).isLt
  obtain ⟨t, ht⟩ := onto21 ⟨(i 0).val / 1024, by omega⟩
  have q0 : win0_21.index t (0 : Fin 2) = (i 0).val / 1024 := congrFun ht 0
  have q1 : win0_21.index t (1 : Fin 2) = 0 := congrFun ht 1
  obtain ⟨e0, e1⟩ := blkAt24 t
  refine ⟨t, flush0_24 t, ?_⟩
  rw [mem_blk24]
  intro a
  match a with
  | ⟨0, _⟩ => show win0_24.index t (0 : Fin 2) * 1024 ≤ (i 0).val ∧ (i 0).val < win0_24.index t (0 : Fin 2) * 1024 + 1024; omega
  | ⟨1, _⟩ => show win0_24.index t (1 : Fin 2) * 32 ≤ (i 1).val ∧ (i 1).val < win0_24.index t (1 : Fin 2) * 32 + 32; omega

theorem out25 (t : Fin cfg0.N) (p : Fin 1024) (q : Fin 32) :
    (((cfg0.win 25).blk t).view.emb (ix2 p q : S1024x32.Idx) : S32768x32.Idx) = ix2 (rowIx t p) q := by
  obtain ⟨e0, e1⟩ := blkAt25 t
  funext a
  refine Fin.ext ?_
  match a with
  | ⟨0, _⟩ => show win0_25.index t (0 : Fin 2) * 1024 + 1 * p.val = win0_21.index t (0 : Fin 2) * 1024 + p.val; omega
  | ⟨1, _⟩ => show win0_25.index t (1 : Fin 2) * 32 + 1 * q.val = q.val; omega

theorem mem_blk25 (t : Fin cfg0.N) (i : S32768x32.Idx) :
    i ∈ ((cfg0.win 25).blk t).view.set ↔ ∀ a : Fin 2, win0_25.index t a * S1024x32.size a ≤ (i a).val ∧ (i a).val < win0_25.index t a * S1024x32.size a + S1024x32.size a := by
  show i ∈ ((View.whole main_v74_4).slice (win0_25.rect t)).set ↔ _
  rw [View.set_slice_whole, Rect.mem_set_unit]
  exact Iff.rfl

/-- The 32 blocks of result window 25 cover its array: row r is in the block of the point at block row r / 1024. -/
theorem cover25 (i : S32768x32.Idx) : ∃ t : Fin cfg0.N, (cfg0.win 25).flush t = true ∧ i ∈ ((cfg0.win 25).blk t).view.set := by
  have hi0 : (i 0).val < 32768 := (i 0).isLt
  have hi1 : (i 1).val < 32 := (i 1).isLt
  obtain ⟨t, ht⟩ := onto21 ⟨(i 0).val / 1024, by omega⟩
  have q0 : win0_21.index t (0 : Fin 2) = (i 0).val / 1024 := congrFun ht 0
  have q1 : win0_21.index t (1 : Fin 2) = 0 := congrFun ht 1
  obtain ⟨e0, e1⟩ := blkAt25 t
  refine ⟨t, flush0_25 t, ?_⟩
  rw [mem_blk25]
  intro a
  match a with
  | ⟨0, _⟩ => show win0_25.index t (0 : Fin 2) * 1024 ≤ (i 0).val ∧ (i 0).val < win0_25.index t (0 : Fin 2) * 1024 + 1024; omega
  | ⟨1, _⟩ => show win0_25.index t (1 : Fin 2) * 32 ≤ (i 1).val ∧ (i 1).val < win0_25.index t (1 : Fin 2) * 32 + 32; omega

theorem out26 (t : Fin cfg0.N) (p : Fin 1024) (q : Fin 32) :
    (((cfg0.win 26).blk t).view.emb (ix2 p q : S1024x32.Idx) : S32768x32.Idx) = ix2 (rowIx t p) q := by
  obtain ⟨e0, e1⟩ := blkAt26 t
  funext a
  refine Fin.ext ?_
  match a with
  | ⟨0, _⟩ => show win0_26.index t (0 : Fin 2) * 1024 + 1 * p.val = win0_21.index t (0 : Fin 2) * 1024 + p.val; omega
  | ⟨1, _⟩ => show win0_26.index t (1 : Fin 2) * 32 + 1 * q.val = q.val; omega

theorem mem_blk26 (t : Fin cfg0.N) (i : S32768x32.Idx) :
    i ∈ ((cfg0.win 26).blk t).view.set ↔ ∀ a : Fin 2, win0_26.index t a * S1024x32.size a ≤ (i a).val ∧ (i a).val < win0_26.index t a * S1024x32.size a + S1024x32.size a := by
  show i ∈ ((View.whole main_v74_5).slice (win0_26.rect t)).set ↔ _
  rw [View.set_slice_whole, Rect.mem_set_unit]
  exact Iff.rfl

/-- The 32 blocks of result window 26 cover its array: row r is in the block of the point at block row r / 1024. -/
theorem cover26 (i : S32768x32.Idx) : ∃ t : Fin cfg0.N, (cfg0.win 26).flush t = true ∧ i ∈ ((cfg0.win 26).blk t).view.set := by
  have hi0 : (i 0).val < 32768 := (i 0).isLt
  have hi1 : (i 1).val < 32 := (i 1).isLt
  obtain ⟨t, ht⟩ := onto21 ⟨(i 0).val / 1024, by omega⟩
  have q0 : win0_21.index t (0 : Fin 2) = (i 0).val / 1024 := congrFun ht 0
  have q1 : win0_21.index t (1 : Fin 2) = 0 := congrFun ht 1
  obtain ⟨e0, e1⟩ := blkAt26 t
  refine ⟨t, flush0_26 t, ?_⟩
  rw [mem_blk26]
  intro a
  match a with
  | ⟨0, _⟩ => show win0_26.index t (0 : Fin 2) * 1024 ≤ (i 0).val ∧ (i 0).val < win0_26.index t (0 : Fin 2) * 1024 + 1024; omega
  | ⟨1, _⟩ => show win0_26.index t (1 : Fin 2) * 32 ≤ (i 1).val ∧ (i 1).val < win0_26.index t (1 : Fin 2) * 32 + 32; omega

end Cert.Rssm.Kernel

end
-- ==== Proof.KernelValue.lean ====
/-
  The kernel's run, read.

  What point t writes back to a result array is the tile function of the blocks it loaded (the tile lemmas); the blocks of
  the batch arrays are rows of the arguments and the weight blocks are the prepared arrays (the block lemmas), which read
  back to the model's weights (the preparation lemmas): the tile's parameters ARE the specification's parameters of the
  arguments, and the block written at point t is block t of the specification's whole-array function. The 32 blocks cover
  each result array, so after the run each result array IS that function of the arguments; the arguments are unchanged.
-/
import proofs.«108998_j15006615733147_2_alg».proof.Proof.KernelIdealFrameP
import proofs.«108998_j15006615733147_2_alg».proof.Proof.Spec
import proofs.«108998_j15006615733147_2_alg».proof.Proof.Block
import proofs.«108998_j15006615733147_2_alg».proof.Proof.Tile
import proofs.«108998_j15006615733147_2_alg».proof.Proof.HostPrep
import proofs.«108998_j15006615733147_2_alg».proof.Proof.HostVa
import proofs.«108998_j15006615733147_2_alg».proof.Proof.HostVb
import proofs.«108998_j15006615733147_2_alg».proof.Proof.KernelBlocks
import Idealize.ShloMosaic.Lib.Pipeline.Value

set_option maxRecDepth 16384

noncomputable section

namespace Cert.Rssm.Kernel

open Idealize.ShloMosaic Idealize.ShloMosaic.TcCoe Idealize.SL.Sem Idealize.ShloMosaic.ValueIdx
open Cert.Rssm Cert.Rssm.Unit Cert.Rssm.Prep Cert.KernelIdeal Cert.KernelIdeal.Gen Cert.KernelIdeal.GenP
open Idealize.ShloMosaic.Pipeline (Dat)

variable (m : (ℓ : Loc nD τ sig) → Buf (Elt Ideal) ℓ) (ρ : Dev nD → PrngReg)

/-- The parameters, read off the twenty weight arguments in the memory the program starts from. -/
def P (c : Dev nD) : Params :=
  paramsOf (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))

/-! ## The weight blocks, read back: each is the prepared form of its weight argument -/

theorem blk4 (c : Dev nD) (t : Fin cfg0.N) : (iblk m c 4 t : S200x768.Idx → EReal) = gateW (m ((c.tc : Thread nD τ).loc main_arg4)) :=
  (wb4 m c t).trans (V_main_v11 m c)

theorem blk5 (c : Dev nD) (t : Fin cfg0.N) : (iblk m c 5 t : S1x768.Idx → EReal) = gateB (m ((c.tc : Thread nD τ).loc main_arg5)) :=
  (wb5 m c t).trans (V_main_v34 m c)

theorem blk6 (c : Dev nD) (t : Fin cfg0.N) : (iblk m c 6 t : S200x768.Idx → EReal) = gateW (m ((c.tc : Thread nD τ).loc main_arg6)) :=
  (wb6 m c t).trans (V_main_v23 m c)

theorem blk7 (c : Dev nD) (t : Fin cfg0.N) : (iblk m c 7 t : S1x768.Idx → EReal) = gateB (m ((c.tc : Thread nD τ).loc main_arg7)) :=
  (wb7 m c t).trans (V_main_v45 m c)

theorem blk8 (c : Dev nD) (t : Fin cfg0.N) : (iblk m c 8 t : S6x200.Idx → EReal) = truncf (F := Ideal) .bf16 (transpose S6x200 [1, 0] (m ((c.tc : Thread nD τ).loc main_arg8)) Facts₀.transposes_S200x6_S6x200_1_0) Facts₀.bitsLt_bf16_f32 :=
  (wb8 m c t).trans (V_main_v47 m c)

theorem blk9 (c : Dev nD) (t : Fin cfg0.N) : (iblk m c 9 t : S1x200.Idx → EReal) = shapeCast S1x200 (m ((c.tc : Thread nD τ).loc main_arg9)) Facts₀.shapeCasts_S200_S1x200 :=
  (wb9 m c t).trans (V_main_v70 m c)

theorem blk10 (c : Dev nD) (t : Fin cfg0.N) : (iblk m c 10 t : S1024x200.Idx → EReal) = truncf (F := Ideal) .bf16 (transpose S1024x200 [1, 0] (m ((c.tc : Thread nD τ).loc main_arg10)) Facts₀.transposes_S200x1024_S1024x200_1_0) Facts₀.bitsLt_bf16_f32 :=
  (wb10 m c t).trans (V_main_v49 m c)

theorem blk11 (c : Dev nD) (t : Fin cfg0.N) : (iblk m c 11 t : S1x200.Idx → EReal) = shapeCast S1x200 (m ((c.tc : Thread nD τ).loc main_arg11)) Facts₀.shapeCasts_S200_S1x200 :=
  (wb11 m c t).trans (V_main_v71 m c)

theorem blk12 (c : Dev nD) (t : Fin cfg0.N) : (iblk m c 12 t : S200x200.Idx → EReal) = truncf (F := Ideal) .bf16 (transpose S200x200 [1, 0] (m ((c.tc : Thread nD τ).loc main_arg12)) Facts₀.transposes_S200x200_S200x200_1_0) Facts₀.bitsLt_bf16_f32 :=
  (wb12 m c t).trans (V_main_v51 m c)

theorem blk13 (c : Dev nD) (t : Fin cfg0.N) : (iblk m c 13 t : S1x200.Idx → EReal) = shapeCast S1x200 (m ((c.tc : Thread nD τ).loc main_arg13)) Facts₀.shapeCasts_S200_S1x200 :=
  (wb13 m c t).trans (V_main_v72 m c)

theorem blk14 (c : Dev nD) (t : Fin cfg0.N) : (iblk m c 14 t : S200x64.Idx → EReal) = catW (m ((c.tc : Thread nD τ).loc main_arg14)) (m ((c.tc : Thread nD τ).loc main_arg16)) :=
  (wb14 m c t).trans (V_main_v55 m c)

theorem blk15 (c : Dev nD) (t : Fin cfg0.N) : (iblk m c 15 t : S1x64.Idx → EReal) = catB (m ((c.tc : Thread nD τ).loc main_arg15)) (m ((c.tc : Thread nD τ).loc main_arg17)) :=
  (wb15 m c t).trans (V_main_v57 m c)

theorem blk16 (c : Dev nD) (t : Fin cfg0.N) : (iblk m c 16 t : S200x200.Idx → EReal) = postH (m ((c.tc : Thread nD τ).loc main_arg18)) :=
  (wb16 m c t).trans (V_main_v60 m c)

theorem blk17 (c : Dev nD) (t : Fin cfg0.N) : (iblk m c 17 t : S1024x200.Idx → EReal) = postO (m ((c.tc : Thread nD τ).loc main_arg18)) :=
  (wb17 m c t).trans (V_main_v63 m c)

theorem blk18 (c : Dev nD) (t : Fin cfg0.N) : (iblk m c 18 t : S1x200.Idx → EReal) = shapeCast S1x200 (m ((c.tc : Thread nD τ).loc main_arg19)) Facts₀.shapeCasts_S200_S1x200 :=
  (wb18 m c t).trans (V_main_v73 m c)

theorem blk19 (c : Dev nD) (t : Fin cfg0.N) : (iblk m c 19 t : S200x64.Idx → EReal) = catW (m ((c.tc : Thread nD τ).loc main_arg20)) (m ((c.tc : Thread nD τ).loc main_arg22)) :=
  (wb19 m c t).trans (V_main_v67 m c)

theorem blk20 (c : Dev nD) (t : Fin cfg0.N) : (iblk m c 20 t : S1x64.Idx → EReal) = catB (m ((c.tc : Thread nD τ).loc main_arg21)) (m ((c.tc : Thread nD τ).loc main_arg23)) :=
  (wb20 m c t).trans (V_main_v69 m c)

/-! ## The tile's parameters are the specification's parameters of the arguments -/

set_option maxHeartbeats 8000000 in
theorem params_eq (c : Dev nD) (t : Fin cfg0.N) :
    Cert.Rssm.Tile.tileParams (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) = P m c := by
  rw [blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t]
  simp only [Cert.Rssm.Tile.tileParams, P, paramsOf, Params.mk.injEq]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩
  · funext k q; exact matOf_tr _ _ _ k q
  · funext q; exact rowVec_cast _ _ q
  · funext k q; exact matOf_tr _ _ _ k q
  · funext q; exact rowVec_cast _ _ q
  · funext k j; exact gateW_r _ k j
  · funext k j; exact gateW_z _ k j
  · funext k j; exact gateW_n _ k j
  · funext j; exact gateB_r _ j
  · funext j; exact gateB_z _ j
  · funext j; exact gateB_n _ j
  · funext k j; exact gateW_r _ k j
  · funext k j; exact gateW_z _ k j
  · funext k j; exact gateW_n _ k j
  · funext j; exact gateB_r _ j
  · funext j; exact gateB_z _ j
  · funext j; exact gateB_n _ j
  · funext k q; exact matOf_tr _ _ _ k q
  · funext q; exact rowVec_cast _ _ q
  · funext k s; exact catW_l _ _ k s
  · funext s; exact catB_l _ _ s
  · funext k s; exact catW_r _ _ k s
  · funext s; exact catB_r _ _ s
  · funext k q; exact postH_read _ k q
  · funext k q; exact postO_read _ k q
  · funext q; exact rowVec_cast _ _ q
  · funext k s; exact catW_l _ _ k s
  · funext s; exact catB_l _ _ s
  · funext k s; exact catW_r _ _ k s
  · funext s; exact catB_r _ _ s

/-! ## What each point writes back, and the arrays after the run -/

set_option maxHeartbeats 8000000 in
/-- Point t writes back, to result window 21, block t of the specification's function of the arguments. -/
theorem flushed21_eq (c : Dev nD) (t : Fin cfg0.N) :
    (dats m 0 c).flushed 21 t = ((cfg0.win 21).blk t).view.read (Elt Ideal) (Gh (P m c) (m ((c.tc : Thread nD τ).loc main_arg0)) (m ((c.tc : Thread nD τ).loc main_arg1)) (m ((c.tc : Thread nD τ).loc main_arg2))) := by
  show (cfg0.win 21).cut (grid0.coords t) ((dats m 0 c).after 21 t) = _
  rw [after0_21]
  unfold out0_21
  rw [View.canon_unit_zero hz]
  simp only [View.ld_unit_zero (S := S1024x6) hz, View.ld_unit_zero (S := S1024x1024) hz, View.ld_unit_zero (S := S1024x200) hz, View.ld_unit_zero (S := S1024x32) hz, View.ld_unit_zero (S := S6x200) hz, View.ld_unit_zero (S := S1x200) hz, View.ld_unit_zero (S := S200x768) hz, View.ld_unit_zero (S := S1x768) hz, View.ld_unit_zero (S := S200x200) hz, View.ld_unit_zero (S := S200x64) hz, View.ld_unit_zero (S := S1x64) hz]
  rw [Cert.Rssm.Tile.h_full (x0 := iblk m c 0 t) (x1 := iblk m c 1 t) (x2 := iblk m c 2 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (x14 := iblk m c 14 t) (x15 := iblk m c 15 t) (x16 := iblk m c 16 t) (x17 := iblk m c 17 t) (x18 := iblk m c 18 t) (x19 := iblk m c 19 t) (x20 := iblk m c 20 t)]
  funext y
  obtain ⟨p, q, rfl⟩ : ∃ (p : Fin 1024) (q : Fin 200), y = ix2 p q := ⟨y 0, y 1, eq_ix2 y⟩
  show Gh _ _ _ _ (ix2 p q) = Gh (P m c) (m ((c.tc : Thread nD τ).loc main_arg0)) (m ((c.tc : Thread nD τ).loc main_arg1)) (m ((c.tc : Thread nD τ).loc main_arg2)) (((cfg0.win 21).blk t).view.emb (ix2 p q : S1024x200.Idx) : S32768x200.Idx)
  rw [out21 t p q]
  exact Gh_block _ _ (params_eq m c t) _ _ _ _ _ _ (rowIx t) (in0 m c t) (in1 m c t) (in2 m c t) p q

theorem final21 (c : Dev nD) : (dats m 0 c).arrAt 21 cfg0.N = Gh (P m c) (m ((c.tc : Thread nD τ).loc main_arg0)) (m ((c.tc : Thread nD τ).loc main_arg1)) (m ((c.tc : Thread nD τ).loc main_arg2)) :=
  (dats m 0 c).arrAt_eq_of_cover 21 _ (fun t _ => flushed21_eq m c t) cover21

set_option maxHeartbeats 8000000 in
/-- Point t writes back, to result window 22, block t of the specification's function of the arguments. -/
theorem flushed22_eq (c : Dev nD) (t : Fin cfg0.N) :
    (dats m 0 c).flushed 22 t = ((cfg0.win 22).blk t).view.read (Elt Ideal) (Gz (P m c) (m ((c.tc : Thread nD τ).loc main_arg0)) (m ((c.tc : Thread nD τ).loc main_arg1)) (m ((c.tc : Thread nD τ).loc main_arg2)) (m ((c.tc : Thread nD τ).loc main_arg3))) := by
  show (cfg0.win 22).cut (grid0.coords t) ((dats m 0 c).after 22 t) = _
  rw [after0_22]
  unfold out0_22
  rw [View.canon_unit_zero hz]
  simp only [View.ld_unit_zero (S := S1024x6) hz, View.ld_unit_zero (S := S1024x1024) hz, View.ld_unit_zero (S := S1024x200) hz, View.ld_unit_zero (S := S1024x32) hz, View.ld_unit_zero (S := S6x200) hz, View.ld_unit_zero (S := S1x200) hz, View.ld_unit_zero (S := S200x768) hz, View.ld_unit_zero (S := S1x768) hz, View.ld_unit_zero (S := S200x200) hz, View.ld_unit_zero (S := S200x64) hz, View.ld_unit_zero (S := S1x64) hz]
  rw [Cert.Rssm.Tile.z_full (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (x14 := iblk m c 14 t) (x15 := iblk m c 15 t) (x16 := iblk m c 16 t) (x17 := iblk m c 17 t) (x18 := iblk m c 18 t) (x19 := iblk m c 19 t) (x20 := iblk m c 20 t)]
  funext y
  obtain ⟨p, q, rfl⟩ : ∃ (p : Fin 1024) (q : Fin 32), y = ix2 p q := ⟨y 0, y 1, eq_ix2 y⟩
  show Gz _ _ _ _ _ (ix2 p q) = Gz (P m c) (m ((c.tc : Thread nD τ).loc main_arg0)) (m ((c.tc : Thread nD τ).loc main_arg1)) (m ((c.tc : Thread nD τ).loc main_arg2)) (m ((c.tc : Thread nD τ).loc main_arg3)) (((cfg0.win 22).blk t).view.emb (ix2 p q : S1024x32.Idx) : S32768x32.Idx)
  rw [out22 t p q]
  exact Gz_block _ _ (params_eq m c t) _ _ _ _ _ _ _ _ (rowIx t) (in0 m c t) (in1 m c t) (in2 m c t) (in3 m c t) p q

theorem final22 (c : Dev nD) : (dats m 0 c).arrAt 22 cfg0.N = Gz (P m c) (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 22 _ (fun t _ => flushed22_eq m c t) cover22

set_option maxHeartbeats 8000000 in
/-- Point t writes back, to result window 23, block t of the specification's function of the arguments. -/
theorem flushed23_eq (c : Dev nD) (t : Fin cfg0.N) :
    (dats m 0 c).flushed 23 t = ((cfg0.win 23).blk t).view.read (Elt Ideal) (Gqm (P m c) (m ((c.tc : Thread nD τ).loc main_arg0)) (m ((c.tc : Thread nD τ).loc main_arg1)) (m ((c.tc : Thread nD τ).loc main_arg2))) := by
  show (cfg0.win 23).cut (grid0.coords t) ((dats m 0 c).after 23 t) = _
  rw [after0_23]
  unfold out0_23
  rw [View.canon_unit_zero hz]
  simp only [View.ld_unit_zero (S := S1024x6) hz, View.ld_unit_zero (S := S1024x1024) hz, View.ld_unit_zero (S := S1024x200) hz, View.ld_unit_zero (S := S1024x32) hz, View.ld_unit_zero (S := S6x200) hz, View.ld_unit_zero (S := S1x200) hz, View.ld_unit_zero (S := S200x768) hz, View.ld_unit_zero (S := S1x768) hz, View.ld_unit_zero (S := S200x200) hz, View.ld_unit_zero (S := S200x64) hz, View.ld_unit_zero (S := S1x64) hz]
  rw [Cert.Rssm.Tile.qm_full (x0 := iblk m c 0 t) (x1 := iblk m c 1 t) (x2 := iblk m c 2 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (x14 := iblk m c 14 t) (x15 := iblk m c 15 t) (x16 := iblk m c 16 t) (x17 := iblk m c 17 t) (x18 := iblk m c 18 t) (x19 := iblk m c 19 t) (x20 := iblk m c 20 t)]
  funext y
  obtain ⟨p, q, rfl⟩ : ∃ (p : Fin 1024) (q : Fin 32), y = ix2 p q := ⟨y 0, y 1, eq_ix2 y⟩
  show Gqm _ _ _ _ (ix2 p q) = Gqm (P m c) (m ((c.tc : Thread nD τ).loc main_arg0)) (m ((c.tc : Thread nD τ).loc main_arg1)) (m ((c.tc : Thread nD τ).loc main_arg2)) (((cfg0.win 23).blk t).view.emb (ix2 p q : S1024x32.Idx) : S32768x32.Idx)
  rw [out23 t p q]
  exact Gqm_block _ _ (params_eq m c t) _ _ _ _ _ _ (rowIx t) (in0 m c t) (in1 m c t) (in2 m c t) p q

theorem final23 (c : Dev nD) : (dats m 0 c).arrAt 23 cfg0.N = Gqm (P m c) (m ((c.tc : Thread nD τ).loc main_arg0)) (m ((c.tc : Thread nD τ).loc main_arg1)) (m ((c.tc : Thread nD τ).loc main_arg2)) :=
  (dats m 0 c).arrAt_eq_of_cover 23 _ (fun t _ => flushed23_eq m c t) cover23

set_option maxHeartbeats 8000000 in
/-- Point t writes back, to result window 24, block t of the specification's function of the arguments. -/
theorem flushed24_eq (c : Dev nD) (t : Fin cfg0.N) :
    (dats m 0 c).flushed 24 t = ((cfg0.win 24).blk t).view.read (Elt Ideal) (Gqs (P m c) (m ((c.tc : Thread nD τ).loc main_arg0)) (m ((c.tc : Thread nD τ).loc main_arg1)) (m ((c.tc : Thread nD τ).loc main_arg2))) := by
  show (cfg0.win 24).cut (grid0.coords t) ((dats m 0 c).after 24 t) = _
  rw [after0_24]
  unfold out0_24
  rw [View.canon_unit_zero hz]
  simp only [View.ld_unit_zero (S := S1024x6) hz, View.ld_unit_zero (S := S1024x1024) hz, View.ld_unit_zero (S := S1024x200) hz, View.ld_unit_zero (S := S1024x32) hz, View.ld_unit_zero (S := S6x200) hz, View.ld_unit_zero (S := S1x200) hz, View.ld_unit_zero (S := S200x768) hz, View.ld_unit_zero (S := S1x768) hz, View.ld_unit_zero (S := S200x200) hz, View.ld_unit_zero (S := S200x64) hz, View.ld_unit_zero (S := S1x64) hz]
  rw [Cert.Rssm.Tile.qs_full (x0 := iblk m c 0 t) (x1 := iblk m c 1 t) (x2 := iblk m c 2 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (x14 := iblk m c 14 t) (x15 := iblk m c 15 t) (x16 := iblk m c 16 t) (x17 := iblk m c 17 t) (x18 := iblk m c 18 t) (x19 := iblk m c 19 t) (x20 := iblk m c 20 t)]
  funext y
  obtain ⟨p, q, rfl⟩ : ∃ (p : Fin 1024) (q : Fin 32), y = ix2 p q := ⟨y 0, y 1, eq_ix2 y⟩
  show Gqs _ _ _ _ (ix2 p q) = Gqs (P m c) (m ((c.tc : Thread nD τ).loc main_arg0)) (m ((c.tc : Thread nD τ).loc main_arg1)) (m ((c.tc : Thread nD τ).loc main_arg2)) (((cfg0.win 24).blk t).view.emb (ix2 p q : S1024x32.Idx) : S32768x32.Idx)
  rw [out24 t p q]
  exact Gqs_block _ _ (params_eq m c t) _ _ _ _ _ _ (rowIx t) (in0 m c t) (in1 m c t) (in2 m c t) p q

theorem final24 (c : Dev nD) : (dats m 0 c).arrAt 24 cfg0.N = Gqs (P m c) (m ((c.tc : Thread nD τ).loc main_arg0)) (m ((c.tc : Thread nD τ).loc main_arg1)) (m ((c.tc : Thread nD τ).loc main_arg2)) :=
  (dats m 0 c).arrAt_eq_of_cover 24 _ (fun t _ => flushed24_eq m c t) cover24

set_option maxHeartbeats 8000000 in
/-- Point t writes back, to result window 25, block t of the specification's function of the arguments. -/
theorem flushed25_eq (c : Dev nD) (t : Fin cfg0.N) :
    (dats m 0 c).flushed 25 t = ((cfg0.win 25).blk t).view.read (Elt Ideal) (Gpm (P m c) (m ((c.tc : Thread nD τ).loc main_arg0)) (m ((c.tc : Thread nD τ).loc main_arg1)) (m ((c.tc : Thread nD τ).loc main_arg2))) := by
  show (cfg0.win 25).cut (grid0.coords t) ((dats m 0 c).after 25 t) = _
  rw [after0_25]
  unfold out0_25
  rw [View.canon_unit_zero hz]
  simp only [View.ld_unit_zero (S := S1024x6) hz, View.ld_unit_zero (S := S1024x1024) hz, View.ld_unit_zero (S := S1024x200) hz, View.ld_unit_zero (S := S1024x32) hz, View.ld_unit_zero (S := S6x200) hz, View.ld_unit_zero (S := S1x200) hz, View.ld_unit_zero (S := S200x768) hz, View.ld_unit_zero (S := S1x768) hz, View.ld_unit_zero (S := S200x200) hz, View.ld_unit_zero (S := S200x64) hz, View.ld_unit_zero (S := S1x64) hz]
  rw [Cert.Rssm.Tile.pm_full (x0 := iblk m c 0 t) (x1 := iblk m c 1 t) (x2 := iblk m c 2 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (x14 := iblk m c 14 t) (x15 := iblk m c 15 t) (x16 := iblk m c 16 t) (x17 := iblk m c 17 t) (x18 := iblk m c 18 t) (x19 := iblk m c 19 t) (x20 := iblk m c 20 t)]
  funext y
  obtain ⟨p, q, rfl⟩ : ∃ (p : Fin 1024) (q : Fin 32), y = ix2 p q := ⟨y 0, y 1, eq_ix2 y⟩
  show Gpm _ _ _ _ (ix2 p q) = Gpm (P m c) (m ((c.tc : Thread nD τ).loc main_arg0)) (m ((c.tc : Thread nD τ).loc main_arg1)) (m ((c.tc : Thread nD τ).loc main_arg2)) (((cfg0.win 25).blk t).view.emb (ix2 p q : S1024x32.Idx) : S32768x32.Idx)
  rw [out25 t p q]
  exact Gpm_block _ _ (params_eq m c t) _ _ _ _ _ _ (rowIx t) (in0 m c t) (in1 m c t) (in2 m c t) p q

theorem final25 (c : Dev nD) : (dats m 0 c).arrAt 25 cfg0.N = Gpm (P m c) (m ((c.tc : Thread nD τ).loc main_arg0)) (m ((c.tc : Thread nD τ).loc main_arg1)) (m ((c.tc : Thread nD τ).loc main_arg2)) :=
  (dats m 0 c).arrAt_eq_of_cover 25 _ (fun t _ => flushed25_eq m c t) cover25

set_option maxHeartbeats 8000000 in
/-- Point t writes back, to result window 26, block t of the specification's function of the arguments. -/
theorem flushed26_eq (c : Dev nD) (t : Fin cfg0.N) :
    (dats m 0 c).flushed 26 t = ((cfg0.win 26).blk t).view.read (Elt Ideal) (Gps (P m c) (m ((c.tc : Thread nD τ).loc main_arg0)) (m ((c.tc : Thread nD τ).loc main_arg1)) (m ((c.tc : Thread nD τ).loc main_arg2))) := by
  show (cfg0.win 26).cut (grid0.coords t) ((dats m 0 c).after 26 t) = _
  rw [after0_26]
  unfold out0_26
  rw [View.canon_unit_zero hz]
  simp only [View.ld_unit_zero (S := S1024x6) hz, View.ld_unit_zero (S := S1024x1024) hz, View.ld_unit_zero (S := S1024x200) hz, View.ld_unit_zero (S := S1024x32) hz, View.ld_unit_zero (S := S6x200) hz, View.ld_unit_zero (S := S1x200) hz, View.ld_unit_zero (S := S200x768) hz, View.ld_unit_zero (S := S1x768) hz, View.ld_unit_zero (S := S200x200) hz, View.ld_unit_zero (S := S200x64) hz, View.ld_unit_zero (S := S1x64) hz]
  rw [Cert.Rssm.Tile.ps_full (x0 := iblk m c 0 t) (x1 := iblk m c 1 t) (x2 := iblk m c 2 t) (x4 := iblk m c 4 t) (x5 := iblk m c 5 t) (x6 := iblk m c 6 t) (x7 := iblk m c 7 t) (x8 := iblk m c 8 t) (x9 := iblk m c 9 t) (x10 := iblk m c 10 t) (x11 := iblk m c 11 t) (x12 := iblk m c 12 t) (x13 := iblk m c 13 t) (x14 := iblk m c 14 t) (x15 := iblk m c 15 t) (x16 := iblk m c 16 t) (x17 := iblk m c 17 t) (x18 := iblk m c 18 t) (x19 := iblk m c 19 t) (x20 := iblk m c 20 t)]
  funext y
  obtain ⟨p, q, rfl⟩ : ∃ (p : Fin 1024) (q : Fin 32), y = ix2 p q := ⟨y 0, y 1, eq_ix2 y⟩
  show Gps _ _ _ _ (ix2 p q) = Gps (P m c) (m ((c.tc : Thread nD τ).loc main_arg0)) (m ((c.tc : Thread nD τ).loc main_arg1)) (m ((c.tc : Thread nD τ).loc main_arg2)) (((cfg0.win 26).blk t).view.emb (ix2 p q : S1024x32.Idx) : S32768x32.Idx)
  rw [out26 t p q]
  exact Gps_block _ _ (params_eq m c t) _ _ _ _ _ _ (rowIx t) (in0 m c t) (in1 m c t) (in2 m c t) p q

theorem final26 (c : Dev nD) : (dats m 0 c).arrAt 26 cfg0.N = Gps (P m c) (m ((c.tc : Thread nD τ).loc main_arg0)) (m ((c.tc : Thread nD τ).loc main_arg1)) (m ((c.tc : Thread nD τ).loc main_arg2)) :=
  (dats m 0 c).arrAt_eq_of_cover 26 _ (fun t _ => flushed26_eq m c t) cover26

/-! ## The run -/

set_option maxHeartbeats 8000000 in
theorem run : θ_run (defs (F := Ideal)) (onTc (τ := τ) (main (F := Ideal))) ⟨m, fun _ => 0, ρ⟩ fun r => ∀ c : Dev nD,
      r.2.mem ((c.tc : Thread nD τ).loc main_v74_0) = Gh (P m c) (m ((c.tc : Thread nD τ).loc main_arg0)) (m ((c.tc : Thread nD τ).loc main_arg1)) (m ((c.tc : Thread nD τ).loc main_arg2))
      ∧ r.2.mem ((c.tc : Thread nD τ).loc main_v74_1) = Gz (P m c) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v74_2) = Gqm (P m c) (m ((c.tc : Thread nD τ).loc main_arg0)) (m ((c.tc : Thread nD τ).loc main_arg1)) (m ((c.tc : Thread nD τ).loc main_arg2))
      ∧ r.2.mem ((c.tc : Thread nD τ).loc main_v74_3) = Gqs (P m c) (m ((c.tc : Thread nD τ).loc main_arg0)) (m ((c.tc : Thread nD τ).loc main_arg1)) (m ((c.tc : Thread nD τ).loc main_arg2))
      ∧ r.2.mem ((c.tc : Thread nD τ).loc main_v74_4) = Gpm (P m c) (m ((c.tc : Thread nD τ).loc main_arg0)) (m ((c.tc : Thread nD τ).loc main_arg1)) (m ((c.tc : Thread nD τ).loc main_arg2))
      ∧ r.2.mem ((c.tc : Thread nD τ).loc main_v74_5) = Gps (P m c) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => ⟨((h c).1 21).trans (final21 m c),
      ((h c).1 22).trans (final22 m c),
      ((h c).1 23).trans (final23 m c),
      ((h c).1 24).trans (final24 m c),
      ((h c).1 25).trans (final25 m c),
      ((h c).1 26).trans (final26 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c)⟩)
    (run_main m ρ)

end Cert.Rssm.Kernel

end
-- ==== Proof.RefValue.lean ====
/-
  The reference program, read one entry at a time over the extended reals.

  Every intermediate array of the reference is read at an entry (r, j): row r is one batch row and j a position of the
  layer. A dense layer of the reference is a product with the transposed weight array followed by the bias laid along
  the rows, so its entry (r, j) is the sum over k of the input's (r, k) entry times the weight's (j, k) entry, plus the
  bias's entry j: the row function `dense` at the parameters read off the arrays. The clamp, the logistic written as
  1 / (1 + exp (-v)), the hyperbolic tangent and the stable softplus act entry by entry. The posterior layer contracts
  over the joined row [h, o] of 200 + 1024 positions; its sum is cut at position 200 into the hidden part and the
  observation part. The six results are then the six row functions applied to every row.
-/
import proofs.«108998_j15006615733147_2_alg».proof.Proof.Gen.ReferenceIdeal.Read
import proofs.«108998_j15006615733147_2_alg».proof.Proof.Spec
import Idealize.ShloMosaic.Lib.ValueIdx
import Idealize.ShloMosaic.Lib.Pipeline.Value
import Idealize.ShloMosaic.PureOps.Ideal.Laws

noncomputable section

namespace Cert.Rssm.Ref

open Idealize.ShloMosaic Idealize.ShloMosaic.ValueIdx
open Cert.ReferenceIdeal Cert.ReferenceIdeal.Read

/-! ## Scalars and sums -/

/-- The single-precision word of one is the extended real 1. -/
theorem one_word : Ideal.ofBits .f32 0x3F800000#32 = 1 := by
  simp [Ideal.ofBits, Ideal.ieee, -EReal.coe_mul]; norm_num

/-- The logistic as the reference spells it, 1 / (1 + exp (-v)) with the word of one, is the logistic. -/
theorem logistic_spelled (v : EReal) :
    Ideal.div (Ideal.ofBits .f32 0x3F800000#32) (Ideal.ofBits .f32 0x3F800000#32 + Ideal.exp (-v)) = Ideal.logistic v := by
  rw [one_word]; rfl

/-- A sum of products plus a bias is a dense layer's entry, once the factors and the bias are identified. -/
theorem dense_of {K N : Nat} (f g : Fin K → EReal) (b : EReal) (x : Fin K → EReal) (w : Fin K → Fin N → EReal)
    (bias : Fin N → EReal) (q : Fin N) (hf : ∀ k, f k = x k) (hg : ∀ k, g k = w k q) (hb : b = bias q) :
    (∑ k : Fin K, f k * g k) + b = dense x w bias q := by
  unfold dense
  rw [hb]
  exact congrArg (· + bias q) (Finset.sum_congr rfl fun k _ => by rw [hf k, hg k])

/-- Two rank-1 indices with the same coordinate are equal. -/
macro "idx1" : tactic => `(tactic| (funext a; match a with | ⟨0, _⟩ => rfl))
/-- Two rank-2 indices with the same coordinates are equal. -/
macro "idx2" : tactic => `(tactic| (funext a; match a with | ⟨0, _⟩ => rfl | ⟨1, _⟩ => rfl))

/-! ## The argument arrays -/

/-- The twenty-four argument arrays: action, observation embedding, previous hidden state, noise, then the weights and
    biases in the order the program takes them. -/
structure Inputs where
  x0 : (⟨S32768x6, .f32⟩ : BufTy).Contents (Elt Ideal)
  x1 : (⟨S32768x1024, .f32⟩ : BufTy).Contents (Elt Ideal)
  x2 : (⟨S32768x200, .f32⟩ : BufTy).Contents (Elt Ideal)
  x3 : (⟨S32768x32, .f32⟩ : BufTy).Contents (Elt Ideal)
  x4 : (⟨S600x200, .f32⟩ : BufTy).Contents (Elt Ideal)
  x5 : (⟨S600, .f32⟩ : BufTy).Contents (Elt Ideal)
  x6 : (⟨S600x200, .f32⟩ : BufTy).Contents (Elt Ideal)
  x7 : (⟨S600, .f32⟩ : BufTy).Contents (Elt Ideal)
  x8 : (⟨S200x6, .f32⟩ : BufTy).Contents (Elt Ideal)
  x9 : (⟨S200, .f32⟩ : BufTy).Contents (Elt Ideal)
  x10 : (⟨S200x1024, .f32⟩ : BufTy).Contents (Elt Ideal)
  x11 : (⟨S200, .f32⟩ : BufTy).Contents (Elt Ideal)
  x12 : (⟨S200x200, .f32⟩ : BufTy).Contents (Elt Ideal)
  x13 : (⟨S200, .f32⟩ : BufTy).Contents (Elt Ideal)
  x14 : (⟨S32x200, .f32⟩ : BufTy).Contents (Elt Ideal)
  x15 : (⟨S32, .f32⟩ : BufTy).Contents (Elt Ideal)
  x16 : (⟨S32x200, .f32⟩ : BufTy).Contents (Elt Ideal)
  x17 : (⟨S32, .f32⟩ : BufTy).Contents (Elt Ideal)
  x18 : (⟨S200x1224, .f32⟩ : BufTy).Contents (Elt Ideal)
  x19 : (⟨S200, .f32⟩ : BufTy).Contents (Elt Ideal)
  x20 : (⟨S32x200, .f32⟩ : BufTy).Contents (Elt Ideal)
  x21 : (⟨S32, .f32⟩ : BufTy).Contents (Elt Ideal)
  x22 : (⟨S32x200, .f32⟩ : BufTy).Contents (Elt Ideal)
  x23 : (⟨S32, .f32⟩ : BufTy).Contents (Elt Ideal)

/-- The parameters read off the weight and bias arrays. -/
abbrev Inputs.P (A : Inputs) : Params :=
  paramsOf A.x4 A.x5 A.x6 A.x7 A.x8 A.x9 A.x10 A.x11 A.x12 A.x13 A.x14 A.x15 A.x16 A.x17 A.x18 A.x19 A.x20 A.x21 A.x22 A.x23

variable (A : Inputs)

/-! ## The input of the recurrent cell -/

/-- The embedded action at (r, j). -/
theorem act_at (r : Fin 32768) (j : Fin 200) :
    val_main_v4 (F := Ideal) A.x0 A.x8 A.x9 (ix2 r j) = dense (rowOf A.x0 r) A.P.wAct A.P.bAct j := by
  rw [val_main_v4_apply, val_main_v1_apply, Ideal.addf_def]
  refine dense_of _ _ _ _ _ _ _ (fun k => ?_) (fun k => ?_) ?_
  · exact congrArg A.x0 (by idx2)
  · exact (val_main_v0_apply A.x8 _).trans (congrArg A.x8 (by idx2))
  · exact (val_main_v3_apply A.x9 _).trans ((val_main_v2_apply A.x9 _).trans (congrArg A.x9 (by idx1)))

/-- The encoded observation at (r, j), before the clamp. -/
theorem enc_at (r : Fin 32768) (j : Fin 200) :
    val_main_v9 (F := Ideal) A.x1 A.x10 A.x11 (ix2 r j) = dense (rowOf A.x1 r) A.P.wEnc A.P.bEnc j := by
  rw [val_main_v9_apply, val_main_v6_apply, Ideal.addf_def]
  refine dense_of _ _ _ _ _ _ _ (fun k => ?_) (fun k => ?_) ?_
  · exact congrArg A.x1 (by idx2)
  · exact (val_main_v5_apply A.x10 _).trans (congrArg A.x10 (by idx2))
  · exact (val_main_v8_apply A.x11 _).trans ((val_main_v7_apply A.x11 _).trans (congrArg A.x11 (by idx1)))

/-- The cell's input at (r, j). -/
theorem x_at (r : Fin 32768) (j : Fin 200) :
    val_main_v11 (F := Ideal) A.x0 A.x1 A.x8 A.x9 A.x10 A.x11 (ix2 r j) = xRow A.P (rowOf A.x0 r) (rowOf A.x1 r) j := by
  rw [val_main_v11_apply, val_main_v10_apply, val_main_call0_v0_apply, val_main_call0_cst_apply, act_at, enc_at]
  rfl

/-! ## The gate pre-activations -/

/-- The input side's 600 pre-activations (reset, update, candidate stacked along the columns) at (r, c). -/
theorem gi_at (r : Fin 32768) (c : Fin 600) :
    val_main_v16 (F := Ideal) A.x0 A.x1 A.x4 A.x5 A.x8 A.x9 A.x10 A.x11 (ix2 r c)
      = dense (xRow A.P (rowOf A.x0 r) (rowOf A.x1 r)) (fun k q => A.x4 (ix2 q k)) (fun q => A.x5 (ix1 q)) c := by
  rw [val_main_v16_apply, val_main_v13_apply, Ideal.addf_def]
  refine dense_of _ _ _ _ _ _ _ (fun k => ?_) (fun k => ?_) ?_
  · exact (congrArg (val_main_v11 (F := Ideal) A.x0 A.x1 A.x8 A.x9 A.x10 A.x11) (by idx2)).trans (x_at A r k)
  · exact (val_main_v12_apply A.x4 _).trans (congrArg A.x4 (by idx2))
  · exact (val_main_v15_apply A.x5 _).trans ((val_main_v14_apply A.x5 _).trans (congrArg A.x5 (by idx1)))

/-- The hidden side's 600 pre-activations at (r, c). -/
theorem gh_at (r : Fin 32768) (c : Fin 600) :
    val_main_v21 (F := Ideal) A.x2 A.x6 A.x7 (ix2 r c)
      = dense (rowOf A.x2 r) (fun k q => A.x6 (ix2 q k)) (fun q => A.x7 (ix1 q)) c := by
  rw [val_main_v21_apply, val_main_v18_apply, Ideal.addf_def]
  refine dense_of _ _ _ _ _ _ _ (fun k => ?_) (fun k => ?_) ?_
  · exact congrArg A.x2 (by idx2)
  · exact (val_main_v17_apply A.x6 _).trans (congrArg A.x6 (by idx2))
  · exact (val_main_v20_apply A.x7 _).trans ((val_main_v19_apply A.x7 _).trans (congrArg A.x7 (by idx1)))

/-- The input side's reset pre-activation: columns 0 to 199. -/
theorem ir_at (r : Fin 32768) (j : Fin 200) :
    val_main_v22 (F := Ideal) A.x0 A.x1 A.x4 A.x5 A.x8 A.x9 A.x10 A.x11 (ix2 r j) = dense (xRow A.P (rowOf A.x0 r) (rowOf A.x1 r)) A.P.wIr A.P.bIr j := by
  rw [val_main_v22_apply]
  refine ((congrArg (val_main_v16 (F := Ideal) A.x0 A.x1 A.x4 A.x5 A.x8 A.x9 A.x10 A.x11)
    (?_ : idx_main_v22 (ix2 r j) = ix2 r (⟨j.val, by have := j.isLt; omega⟩ : Fin 600))).trans (gi_at A r _)).trans ?_
  · idx2
  · rfl

/-- The input side's update pre-activation: columns 200 to 399. -/
theorem iz_at (r : Fin 32768) (j : Fin 200) :
    val_main_v23 (F := Ideal) A.x0 A.x1 A.x4 A.x5 A.x8 A.x9 A.x10 A.x11 (ix2 r j) = dense (xRow A.P (rowOf A.x0 r) (rowOf A.x1 r)) A.P.wIz A.P.bIz j := by
  rw [val_main_v23_apply]
  refine ((congrArg (val_main_v16 (F := Ideal) A.x0 A.x1 A.x4 A.x5 A.x8 A.x9 A.x10 A.x11)
    (?_ : idx_main_v23 (ix2 r j) = ix2 r (⟨200 + j.val, by have := j.isLt; omega⟩ : Fin 600))).trans (gi_at A r _)).trans ?_
  · idx2
  · rfl

/-- The input side's candidate pre-activation: columns 400 to 599. -/
theorem in_at (r : Fin 32768) (j : Fin 200) :
    val_main_v24 (F := Ideal) A.x0 A.x1 A.x4 A.x5 A.x8 A.x9 A.x10 A.x11 (ix2 r j) = dense (xRow A.P (rowOf A.x0 r) (rowOf A.x1 r)) A.P.wIn A.P.bIn j := by
  rw [val_main_v24_apply]
  refine ((congrArg (val_main_v16 (F := Ideal) A.x0 A.x1 A.x4 A.x5 A.x8 A.x9 A.x10 A.x11)
    (?_ : idx_main_v24 (ix2 r j) = ix2 r (⟨400 + j.val, by have := j.isLt; omega⟩ : Fin 600))).trans (gi_at A r _)).trans ?_
  · idx2
  · rfl

/-- The hidden side's reset pre-activation. -/
theorem hr_at (r : Fin 32768) (j : Fin 200) :
    val_main_v25 (F := Ideal) A.x2 A.x6 A.x7 (ix2 r j) = dense (rowOf A.x2 r) A.P.wHr A.P.bHr j := by
  rw [val_main_v25_apply]
  refine ((congrArg (val_main_v21 (F := Ideal) A.x2 A.x6 A.x7)
    (?_ : idx_main_v25 (ix2 r j) = ix2 r (⟨j.val, by have := j.isLt; omega⟩ : Fin 600))).trans (gh_at A r _)).trans ?_
  · idx2
  · rfl

/-- The hidden side's update pre-activation. -/
theorem hz_at (r : Fin 32768) (j : Fin 200) :
    val_main_v26 (F := Ideal) A.x2 A.x6 A.x7 (ix2 r j) = dense (rowOf A.x2 r) A.P.wHz A.P.bHz j := by
  rw [val_main_v26_apply]
  refine ((congrArg (val_main_v21 (F := Ideal) A.x2 A.x6 A.x7)
    (?_ : idx_main_v26 (ix2 r j) = ix2 r (⟨200 + j.val, by have := j.isLt; omega⟩ : Fin 600))).trans (gh_at A r _)).trans ?_
  · idx2
  · rfl

/-- The hidden side's candidate pre-activation. -/
theorem hn_at (r : Fin 32768) (j : Fin 200) :
    val_main_v27 (F := Ideal) A.x2 A.x6 A.x7 (ix2 r j) = dense (rowOf A.x2 r) A.P.wHn A.P.bHn j := by
  rw [val_main_v27_apply]
  refine ((congrArg (val_main_v21 (F := Ideal) A.x2 A.x6 A.x7)
    (?_ : idx_main_v27 (ix2 r j) = ix2 r (⟨400 + j.val, by have := j.isLt; omega⟩ : Fin 600))).trans (gh_at A r _)).trans ?_
  · idx2
  · rfl

/-! ## The new hidden state -/

/-- The gated step at (r, j): both logistics are spelled 1 / (1 + exp (-v)). -/
theorem h_at (r : Fin 32768) (j : Fin 200) :
    val_main_v49 (F := Ideal) A.x0 A.x1 A.x2 A.x4 A.x5 A.x6 A.x7 A.x8 A.x9 A.x10 A.x11 (ix2 r j) = hRow A.P (rowOf A.x0 r) (rowOf A.x1 r) (rowOf A.x2 r) j := by
  rw [val_main_v49_apply, val_main_v47_apply, val_main_v48_apply, val_main_v46_apply, val_main_v44_apply,
    val_main_v43_apply, val_main_v42_apply, val_main_v41_apply, val_main_v34_apply, val_main_v39_apply,
    val_main_v32_apply, val_main_v37_apply, val_main_v30_apply, val_main_v36_apply, val_main_v29_apply,
    val_main_v35_apply, val_main_v28_apply, val_main_v45_apply, val_main_v40_apply, val_main_v38_apply,
    val_main_v33_apply, val_main_v31_apply, val_main_cst_apply, val_main_cst_0_apply, val_main_cst_1_apply,
    val_main_cst_2_apply, val_main_cst_3_apply, ir_at A, iz_at A, in_at A, hr_at A, hz_at A, hn_at A]
  simp only [Ideal.addf_def, Ideal.mulf_def, Ideal.subf_def, Ideal.hostDivf_def, Ideal.hostUnary_exp_def,
    Ideal.hostUnary_tanh_def, Ideal.hostNegf_def, Ideal.negf_def, Ideal.ofBits_def]
  rw [logistic_spelled, logistic_spelled]
  rfl

/-- The stable softplus as the reference spells it: a select on "the difference is not equal to itself", which is
    false, so the select takes its second branch, max y 0 + log1p (exp (-|y - 0|)). -/
theorem softplus_spelled (y : Ideal .f32) :
    (Scalar.select (FloatOps.cmpf (F := Ideal) .une (FloatOps.subf (F := Ideal) y (FloatOps.ofBits .f32 0x00000000#32))
        (FloatOps.subf (F := Ideal) y (FloatOps.ofBits .f32 0x00000000#32)))
      (FloatOps.addf (F := Ideal) y (FloatOps.ofBits .f32 0x00000000#32))
      (FloatOps.addf (F := Ideal) (FloatOps.maximumf (F := Ideal) y (FloatOps.ofBits .f32 0x00000000#32))
        (FloatOps.hostUnary (F := Ideal) .log1p (FloatOps.hostUnary (F := Ideal) .exp (FloatOps.hostNegf (F := Ideal)
          (FloatOps.hostAbsf (F := Ideal) (FloatOps.subf (F := Ideal) y (FloatOps.ofBits .f32 0x00000000#32))))))) : Ideal .f32)
      = softplus y := by
  rw [Ideal.cmpf_def, select_ne_self .une (Or.inr rfl)]
  rfl

/-! ## The prior head -/

/-- The prior head's hidden layer at (r, j), before the clamp. -/
theorem prior_pre_at (r : Fin 32768) (j : Fin 200) :
    val_main_v54 (F := Ideal) A.x0 A.x1 A.x2 A.x4 A.x5 A.x6 A.x7 A.x8 A.x9 A.x10 A.x11 A.x12 A.x13 (ix2 r j) = dense (hRow A.P (rowOf A.x0 r) (rowOf A.x1 r) (rowOf A.x2 r)) A.P.wPrior A.P.bPrior j := by
  rw [val_main_v54_apply, val_main_v51_apply, Ideal.addf_def]
  refine dense_of _ _ _ _ _ _ _ (fun k => ?_) (fun k => ?_) ?_
  · exact (congrArg (val_main_v49 (F := Ideal) A.x0 A.x1 A.x2 A.x4 A.x5 A.x6 A.x7 A.x8 A.x9 A.x10 A.x11) (by idx2)).trans (h_at A r k)
  · exact (val_main_v50_apply A.x12 _).trans (congrArg A.x12 (by idx2))
  · exact (val_main_v53_apply A.x13 _).trans ((val_main_v52_apply A.x13 _).trans (congrArg A.x13 (by idx1)))

/-- The prior head's hidden layer at (r, j). -/
theorem prior_at (r : Fin 32768) (j : Fin 200) :
    val_main_v55 (F := Ideal) A.x0 A.x1 A.x2 A.x4 A.x5 A.x6 A.x7 A.x8 A.x9 A.x10 A.x11 A.x12 A.x13 (ix2 r j) = priorRow A.P (rowOf A.x0 r) (rowOf A.x1 r) (rowOf A.x2 r) j := by
  rw [val_main_v55_apply, val_main_call1_v0_apply, val_main_call1_cst_apply, prior_pre_at]
  rfl

/-- The prior mean at (r, s). -/
theorem pm_at (r : Fin 32768) (s : Fin 32) :
    val_main_v60 (F := Ideal) A.x0 A.x1 A.x2 A.x4 A.x5 A.x6 A.x7 A.x8 A.x9 A.x10 A.x11 A.x12 A.x13 A.x14 A.x15 (ix2 r s) = priorMeanRow A.P (rowOf A.x0 r) (rowOf A.x1 r) (rowOf A.x2 r) s := by
  rw [val_main_v60_apply, val_main_v57_apply, Ideal.addf_def]
  refine dense_of _ _ _ _ _ _ _ (fun k => ?_) (fun k => ?_) ?_
  · exact (congrArg (val_main_v55 (F := Ideal) A.x0 A.x1 A.x2 A.x4 A.x5 A.x6 A.x7 A.x8 A.x9 A.x10 A.x11 A.x12 A.x13) (by idx2)).trans (prior_at A r k)
  · exact (val_main_v56_apply A.x14 _).trans (congrArg A.x14 (by idx2))
  · exact (val_main_v59_apply A.x15 _).trans ((val_main_v58_apply A.x15 _).trans (congrArg A.x15 (by idx1)))

/-- The prior deviation's pre-activation at (r, s). -/
theorem ps_pre_at (r : Fin 32768) (s : Fin 32) :
    val_main_v65 (F := Ideal) A.x0 A.x1 A.x2 A.x4 A.x5 A.x6 A.x7 A.x8 A.x9 A.x10 A.x11 A.x12 A.x13 A.x16 A.x17 (ix2 r s) = dense (priorRow A.P (rowOf A.x0 r) (rowOf A.x1 r) (rowOf A.x2 r)) A.P.wPs A.P.bPs s := by
  rw [val_main_v65_apply, val_main_v62_apply, Ideal.addf_def]
  refine dense_of _ _ _ _ _ _ _ (fun k => ?_) (fun k => ?_) ?_
  · exact (congrArg (val_main_v55 (F := Ideal) A.x0 A.x1 A.x2 A.x4 A.x5 A.x6 A.x7 A.x8 A.x9 A.x10 A.x11 A.x12 A.x13) (by idx2)).trans (prior_at A r k)
  · exact (val_main_v61_apply A.x16 _).trans (congrArg A.x16 (by idx2))
  · exact (val_main_v64_apply A.x17 _).trans ((val_main_v63_apply A.x17 _).trans (congrArg A.x17 (by idx1)))

/-- The prior deviation at (r, s): the softplus of the pre-activation, plus the word of one tenth. -/
theorem ps_at (r : Fin 32768) (s : Fin 32) :
    val_main_v68 (F := Ideal) A.x0 A.x1 A.x2 A.x4 A.x5 A.x6 A.x7 A.x8 A.x9 A.x10 A.x11 A.x12 A.x13 A.x16 A.x17 (ix2 r s) = priorStdRow A.P (rowOf A.x0 r) (rowOf A.x1 r) (rowOf A.x2 r) s := by
  rw [val_main_v68_apply, val_main_v66_apply, val_main_v67_apply, val_main_cst_4_apply,
    val_main_call2_v4_apply, val_main_call2_v6_apply, val_main_call2_v11_apply, val_main_call2_v1_apply,
    val_main_call2_v10_apply, val_main_call2_v9_apply, val_main_call2_v8_apply, val_main_call2_v7_apply,
    val_main_call2_v3_apply, val_main_call2_v0_apply, val_main_call2_v2_apply, val_main_call2_v5_apply,
    val_main_call2_cst_apply, ps_pre_at, softplus_spelled]
  rfl

/-! ## The posterior head -/

/-- The posterior head's hidden layer at (r, j), before the clamp: the contraction over the joined row of 1224
    positions is cut at 200 into the hidden part and the observation part. -/
theorem post_pre_at (r : Fin 32768) (j : Fin 200) :
    val_main_v74 (F := Ideal) A.x0 A.x1 A.x2 A.x4 A.x5 A.x6 A.x7 A.x8 A.x9 A.x10 A.x11 A.x18 A.x19 (ix2 r j)
      = ((∑ k : Fin 200, hRow A.P (rowOf A.x0 r) (rowOf A.x1 r) (rowOf A.x2 r) k * A.P.wPostH k j)
          + (∑ k : Fin 1024, rowOf A.x1 r k * A.P.wPostO k j)) + A.P.bPost j := by
  rw [val_main_v74_apply, val_main_v71_apply, Ideal.addf_def, sum_split]
  refine congrArg₂ (· + ·) (congrArg₂ (· + ·) (Finset.sum_congr rfl fun k _ => ?_) (Finset.sum_congr rfl fun k _ => ?_)) ?_
  · refine congrArg₂ (· * ·) ?_ ((val_main_v70_apply A.x18 _).trans (congrArg A.x18 (by idx2)))
    unfold val_main_v69
    refine (concatenate_pair_apply_left (t := S32768x1224) (s₁ := S32768x200) (s₂ := S32768x1024) 1 _ A.x1
      Gen.concatenates_S32768x200_S32768x1024_S32768x1224_d1 _ rfl (ix2 r k) (fun b => ?_)).trans (h_at A r k)
    match b with
    | ⟨0, _⟩ => rfl
    | ⟨1, _⟩ => rfl
  · refine congrArg₂ (· * ·) ?_ ((val_main_v70_apply A.x18 _).trans (congrArg A.x18 (by idx2)))
    unfold val_main_v69
    refine concatenate_pair_apply_right (t := S32768x1224) (s₁ := S32768x200) (s₂ := S32768x1024) 1 _ A.x1
      Gen.concatenates_S32768x200_S32768x1024_S32768x1224_d1 _ rfl rfl (ix2 r k) (fun b hb => ?_) ?_
    · match b with
      | ⟨0, _⟩ => rfl
      | ⟨1, _⟩ => exact absurd rfl hb
    · show k.val + 200 = 200 + k.val
      omega
  · exact (val_main_v73_apply A.x19 _).trans ((val_main_v72_apply A.x19 _).trans (congrArg A.x19 (by idx1)))

/-- The posterior head's hidden layer at (r, j). -/
theorem post_at (r : Fin 32768) (j : Fin 200) :
    val_main_v75 (F := Ideal) A.x0 A.x1 A.x2 A.x4 A.x5 A.x6 A.x7 A.x8 A.x9 A.x10 A.x11 A.x18 A.x19 (ix2 r j) = postRow A.P (rowOf A.x0 r) (rowOf A.x1 r) (rowOf A.x2 r) j := by
  rw [val_main_v75_apply, val_main_call3_v0_apply, val_main_call3_cst_apply, post_pre_at]
  rfl

/-- The posterior mean at (r, s). -/
theorem qm_at (r : Fin 32768) (s : Fin 32) :
    val_main_v80 (F := Ideal) A.x0 A.x1 A.x2 A.x4 A.x5 A.x6 A.x7 A.x8 A.x9 A.x10 A.x11 A.x18 A.x19 A.x20 A.x21 (ix2 r s) = postMeanRow A.P (rowOf A.x0 r) (rowOf A.x1 r) (rowOf A.x2 r) s := by
  rw [val_main_v80_apply, val_main_v77_apply, Ideal.addf_def]
  refine dense_of _ _ _ _ _ _ _ (fun k => ?_) (fun k => ?_) ?_
  · exact (congrArg (val_main_v75 (F := Ideal) A.x0 A.x1 A.x2 A.x4 A.x5 A.x6 A.x7 A.x8 A.x9 A.x10 A.x11 A.x18 A.x19) (by idx2)).trans (post_at A r k)
  · exact (val_main_v76_apply A.x20 _).trans (congrArg A.x20 (by idx2))
  · exact (val_main_v79_apply A.x21 _).trans ((val_main_v78_apply A.x21 _).trans (congrArg A.x21 (by idx1)))

/-- The posterior deviation's pre-activation at (r, s). -/
theorem qs_pre_at (r : Fin 32768) (s : Fin 32) :
    val_main_v85 (F := Ideal) A.x0 A.x1 A.x2 A.x4 A.x5 A.x6 A.x7 A.x8 A.x9 A.x10 A.x11 A.x18 A.x19 A.x22 A.x23 (ix2 r s) = dense (postRow A.P (rowOf A.x0 r) (rowOf A.x1 r) (rowOf A.x2 r)) A.P.wQs A.P.bQs s := by
  rw [val_main_v85_apply, val_main_v82_apply, Ideal.addf_def]
  refine dense_of _ _ _ _ _ _ _ (fun k => ?_) (fun k => ?_) ?_
  · exact (congrArg (val_main_v75 (F := Ideal) A.x0 A.x1 A.x2 A.x4 A.x5 A.x6 A.x7 A.x8 A.x9 A.x10 A.x11 A.x18 A.x19) (by idx2)).trans (post_at A r k)
  · exact (val_main_v81_apply A.x22 _).trans (congrArg A.x22 (by idx2))
  · exact (val_main_v84_apply A.x23 _).trans ((val_main_v83_apply A.x23 _).trans (congrArg A.x23 (by idx1)))

/-- The posterior deviation at (r, s). -/
theorem qs_at (r : Fin 32768) (s : Fin 32) :
    val_main_v88 (F := Ideal) A.x0 A.x1 A.x2 A.x4 A.x5 A.x6 A.x7 A.x8 A.x9 A.x10 A.x11 A.x18 A.x19 A.x22 A.x23 (ix2 r s) = postStdRow A.P (rowOf A.x0 r) (rowOf A.x1 r) (rowOf A.x2 r) s := by
  rw [val_main_v88_apply, val_main_v86_apply, val_main_v87_apply, val_main_cst_5_apply,
    val_main_call4_v4_apply, val_main_call4_v6_apply, val_main_call4_v11_apply, val_main_call4_v1_apply,
    val_main_call4_v10_apply, val_main_call4_v9_apply, val_main_call4_v8_apply, val_main_call4_v7_apply,
    val_main_call4_v3_apply, val_main_call4_v0_apply, val_main_call4_v2_apply, val_main_call4_v5_apply,
    val_main_call4_cst_apply, qs_pre_at, softplus_spelled]
  rfl

/-- The posterior sample at (r, s): the mean plus the deviation times the noise entry. -/
theorem z_at (r : Fin 32768) (s : Fin 32) :
    val_main_v90 (F := Ideal) A.x0 A.x1 A.x2 A.x3 A.x4 A.x5 A.x6 A.x7 A.x8 A.x9 A.x10 A.x11 A.x18 A.x19 A.x20 A.x21 A.x22 A.x23 (ix2 r s) = zRow A.P (rowOf A.x0 r) (rowOf A.x1 r) (rowOf A.x2 r) (rowOf A.x3 r) s := by
  rw [val_main_v90_apply, val_main_v89_apply, qm_at, qs_at]
  rfl

/-! ## The six results as whole arrays -/

theorem h_all : val_main_v49 (F := Ideal) A.x0 A.x1 A.x2 A.x4 A.x5 A.x6 A.x7 A.x8 A.x9 A.x10 A.x11 = Gh A.P A.x0 A.x1 A.x2 := by
  funext i
  obtain ⟨r, j, rfl⟩ : ∃ (r : Fin 32768) (j : Fin 200), i = ix2 r j := ⟨i 0, i 1, eq_ix2 i⟩
  exact h_at A r j

theorem z_all : val_main_v90 (F := Ideal) A.x0 A.x1 A.x2 A.x3 A.x4 A.x5 A.x6 A.x7 A.x8 A.x9 A.x10 A.x11 A.x18 A.x19 A.x20 A.x21 A.x22 A.x23 = Gz A.P A.x0 A.x1 A.x2 A.x3 := by
  funext i
  obtain ⟨r, s, rfl⟩ : ∃ (r : Fin 32768) (s : Fin 32), i = ix2 r s := ⟨i 0, i 1, eq_ix2 i⟩
  exact z_at A r s

theorem qm_all : val_main_v80 (F := Ideal) A.x0 A.x1 A.x2 A.x4 A.x5 A.x6 A.x7 A.x8 A.x9 A.x10 A.x11 A.x18 A.x19 A.x20 A.x21 = Gqm A.P A.x0 A.x1 A.x2 := by
  funext i
  obtain ⟨r, s, rfl⟩ : ∃ (r : Fin 32768) (s : Fin 32), i = ix2 r s := ⟨i 0, i 1, eq_ix2 i⟩
  exact qm_at A r s

theorem qs_all : val_main_v88 (F := Ideal) A.x0 A.x1 A.x2 A.x4 A.x5 A.x6 A.x7 A.x8 A.x9 A.x10 A.x11 A.x18 A.x19 A.x22 A.x23 = Gqs A.P A.x0 A.x1 A.x2 := by
  funext i
  obtain ⟨r, s, rfl⟩ : ∃ (r : Fin 32768) (s : Fin 32), i = ix2 r s := ⟨i 0, i 1, eq_ix2 i⟩
  exact qs_at A r s

theorem pm_all : val_main_v60 (F := Ideal) A.x0 A.x1 A.x2 A.x4 A.x5 A.x6 A.x7 A.x8 A.x9 A.x10 A.x11 A.x12 A.x13 A.x14 A.x15 = Gpm A.P A.x0 A.x1 A.x2 := by
  funext i
  obtain ⟨r, s, rfl⟩ : ∃ (r : Fin 32768) (s : Fin 32), i = ix2 r s := ⟨i 0, i 1, eq_ix2 i⟩
  exact pm_at A r s

theorem ps_all : val_main_v68 (F := Ideal) A.x0 A.x1 A.x2 A.x4 A.x5 A.x6 A.x7 A.x8 A.x9 A.x10 A.x11 A.x12 A.x13 A.x16 A.x17 = Gps A.P A.x0 A.x1 A.x2 := by
  funext i
  obtain ⟨r, s, rfl⟩ : ∃ (r : Fin 32768) (s : Fin 32), i = ix2 r s := ⟨i 0, i 1, eq_ix2 i⟩
  exact ps_at A r s

/-! ## The six results, for all twenty-four argument arrays -/

/-- The reference's new hidden state is the row function hRow applied to every row. -/
theorem ref_h
    (x0 : (⟨S32768x6, .f32⟩ : BufTy).Contents (Elt Ideal)) (x1 : (⟨S32768x1024, .f32⟩ : BufTy).Contents (Elt Ideal)) (x2 : (⟨S32768x200, .f32⟩ : BufTy).Contents (Elt Ideal)) (x3 : (⟨S32768x32, .f32⟩ : BufTy).Contents (Elt Ideal))
    (x4 : (⟨S600x200, .f32⟩ : BufTy).Contents (Elt Ideal)) (x5 : (⟨S600, .f32⟩ : BufTy).Contents (Elt Ideal)) (x6 : (⟨S600x200, .f32⟩ : BufTy).Contents (Elt Ideal)) (x7 : (⟨S600, .f32⟩ : BufTy).Contents (Elt Ideal))
    (x8 : (⟨S200x6, .f32⟩ : BufTy).Contents (Elt Ideal)) (x9 : (⟨S200, .f32⟩ : BufTy).Contents (Elt Ideal)) (x10 : (⟨S200x1024, .f32⟩ : BufTy).Contents (Elt Ideal)) (x11 : (⟨S200, .f32⟩ : BufTy).Contents (Elt Ideal))
    (x12 : (⟨S200x200, .f32⟩ : BufTy).Contents (Elt Ideal)) (x13 : (⟨S200, .f32⟩ : BufTy).Contents (Elt Ideal)) (x14 : (⟨S32x200, .f32⟩ : BufTy).Contents (Elt Ideal)) (x15 : (⟨S32, .f32⟩ : BufTy).Contents (Elt Ideal))
    (x16 : (⟨S32x200, .f32⟩ : BufTy).Contents (Elt Ideal)) (x17 : (⟨S32, .f32⟩ : BufTy).Contents (Elt Ideal)) (x18 : (⟨S200x1224, .f32⟩ : BufTy).Contents (Elt Ideal)) (x19 : (⟨S200, .f32⟩ : BufTy).Contents (Elt Ideal))
    (x20 : (⟨S32x200, .f32⟩ : BufTy).Contents (Elt Ideal)) (x21 : (⟨S32, .f32⟩ : BufTy).Contents (Elt Ideal)) (x22 : (⟨S32x200, .f32⟩ : BufTy).Contents (Elt Ideal)) (x23 : (⟨S32, .f32⟩ : BufTy).Contents (Elt Ideal)) :
    val_main_v49 (F := Ideal) x0 x1 x2 x4 x5 x6 x7 x8 x9 x10 x11
      = Gh (paramsOf x4 x5 x6 x7 x8 x9 x10 x11 x12 x13 x14 x15 x16 x17 x18 x19 x20 x21 x22 x23) x0 x1 x2 :=
  h_all ⟨x0, x1, x2, x3, x4, x5, x6, x7, x8, x9, x10, x11, x12, x13, x14, x15, x16, x17, x18, x19, x20, x21, x22, x23⟩

/-- The reference's posterior sample is zRow applied to every row. -/
theorem ref_z
    (x0 : (⟨S32768x6, .f32⟩ : BufTy).Contents (Elt Ideal)) (x1 : (⟨S32768x1024, .f32⟩ : BufTy).Contents (Elt Ideal)) (x2 : (⟨S32768x200, .f32⟩ : BufTy).Contents (Elt Ideal)) (x3 : (⟨S32768x32, .f32⟩ : BufTy).Contents (Elt Ideal))
    (x4 : (⟨S600x200, .f32⟩ : BufTy).Contents (Elt Ideal)) (x5 : (⟨S600, .f32⟩ : BufTy).Contents (Elt Ideal)) (x6 : (⟨S600x200, .f32⟩ : BufTy).Contents (Elt Ideal)) (x7 : (⟨S600, .f32⟩ : BufTy).Contents (Elt Ideal))
    (x8 : (⟨S200x6, .f32⟩ : BufTy).Contents (Elt Ideal)) (x9 : (⟨S200, .f32⟩ : BufTy).Contents (Elt Ideal)) (x10 : (⟨S200x1024, .f32⟩ : BufTy).Contents (Elt Ideal)) (x11 : (⟨S200, .f32⟩ : BufTy).Contents (Elt Ideal))
    (x12 : (⟨S200x200, .f32⟩ : BufTy).Contents (Elt Ideal)) (x13 : (⟨S200, .f32⟩ : BufTy).Contents (Elt Ideal)) (x14 : (⟨S32x200, .f32⟩ : BufTy).Contents (Elt Ideal)) (x15 : (⟨S32, .f32⟩ : BufTy).Contents (Elt Ideal))
    (x16 : (⟨S32x200, .f32⟩ : BufTy).Contents (Elt Ideal)) (x17 : (⟨S32, .f32⟩ : BufTy).Contents (Elt Ideal)) (x18 : (⟨S200x1224, .f32⟩ : BufTy).Contents (Elt Ideal)) (x19 : (⟨S200, .f32⟩ : BufTy).Contents (Elt Ideal))
    (x20 : (⟨S32x200, .f32⟩ : BufTy).Contents (Elt Ideal)) (x21 : (⟨S32, .f32⟩ : BufTy).Contents (Elt Ideal)) (x22 : (⟨S32x200, .f32⟩ : BufTy).Contents (Elt Ideal)) (x23 : (⟨S32, .f32⟩ : BufTy).Contents (Elt Ideal)) :
    val_main_v90 (F := Ideal) x0 x1 x2 x3 x4 x5 x6 x7 x8 x9 x10 x11 x18 x19 x20 x21 x22 x23
      = Gz (paramsOf x4 x5 x6 x7 x8 x9 x10 x11 x12 x13 x14 x15 x16 x17 x18 x19 x20 x21 x22 x23) x0 x1 x2 x3 :=
  z_all ⟨x0, x1, x2, x3, x4, x5, x6, x7, x8, x9, x10, x11, x12, x13, x14, x15, x16, x17, x18, x19, x20, x21, x22, x23⟩

/-- The reference's posterior mean is postMeanRow applied to every row. -/
theorem ref_qm
    (x0 : (⟨S32768x6, .f32⟩ : BufTy).Contents (Elt Ideal)) (x1 : (⟨S32768x1024, .f32⟩ : BufTy).Contents (Elt Ideal)) (x2 : (⟨S32768x200, .f32⟩ : BufTy).Contents (Elt Ideal)) (x3 : (⟨S32768x32, .f32⟩ : BufTy).Contents (Elt Ideal))
    (x4 : (⟨S600x200, .f32⟩ : BufTy).Contents (Elt Ideal)) (x5 : (⟨S600, .f32⟩ : BufTy).Contents (Elt Ideal)) (x6 : (⟨S600x200, .f32⟩ : BufTy).Contents (Elt Ideal)) (x7 : (⟨S600, .f32⟩ : BufTy).Contents (Elt Ideal))
    (x8 : (⟨S200x6, .f32⟩ : BufTy).Contents (Elt Ideal)) (x9 : (⟨S200, .f32⟩ : BufTy).Contents (Elt Ideal)) (x10 : (⟨S200x1024, .f32⟩ : BufTy).Contents (Elt Ideal)) (x11 : (⟨S200, .f32⟩ : BufTy).Contents (Elt Ideal))
    (x12 : (⟨S200x200, .f32⟩ : BufTy).Contents (Elt Ideal)) (x13 : (⟨S200, .f32⟩ : BufTy).Contents (Elt Ideal)) (x14 : (⟨S32x200, .f32⟩ : BufTy).Contents (Elt Ideal)) (x15 : (⟨S32, .f32⟩ : BufTy).Contents (Elt Ideal))
    (x16 : (⟨S32x200, .f32⟩ : BufTy).Contents (Elt Ideal)) (x17 : (⟨S32, .f32⟩ : BufTy).Contents (Elt Ideal)) (x18 : (⟨S200x1224, .f32⟩ : BufTy).Contents (Elt Ideal)) (x19 : (⟨S200, .f32⟩ : BufTy).Contents (Elt Ideal))
    (x20 : (⟨S32x200, .f32⟩ : BufTy).Contents (Elt Ideal)) (x21 : (⟨S32, .f32⟩ : BufTy).Contents (Elt Ideal)) (x22 : (⟨S32x200, .f32⟩ : BufTy).Contents (Elt Ideal)) (x23 : (⟨S32, .f32⟩ : BufTy).Contents (Elt Ideal)) :
    val_main_v80 (F := Ideal) x0 x1 x2 x4 x5 x6 x7 x8 x9 x10 x11 x18 x19 x20 x21
      = Gqm (paramsOf x4 x5 x6 x7 x8 x9 x10 x11 x12 x13 x14 x15 x16 x17 x18 x19 x20 x21 x22 x23) x0 x1 x2 :=
  qm_all ⟨x0, x1, x2, x3, x4, x5, x6, x7, x8, x9, x10, x11, x12, x13, x14, x15, x16, x17, x18, x19, x20, x21, x22, x23⟩

/-- The reference's posterior deviation is postStdRow applied to every row. -/
theorem ref_qs
    (x0 : (⟨S32768x6, .f32⟩ : BufTy).Contents (Elt Ideal)) (x1 : (⟨S32768x1024, .f32⟩ : BufTy).Contents (Elt Ideal)) (x2 : (⟨S32768x200, .f32⟩ : BufTy).Contents (Elt Ideal)) (x3 : (⟨S32768x32, .f32⟩ : BufTy).Contents (Elt Ideal))
    (x4 : (⟨S600x200, .f32⟩ : BufTy).Contents (Elt Ideal)) (x5 : (⟨S600, .f32⟩ : BufTy).Contents (Elt Ideal)) (x6 : (⟨S600x200, .f32⟩ : BufTy).Contents (Elt Ideal)) (x7 : (⟨S600, .f32⟩ : BufTy).Contents (Elt Ideal))
    (x8 : (⟨S200x6, .f32⟩ : BufTy).Contents (Elt Ideal)) (x9 : (⟨S200, .f32⟩ : BufTy).Contents (Elt Ideal)) (x10 : (⟨S200x1024, .f32⟩ : BufTy).Contents (Elt Ideal)) (x11 : (⟨S200, .f32⟩ : BufTy).Contents (Elt Ideal))
    (x12 : (⟨S200x200, .f32⟩ : BufTy).Contents (Elt Ideal)) (x13 : (⟨S200, .f32⟩ : BufTy).Contents (Elt Ideal)) (x14 : (⟨S32x200, .f32⟩ : BufTy).Contents (Elt Ideal)) (x15 : (⟨S32, .f32⟩ : BufTy).Contents (Elt Ideal))
    (x16 : (⟨S32x200, .f32⟩ : BufTy).Contents (Elt Ideal)) (x17 : (⟨S32, .f32⟩ : BufTy).Contents (Elt Ideal)) (x18 : (⟨S200x1224, .f32⟩ : BufTy).Contents (Elt Ideal)) (x19 : (⟨S200, .f32⟩ : BufTy).Contents (Elt Ideal))
    (x20 : (⟨S32x200, .f32⟩ : BufTy).Contents (Elt Ideal)) (x21 : (⟨S32, .f32⟩ : BufTy).Contents (Elt Ideal)) (x22 : (⟨S32x200, .f32⟩ : BufTy).Contents (Elt Ideal)) (x23 : (⟨S32, .f32⟩ : BufTy).Contents (Elt Ideal)) :
    val_main_v88 (F := Ideal) x0 x1 x2 x4 x5 x6 x7 x8 x9 x10 x11 x18 x19 x22 x23
      = Gqs (paramsOf x4 x5 x6 x7 x8 x9 x10 x11 x12 x13 x14 x15 x16 x17 x18 x19 x20 x21 x22 x23) x0 x1 x2 :=
  qs_all ⟨x0, x1, x2, x3, x4, x5, x6, x7, x8, x9, x10, x11, x12, x13, x14, x15, x16, x17, x18, x19, x20, x21, x22, x23⟩

/-- The reference's prior mean is priorMeanRow applied to every row. -/
theorem ref_pm
    (x0 : (⟨S32768x6, .f32⟩ : BufTy).Contents (Elt Ideal)) (x1 : (⟨S32768x1024, .f32⟩ : BufTy).Contents (Elt Ideal)) (x2 : (⟨S32768x200, .f32⟩ : BufTy).Contents (Elt Ideal)) (x3 : (⟨S32768x32, .f32⟩ : BufTy).Contents (Elt Ideal))
    (x4 : (⟨S600x200, .f32⟩ : BufTy).Contents (Elt Ideal)) (x5 : (⟨S600, .f32⟩ : BufTy).Contents (Elt Ideal)) (x6 : (⟨S600x200, .f32⟩ : BufTy).Contents (Elt Ideal)) (x7 : (⟨S600, .f32⟩ : BufTy).Contents (Elt Ideal))
    (x8 : (⟨S200x6, .f32⟩ : BufTy).Contents (Elt Ideal)) (x9 : (⟨S200, .f32⟩ : BufTy).Contents (Elt Ideal)) (x10 : (⟨S200x1024, .f32⟩ : BufTy).Contents (Elt Ideal)) (x11 : (⟨S200, .f32⟩ : BufTy).Contents (Elt Ideal))
    (x12 : (⟨S200x200, .f32⟩ : BufTy).Contents (Elt Ideal)) (x13 : (⟨S200, .f32⟩ : BufTy).Contents (Elt Ideal)) (x14 : (⟨S32x200, .f32⟩ : BufTy).Contents (Elt Ideal)) (x15 : (⟨S32, .f32⟩ : BufTy).Contents (Elt Ideal))
    (x16 : (⟨S32x200, .f32⟩ : BufTy).Contents (Elt Ideal)) (x17 : (⟨S32, .f32⟩ : BufTy).Contents (Elt Ideal)) (x18 : (⟨S200x1224, .f32⟩ : BufTy).Contents (Elt Ideal)) (x19 : (⟨S200, .f32⟩ : BufTy).Contents (Elt Ideal))
    (x20 : (⟨S32x200, .f32⟩ : BufTy).Contents (Elt Ideal)) (x21 : (⟨S32, .f32⟩ : BufTy).Contents (Elt Ideal)) (x22 : (⟨S32x200, .f32⟩ : BufTy).Contents (Elt Ideal)) (x23 : (⟨S32, .f32⟩ : BufTy).Contents (Elt Ideal)) :
    val_main_v60 (F := Ideal) x0 x1 x2 x4 x5 x6 x7 x8 x9 x10 x11 x12 x13 x14 x15
      = Gpm (paramsOf x4 x5 x6 x7 x8 x9 x10 x11 x12 x13 x14 x15 x16 x17 x18 x19 x20 x21 x22 x23) x0 x1 x2 :=
  pm_all ⟨x0, x1, x2, x3, x4, x5, x6, x7, x8, x9, x10, x11, x12, x13, x14, x15, x16, x17, x18, x19, x20, x21, x22, x23⟩

/-- The reference's prior deviation is priorStdRow applied to every row. -/
theorem ref_ps
    (x0 : (⟨S32768x6, .f32⟩ : BufTy).Contents (Elt Ideal)) (x1 : (⟨S32768x1024, .f32⟩ : BufTy).Contents (Elt Ideal)) (x2 : (⟨S32768x200, .f32⟩ : BufTy).Contents (Elt Ideal)) (x3 : (⟨S32768x32, .f32⟩ : BufTy).Contents (Elt Ideal))
    (x4 : (⟨S600x200, .f32⟩ : BufTy).Contents (Elt Ideal)) (x5 : (⟨S600, .f32⟩ : BufTy).Contents (Elt Ideal)) (x6 : (⟨S600x200, .f32⟩ : BufTy).Contents (Elt Ideal)) (x7 : (⟨S600, .f32⟩ : BufTy).Contents (Elt Ideal))
    (x8 : (⟨S200x6, .f32⟩ : BufTy).Contents (Elt Ideal)) (x9 : (⟨S200, .f32⟩ : BufTy).Contents (Elt Ideal)) (x10 : (⟨S200x1024, .f32⟩ : BufTy).Contents (Elt Ideal)) (x11 : (⟨S200, .f32⟩ : BufTy).Contents (Elt Ideal))
    (x12 : (⟨S200x200, .f32⟩ : BufTy).Contents (Elt Ideal)) (x13 : (⟨S200, .f32⟩ : BufTy).Contents (Elt Ideal)) (x14 : (⟨S32x200, .f32⟩ : BufTy).Contents (Elt Ideal)) (x15 : (⟨S32, .f32⟩ : BufTy).Contents (Elt Ideal))
    (x16 : (⟨S32x200, .f32⟩ : BufTy).Contents (Elt Ideal)) (x17 : (⟨S32, .f32⟩ : BufTy).Contents (Elt Ideal)) (x18 : (⟨S200x1224, .f32⟩ : BufTy).Contents (Elt Ideal)) (x19 : (⟨S200, .f32⟩ : BufTy).Contents (Elt Ideal))
    (x20 : (⟨S32x200, .f32⟩ : BufTy).Contents (Elt Ideal)) (x21 : (⟨S32, .f32⟩ : BufTy).Contents (Elt Ideal)) (x22 : (⟨S32x200, .f32⟩ : BufTy).Contents (Elt Ideal)) (x23 : (⟨S32, .f32⟩ : BufTy).Contents (Elt Ideal)) :
    val_main_v68 (F := Ideal) x0 x1 x2 x4 x5 x6 x7 x8 x9 x10 x11 x12 x13 x16 x17
      = Gps (paramsOf x4 x5 x6 x7 x8 x9 x10 x11 x12 x13 x14 x15 x16 x17 x18 x19 x20 x21 x22 x23) x0 x1 x2 :=
  ps_all ⟨x0, x1, x2, x3, x4, x5, x6, x7, x8, x9, x10, x11, x12, x13, x14, x15, x16, x17, x18, x19, x20, x21, x22, x23⟩

end Cert.Rssm.Ref

end
-- ==== Proof.lean ====
/-
  The claim: five statements about three programs, the kernel over bit patterns, the kernel over the extended reals,
  and the reference over the extended reals.

  Three of them say that a program runs to its end from any memory and leaves its twenty-four argument arrays as they
  were. One says that reading the kernel over the extended reals changed no operation of it. The last says that the two
  programs read over the extended reals, started from memories that agree on the arguments, end with the same six
  result arrays: the new hidden state, the posterior sample, the posterior mean and deviation, the prior mean and
  deviation of one step of a recurrent state-space model.

  Both sides are joined through the row functions of the specification. The reference's six results are those row
  functions applied to every batch row: each dense layer is a product with the transposed weight array plus the bias
  laid along the rows, and the posterior layer's contraction over the joined row [h, o] of 200 + 1024 positions is cut at
  200 by the law that a sum over 200 + 1024 positions is the sum over the first 200 plus the sum over the last 1024. The
  kernel's six results are the same row functions: its padded and fused weight buffers read back, entry by entry, to the
  model's weights, and the padding columns of the gate buffers are never read. Since the two memories agree on the arguments, the
  parameters read off them are equal, and so are the results.
-/
import proofs.«108998_j15006615733147_2_alg».proof.Defs
import proofs.«108998_j15006615733147_2_alg».proof.Proof.Gen.Kernel
import proofs.«108998_j15006615733147_2_alg».proof.Proof.Gen.Kernel.Skeleton
import proofs.«108998_j15006615733147_2_alg».proof.Proof.Gen.Kernel.Launch
import proofs.«108998_j15006615733147_2_alg».proof.Proof.Gen.Kernel.Points
import proofs.«108998_j15006615733147_2_alg».proof.Proof.KernelFrameP
import proofs.«108998_j15006615733147_2_alg».proof.Proof.Gen.KernelIdeal
import proofs.«108998_j15006615733147_2_alg».proof.Proof.Gen.KernelIdeal.Skeleton
import proofs.«108998_j15006615733147_2_alg».proof.Proof.Gen.KernelIdeal.Launch
import proofs.«108998_j15006615733147_2_alg».proof.Proof.Gen.KernelIdeal.Points
import proofs.«108998_j15006615733147_2_alg».proof.Proof.KernelIdealFrameP
import proofs.«108998_j15006615733147_2_alg».proof.Proof.Gen.ReferenceIdeal
import proofs.«108998_j15006615733147_2_alg».proof.Proof.Gen.Pre_finite_inputs
import proofs.«108998_j15006615733147_2_alg».proof.Proof.Gen.ReferenceIdeal.Run
import proofs.«108998_j15006615733147_2_alg».proof.Proof.Gen.ReferenceIdeal.Read
import proofs.«108998_j15006615733147_2_alg».proof.Proof.KernelValue
import proofs.«108998_j15006615733147_2_alg».proof.Proof.RefValue
import Idealize.ShloMosaic.Adequacy
import Idealize.ShloMosaic.Init

noncomputable section

namespace Cert.Proof

open Idealize.ShloMosaic Idealize.SL.Sem Cert.Kernel

/-- The kernel over bit patterns runs to its end and leaves its arguments as they were. -/
theorem frame_k : Cert.frame_Kernel := fun m ρ _ => Cert.Kernel.GenP.frame m ρ

/-- The kernel over the extended reals runs to its end and leaves its arguments as they were. -/
theorem frame_ki : Cert.frame_KernelIdeal := fun m ρ _ => Cert.KernelIdeal.GenP.frame m ρ

/-- The reference over the extended reals runs to its end and leaves its arguments as they were: its run states the six
    results first and the twenty-four arguments after them. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- Reading the kernel over the extended reals rewrote no operation. -/
theorem preserves : Cert.preserves_Kernel_KernelIdeal := trivial

set_option maxRecDepth 8192 in
set_option maxHeartbeats 8000000 in
/-- From memories that agree on the arguments, both programs end with the six whole-array functions of the
    specification at the parameters read off the weight arguments, so with equal results. -/
theorem algebraic : Cert.algebraic_KernelIdeal_ReferenceIdeal := by
  intro m ρ m' ρ' _ hagree
  refine ⟨_, _, _, _, _, _, Cert.Rssm.Kernel.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18, e19, e20, e21, e22, e23⟩ := hagree c
  obtain ⟨h0, h1, h2, h3, h4, h5, hargs⟩ := h c
  refine ⟨h0.trans ?_, h1.trans ?_, h2.trans ?_, h3.trans ?_, h4.trans ?_, h5.trans ?_, hargs⟩
  · rw [Cert.ReferenceIdeal.Read.val_main_v49_eq, Cert.Rssm.Ref.ref_h
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
        (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))]
    unfold Cert.Rssm.Kernel.P
    rw [e0, e1, e2, e4, e5, e6, e7, e8, e9, e10, e11, e12, e13, e14, e15, e16, e17, e18, e19, e20, e21, e22, e23]
  · rw [Cert.ReferenceIdeal.Read.val_main_v90_eq, Cert.Rssm.Ref.ref_z
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
        (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))]
    unfold Cert.Rssm.Kernel.P
    rw [e0, e1, e2, e3, e4, e5, e6, e7, e8, e9, e10, e11, e12, e13, e14, e15, e16, e17, e18, e19, e20, e21, e22, e23]
  · rw [Cert.ReferenceIdeal.Read.val_main_v80_eq, Cert.Rssm.Ref.ref_qm
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
        (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))]
    unfold Cert.Rssm.Kernel.P
    rw [e0, e1, e2, e4, e5, e6, e7, e8, e9, e10, e11, e12, e13, e14, e15, e16, e17, e18, e19, e20, e21, e22, e23]
  · rw [Cert.ReferenceIdeal.Read.val_main_v88_eq, Cert.Rssm.Ref.ref_qs
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
        (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))]
    unfold Cert.Rssm.Kernel.P
    rw [e0, e1, e2, e4, e5, e6, e7, e8, e9, e10, e11, e12, e13, e14, e15, e16, e17, e18, e19, e20, e21, e22, e23]
  · rw [Cert.ReferenceIdeal.Read.val_main_v60_eq, Cert.Rssm.Ref.ref_pm
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
        (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))]
    unfold Cert.Rssm.Kernel.P
    rw [e0, e1, e2, e4, e5, e6, e7, e8, e9, e10, e11, e12, e13, e14, e15, e16, e17, e18, e19, e20, e21, e22, e23]
  · rw [Cert.ReferenceIdeal.Read.val_main_v68_eq, Cert.Rssm.Ref.ref_ps
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
        (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))]
    unfold Cert.Rssm.Kernel.P
    rw [e0, e1, e2, e4, e5, e6, e7, e8, e9, e10, e11, e12, e13, e14, e15, e16, e17, e18, e19, e20, e21, e22, e23]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
